-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v160)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v160) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v255) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x600000 : Shape := ⟨2, ![2, 600000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S4x128x128 : Shape := ⟨3, ![4, 128, 128]⟩
abbrev S4x128 : Shape := ⟨2, ![4, 128]⟩
abbrev S128x1 : Shape := ⟨2, ![128, 1]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg20 : FVec F S1 .f32) (main_v83 : IVec S_ 1) (main_v84 : FVec F S128x1 .f32) (main_cst_32 : FVec F S_ .f32) : IVec S_ 1 :=
  let main_v85 : FVec F S128x1 .f32 := broadcastInDim S128x1 ![] bcast_S_S128x1 main_cst_32
  let main_v86 : IVec S128x1 1 := cmpf .olt main_v84 main_v85
  let main_c_33 : IVec S_ 1 := constantI S_ 1 1#1
  let main_v87 : IVec S_ 1 := (fun x v => Host.reduce IntOp.andi x v reducesTo_S128x1_S_d0_1 h_S_) main_v86 main_c_33
  let main_v88 : IVec S_ 1 := andi main_v83 main_v87
  let main_v89 : FVec F S1 .f32 := Host.absf main_arg20
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg16 : FVec F S4x128 .f32) (main_arg17 : FVec F S4x128x128 .f32) (main_arg18 : FVec F S4x128 .f32) (main_arg19 : FVec F S128x1 .f32) (main_arg20 : FVec F S1 .f32) (main_v63 : IVec S_ 1) (main_v67 : IVec S_ 1) : IVec S_ 1 :=
  let main_v68 : IVec S_ 1 := andi main_v63 main_v67
  let main_v69 : FVec F S4x128 .f32 := Host.absf main_arg16
  let main_cst_26 : FVec F S_ .f32 := constant S_ .f32 0x7F800000#32
  let main_v70 : FVec F S4x128 .f32 := broadcastInDim S4x128 ![] bcast_S_S4x128 main_cst_26
  let main_v71 : IVec S4x128 1 := cmpf .olt main_v69 main_v70
  let main_c_27 : IVec S_ 1 := constantI S_ 1 1#1
  let main_v72 : IVec S_ 1 := (fun x v => Host.reduce IntOp.andi x v reducesTo_S4x128_S_d0_1 h_S_) main_v71 main_c_27
  let main_v73 : IVec S_ 1 := andi main_v68 main_v72
  let main_v74 : FVec F S4x128x128 .f32 := Host.absf main_arg17
  let main_cst_28 : FVec F S_ .f32 := constant S_ .f32 0x7F800000#32
  let main_v75 : FVec F S4x128x128 .f32 := broadcastInDim S4x128x128 ![] bcast_S_S4x128x128 main_cst_28
  let main_v76 : IVec S4x128x128 1 := cmpf .olt main_v74 main_v75
  let main_c_29 : IVec S_ 1 := constantI S_ 1 1#1
  let main_v77 : IVec S_ 1 := (fun x v => Host.reduce IntOp.andi x v reducesTo_S4x128x128_S_d0_1_2 h_S_) main_v76 main_c_29
  let main_v78 : IVec S_ 1 := andi main_v73 main_v77
  let main_v79 : FVec F S4x128 .f32 := Host.absf main_arg18
  let main_cst_30 : FVec F S_ .f32 := constant S_ .f32 0x7F800000#32
  let main_v80 : FVec F S4x128 .f32 := broadcastInDim S4x128 ![] bcast_S_S4x128 main_cst_30
  let main_v81 : IVec S4x128 1 := cmpf .olt main_v79 main_v80
  let main_c_31 : IVec S_ 1 := constantI S_ 1 1#1
  let main_v82 : IVec S_ 1 := (fun x v => Host.reduce IntOp.andi x v reducesTo_S4x128_S_d0_1 h_S_) main_v81 main_c_31
  let main_v83 : IVec S_ 1 := andi main_v78 main_v82
  let main_v84 : FVec F S128x1 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S4x128 .f32) (main_arg14 : FVec F S4x128 .f32) (main_arg15 : FVec F S4x128 .f32) (main_arg16 : FVec F S4x128 .f32) (main_arg17 : FVec F S4x128x128 .f32) (main_arg18 : FVec F S4x128 .f32) (main_arg19 : FVec F S128x1 .f32) (main_arg20 : FVec F S1 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S4x128 .f32 := Host.absf main_arg13
  let main_cst_20 : FVec F S_ .f32 := constant S_ .f32 0x7F800000#32
  let main_v55 : FVec F S4x128 .f32 := broadcastInDim S4x128 ![] bcast_S_S4x128 main_cst_20
  let main_v56 : IVec S4x128 1 := cmpf .olt main_v54 main_v55
  let main_c_21 : IVec S_ 1 := constantI S_ 1 1#1
  let main_v57 : IVec S_ 1 := (fun x v => Host.reduce IntOp.andi x v reducesTo_S4x128_S_d0_1 h_S_) main_v56 main_c_21
  let main_v58 : IVec S_ 1 := andi main_v53 main_v57
  let main_v59 : FVec F S4x128 .f32 := Host.absf main_arg14
  let main_cst_22 : FVec F S_ .f32 := constant S_ .f32 0x7F800000#32
  let main_v60 : FVec F S4x128 .f32 := broadcastInDim S4x128 ![] bcast_S_S4x128 main_cst_22
  let main_v61 : IVec S4x128 1 := cmpf .olt main_v59 main_v60
  let main_c_23 : IVec S_ 1 := constantI S_ 1 1#1
  let main_v62 : IVec S_ 1 := (fun x v => Host.reduce IntOp.andi x v reducesTo_S4x128_S_d0_1 h_S_) main_v61 main_c_23
  let main_v63 : IVec S_ 1 := andi main_v58 main_v62
  let main_v64 : FVec F S4x128 .f32 := Host.absf main_arg15
  let main_cst_24 : FVec F S_ .f32 := constant S_ .f32 0x7F800000#32
  let main_v65 : FVec F S4x128 .f32 := broadcastInDim S4x128 ![] bcast_S_S4x128 main_cst_24
  let main_v66 : IVec S4x128 1 := cmpf .olt main_v64 main_v65
  let main_c_25 : IVec S_ 1 := constantI S_ 1 1#1
  let main_v67 : IVec S_ 1 := (fun x v => Host.reduce IntOp.andi x v reducesTo_S4x128_S_d0_1 h_S_) main_v66 main_c_25
  fn_part4 (F := F) main_arg16 main_arg17 main_arg18 main_arg19 main_arg20 main_v63 main_v67

def fn_part2 {F : FTy → Type} [FloatOps F] (main_arg9 : FVec F S128x128 .f32) (main_arg10 : FVec F S128 .f32) (main_arg11 : FVec F S4x128x128 .f32) (main_arg12 : FVec F S4x128 .f32) (main_arg13 : FVec F S4x128 .f32) (main_arg14 : FVec F S4x128 .f32) (main_arg15 : FVec F S4x128 .f32) (main_arg16 : FVec F S4x128 .f32) (main_arg17 : FVec F S4x128x128 .f32) (main_arg18 : FVec F S4x128 .f32) (main_arg19 : FVec F S128x1 .f32) (main_arg20 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S4x128x128 .f32 := Host.absf main_arg11
  let main_cst_16 : FVec F S_ .f32 := constant S_ .f32 0x7F800000#32
  let main_v45 : FVec F S4x128x128 .f32 := broadcastInDim S4x128x128 ![] bcast_S_S4x128x128 main_cst_16
  let main_v46 : IVec S4x128x128 1 := cmpf .olt main_v44 main_v45
  let main_c_17 : IVec S_ 1 := constantI S_ 1 1#1
  let main_v47 : IVec S_ 1 := (fun x v => Host.reduce IntOp.andi x v reducesTo_S4x128x128_S_d0_1_2 h_S_) main_v46 main_c_17
  let main_v48 : IVec S_ 1 := andi main_v43 main_v47
  let main_v49 : FVec F S4x128 .f32 := Host.absf main_arg12
  let main_cst_18 : FVec F S_ .f32 := constant S_ .f32 0x7F800000#32
  let main_v50 : FVec F S4x128 .f32 := broadcastInDim S4x128 ![] bcast_S_S4x128 main_cst_18
  fn_part3 (F := F) main_arg13 main_arg14 main_arg15 main_arg16 main_arg17 main_arg18 main_arg19 main_arg20 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S4x128x128 .f32) (main_arg12 : FVec F S4x128 .f32) (main_arg13 : FVec F S4x128 .f32) (main_arg14 : FVec F S4x128 .f32) (main_arg15 : FVec F S4x128 .f32) (main_arg16 : FVec F S4x128 .f32) (main_arg17 : FVec F S4x128x128 .f32) (main_arg18 : FVec F S4x128 .f32) (main_arg19 : FVec F S128x1 .f32) (main_arg20 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S100000x3 .f32) (main_arg1 : IVec S2x600000 32) (main_arg2 : IVec S100000 32) (main_arg3 : FVec F S3x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S4x128x128 .f32) (main_arg12 : FVec F S4x128 .f32) (main_arg13 : FVec F S4x128 .f32) (main_arg14 : FVec F S4x128 .f32) (main_arg15 : FVec F S4x128 .f32) (main_arg16 : FVec F S4x128 .f32) (main_arg17 : FVec F S4x128x128 .f32) (main_arg18 : FVec F S4x128 .f32) (main_arg19 : FVec F S128x1 .f32) (main_arg20 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x128 .f32 := Host.absf main_arg3
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S100000x3 : Shape := ⟨2, ![100000, 3]⟩
abbrev S2x600000 : Shape := ⟨2, ![2, 600000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S4x128x128 : Shape := ⟨3, ![4, 128, 128]⟩
abbrev S4x128 : Shape := ⟨2, ![4, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x3 : Shape := ⟨2, ![600000, 3]⟩
abbrev S1x128 : Shape := ⟨2, ![1, 128]⟩
abbrev S100000x128 : Shape := ⟨2, ![100000, 128]⟩
abbrev S5000x3 : Shape := ⟨2, ![5000, 3]⟩
abbrev S5000x128 : Shape := ⟨2, ![5000, 128]⟩
abbrev S1x128x128 : Shape := ⟨3, ![1, 128, 128]⟩
abbrev S600000x128 : Shape := ⟨2, ![600000, 128]⟩
abbrev S1000x128 : Shape := ⟨2, ![1000, 128]⟩
abbrev S100000x1 : Shape := ⟨2, ![100000, 1]⟩
abbrev S1000x1 : Shape := ⟨2, ![1000, 1]⟩
abbrev S1x1 : Shape := ⟨2, ![1, 1]⟩
abbrev S1000 : Shape := ⟨1, ![1000]⟩

abbrev nBuf : Space → Nat
  | .hbm => 198
  | .vmem => 70
  | .smem => 0
  | _ => 0

abbrev hbmTy0_0 (i : Nat) : BufTy := match i % 128 with
  | 0 => ⟨S100000x3, .f32⟩
  | 1 => ⟨S2x600000, .i32⟩
  | 2 => ⟨S100000, .i32⟩
  | 3 => ⟨S3x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S4x128x128, .f32⟩
  | 12 => ⟨S4x128, .f32⟩
  | 13 => ⟨S4x128, .f32⟩
  | 14 => ⟨S4x128, .f32⟩
  | 15 => ⟨S4x128, .f32⟩
  | 16 => ⟨S4x128, .f32⟩
  | 17 => ⟨S4x128x128, .f32⟩
  | 18 => ⟨S4x128, .f32⟩
  | 19 => ⟨S128x1, .f32⟩
  | 20 => ⟨S1, .f32⟩
  | 21 => ⟨S1x600000, .i32⟩
  | 22 => ⟨S600000, .i32⟩
  | 23 => ⟨S1x600000, .i32⟩
  | 24 => ⟨S600000, .i32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000x3, .f32⟩
  | 34 => ⟨S_, .f32⟩
  | 35 => ⟨S100000x3, .f32⟩
  | 36 => ⟨S600000x1, .i32⟩
  | 37 => ⟨S100000x3, .f32⟩
  | 38 => ⟨S1x128, .f32⟩
  | 39 => ⟨S1x128, .f32⟩
  | 40 => ⟨S1x128, .f32⟩
  | 41 => ⟨S1x128, .f32⟩
  | 42 => ⟨S1x128, .f32⟩
  | 43 => ⟨S1x128, .f32⟩
  | 44 => ⟨S100000x128, .f32⟩
  | 45 => ⟨S1x128x128, .f32⟩
  | 46 => ⟨S128x128, .f32⟩
  | 47 => ⟨S1x128, .f32⟩
  | 48 => ⟨S128, .f32⟩
  | 49 => ⟨S1x128, .f32⟩
  | 50 => ⟨S128, .f32⟩
  | 51 => ⟨S1x128, .f32⟩
  | 52 => ⟨S128, .f32⟩
  | 53 => ⟨S1x128, .f32⟩
  | 54 => ⟨S128, .f32⟩
  | 55 => ⟨S1x128, .f32⟩
  | 56 => ⟨S128, .f32⟩
  | 57 => ⟨S1x128x128, .f32⟩
  | 58 => ⟨S128x128, .f32⟩
  | 59 => ⟨S1x128, .f32⟩
  | 60 => ⟨S128, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x128, .f32⟩
  | 70 => ⟨S_, .f32⟩
  | 71 => ⟨S100000x128, .f32⟩
  | 72 => ⟨S600000x1, .i32⟩
  | 73 => ⟨S100000x128, .f32⟩
  | 74 => ⟨S1x128, .f32⟩
  | 75 => ⟨S1x128, .f32⟩
  | 76 => ⟨S1x128, .f32⟩
  | 77 => ⟨S1x128, .f32⟩
  | 78 => ⟨S1x128, .f32⟩
  | 79 => ⟨S1x128, .f32⟩
  | 80 => ⟨S100000x128, .f32⟩
  | 81 => ⟨S1x128x128, .f32⟩
  | 82 => ⟨S128x128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S128, .f32⟩
  | 93 => ⟨S1x128x128, .f32⟩
  | 94 => ⟨S128x128, .f32⟩
  | 95 => ⟨S1x128, .f32⟩
  | 96 => ⟨S128, .f32⟩
  | 97 => ⟨S_, .i32⟩
  | 98 => ⟨S600000, .i32⟩
  | 99 => ⟨S600000, .i1⟩
  | 100 => ⟨S_, .i32⟩
  | 101 => ⟨S600000, .i32⟩
  | 102 => ⟨S600000, .i32⟩
  | 103 => ⟨S600000, .i32⟩
  | 104 => ⟨S600000x1, .i32⟩
  | 105 => ⟨S600000x128, .f32⟩
  | 106 => ⟨S_, .f32⟩
  | 107 => ⟨S100000x128, .f32⟩
  | 108 => ⟨S600000x1, .i32⟩
  | 109 => ⟨S100000x128, .f32⟩
  | 110 => ⟨S1x128, .f32⟩
  | 111 => ⟨S1x128, .f32⟩
  | 112 => ⟨S1x128, .f32⟩
  | 113 => ⟨S1x128, .f32⟩
  | 114 => ⟨S1x128, .f32⟩
  | 115 => ⟨S1x128, .f32⟩
  | 116 => ⟨S100000x128, .f32⟩
  | 117 => ⟨S1x128x128, .f32⟩
  | 118 => ⟨S128x128, .f32⟩
  | 119 => ⟨S1x128, .f32⟩
  | 120 => ⟨S128, .f32⟩
  | 121 => ⟨S1x128, .f32⟩
  | 122 => ⟨S128, .f32⟩
  | 123 => ⟨S1x128, .f32⟩
  | 124 => ⟨S128, .f32⟩
  | 125 => ⟨S1x128, .f32⟩
  | 126 => ⟨S128, .f32⟩
  | 127 => ⟨S1x128, .f32⟩
  | _ => ⟨S100000x3, .f32⟩

abbrev hbmTy0_1 (i : Nat) : BufTy := match i % 128 with
  | 0 => ⟨S128, .f32⟩
  | 1 => ⟨S1x128x128, .f32⟩
  | 2 => ⟨S128x128, .f32⟩
  | 3 => ⟨S1x128, .f32⟩
  | 4 => ⟨S128, .f32⟩
  | 5 => ⟨S_, .i32⟩
  | 6 => ⟨S600000, .i32⟩
  | 7 => ⟨S600000, .i1⟩
  | 8 => ⟨S_, .i32⟩
  | 9 => ⟨S600000, .i32⟩
  | 10 => ⟨S600000, .i32⟩
  | 11 => ⟨S600000, .i32⟩
  | 12 => ⟨S600000x1, .i32⟩
  | 13 => ⟨S600000x128, .f32⟩
  | 14 => ⟨S_, .f32⟩
  | 15 => ⟨S100000x128, .f32⟩
  | 16 => ⟨S600000x1, .i32⟩
  | 17 => ⟨S100000x128, .f32⟩
  | 18 => ⟨S1x128, .f32⟩
  | 19 => ⟨S1x128, .f32⟩
  | 20 => ⟨S1x128, .f32⟩
  | 21 => ⟨S1x128, .f32⟩
  | 22 => ⟨S1x128, .f32⟩
  | 23 => ⟨S1x128, .f32⟩
  | 24 => ⟨S100000x128, .f32⟩
  | 25 => ⟨S1x128x128, .f32⟩
  | 26 => ⟨S128x128, .f32⟩
  | 27 => ⟨S1x128, .f32⟩
  | 28 => ⟨S128, .f32⟩
  | 29 => ⟨S1x128, .f32⟩
  | 30 => ⟨S128, .f32⟩
  | 31 => ⟨S1x128, .f32⟩
  | 32 => ⟨S128, .f32⟩
  | 33 => ⟨S1x128, .f32⟩
  | 34 => ⟨S128, .f32⟩
  | 35 => ⟨S1x128, .f32⟩
  | 36 => ⟨S128, .f32⟩
  | 37 => ⟨S1x128x128, .f32⟩
  | 38 => ⟨S128x128, .f32⟩
  | 39 => ⟨S1x128, .f32⟩
  | 40 => ⟨S128, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000x128, .f32⟩
  | 50 => ⟨S_, .f32⟩
  | 51 => ⟨S100000x128, .f32⟩
  | 52 => ⟨S600000x1, .i32⟩
  | 53 => ⟨S100000x128, .f32⟩
  | 54 => ⟨S1x128, .f32⟩
  | 55 => ⟨S1x128, .f32⟩
  | 56 => ⟨S1x128, .f32⟩
  | 57 => ⟨S1x128, .f32⟩
  | 58 => ⟨S1x128, .f32⟩
  | 59 => ⟨S1x128, .f32⟩
  | 60 => ⟨S100000x128, .f32⟩
  | 61 => ⟨S_, .f32⟩
  | 62 => ⟨S1000x128, .f32⟩
  | 63 => ⟨S100000x1, .i32⟩
  | 64 => ⟨S1000x128, .f32⟩
  | 65 => ⟨S1000x1, .f32⟩
  | 66 => ⟨S1x1, .f32⟩
  | 67 => ⟨S1000x1, .f32⟩
  | 68 => ⟨S1000x1, .f32⟩
  | 69 => ⟨S1000, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S5000x3, .f32⟩
  | .local _ .vmem, ⟨1, _⟩ => ⟨S5000x3, .f32⟩
  | .local _ .vmem, ⟨2, _⟩ => ⟨S5000x3, .f32⟩
  | .local _ .vmem, ⟨3, _⟩ => ⟨S5000x3, .f32⟩
  | .local _ .vmem, ⟨4, _⟩ => ⟨S3x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S128x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S128x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S1x128, .f32⟩
  | .local _ .vmem, ⟨65, _⟩ => ⟨S1x128, .f32⟩
  | .local _ .vmem, ⟨66, _⟩ => ⟨S128x128, .f32⟩
  | .local _ .vmem, ⟨67, _⟩ => ⟨S1x128, .f32⟩
  | .local _ .vmem, ⟨68, _⟩ => ⟨S5000x128, .f32⟩
  | .local _ .vmem, ⟨69, _⟩ => ⟨S5000x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_1 : Ref sig .tc := ⟨.hbm, 61, rfl⟩
abbrev main_v37 : Ref sig .tc := ⟨.hbm, 62, rfl⟩
abbrev main_v38 : Ref sig .tc := ⟨.hbm, 63, rfl⟩
abbrev main_c_2 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_3 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_4 : Ref sig .tc := ⟨.hbm, 97, rfl⟩
abbrev main_v70 : Ref sig .tc := ⟨.hbm, 98, rfl⟩
abbrev main_v71 : Ref sig .tc := ⟨.hbm, 99, rfl⟩
abbrev main_c_5 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_6 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_c_7 : Ref sig .tc := ⟨.hbm, 133, rfl⟩
abbrev main_v103 : Ref sig .tc := ⟨.hbm, 134, rfl⟩
abbrev main_v104 : Ref sig .tc := ⟨.hbm, 135, rfl⟩
abbrev main_c_8 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_9 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_c_10 : Ref sig .tc := ⟨.hbm, 169, rfl⟩
abbrev main_v136 : Ref sig .tc := ⟨.hbm, 170, rfl⟩
abbrev main_v137 : Ref sig .tc := ⟨.hbm, 171, rfl⟩
abbrev main_c_11 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_cst_12 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_cst_13 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg7_0 : Ref sig .tc := ⟨.vmem, 51, rfl⟩
abbrev cc3_stg8_0 : Ref sig .tc := ⟨.vmem, 52, rfl⟩
abbrev cc3_stg9_0 : Ref sig .tc := ⟨.vmem, 53, rfl⟩
abbrev cc3_stg10_0 : Ref sig .tc := ⟨.vmem, 54, rfl⟩
abbrev cc3_stg10_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg3_0 : Ref sig .tc := ⟨.vmem, 61, rfl⟩
abbrev cc4_stg4_0 : Ref sig .tc := ⟨.vmem, 62, rfl⟩
abbrev cc4_stg5_0 : Ref sig .tc := ⟨.vmem, 63, rfl⟩
abbrev cc4_stg6_0 : Ref sig .tc := ⟨.vmem, 64, rfl⟩
abbrev cc4_stg7_0 : Ref sig .tc := ⟨.vmem, 65, rfl⟩
abbrev cc4_stg8_0 : Ref sig .tc := ⟨.vmem, 66, rfl⟩
abbrev cc4_stg9_0 : Ref sig .tc := ⟨.vmem, 67, rfl⟩
abbrev cc4_stg10_0 : Ref sig .tc := ⟨.vmem, 68, rfl⟩
abbrev cc4_stg10_1 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem3_0 : DmaSem sig := 47
abbrev cc3_sem4_0 : DmaSem sig := 48
abbrev cc3_sem5_0 : DmaSem sig := 49
abbrev cc3_sem6_0 : DmaSem sig := 50
abbrev cc3_sem7_0 : DmaSem sig := 51
abbrev cc3_sem8_0 : DmaSem sig := 52
abbrev cc3_sem9_0 : DmaSem sig := 53
abbrev cc3_sem10_0 : DmaSem sig := 54
abbrev cc3_sem10_1 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem3_0 : DmaSem sig := 61
abbrev cc4_sem4_0 : DmaSem sig := 62
abbrev cc4_sem5_0 : DmaSem sig := 63
abbrev cc4_sem6_0 : DmaSem sig := 64
abbrev cc4_sem7_0 : DmaSem sig := 65
abbrev cc4_sem8_0 : DmaSem sig := 66
abbrev cc4_sem9_0 : DmaSem sig := 67
abbrev cc4_sem10_0 : DmaSem sig := 68
abbrev cc4_sem10_1 : DmaSem sig := 69

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S5000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S5000x128 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x3 : S_.BroadcastsInDim S100000x3 (![] : Fin 0 → Fin S100000x3.rank)
  shapeCasts_S128_S1x128 : S128.ShapeCasts S1x128
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  inb_S3x128_S3x128_0_0 : ∀ a, (![0, 0] : Fin 2 → Nat) a + S3x128.size a ≤ S3x128.size a
  h_S3x128 : 0 < S3x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S_S100000x128 : S_.BroadcastsInDim S100000x128 (![] : Fin 0 → Fin S100000x128.rank)
  shapeCasts_S5000x128_S5000x128 : S5000x128.ShapeCasts S5000x128
  shapeCasts_S128x128_S128x128 : S128x128.ShapeCasts S128x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S1000x128 : S_.BroadcastsInDim S1000x128 (![] : Fin 0 → Fin S1000x128.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  shapeCasts_S1000x1_S1000 : S1000x1.ShapeCasts S1000
  gather_S100000x3_S600000x1_S600000x3_1_0_n_n_0_1_13_wf : GatherDims.WF S100000x3 S600000x1 S600000x3 [1] [0] [] [0] [] 1 ![1, 3]
  scatter_S100000x3_S600000x1_S600000x3_1_0_0_1_wf : ScatterDims.WF S100000x3 S600000x1 S600000x3 [1] [0] [0] 1
  dot_S5000x3_S3x128_S5000x128_1_0_0_1_n_n_wf : DotDims.WF S5000x3 S3x128 S5000x128 [1] [0] [0] [1] [] []
  dot_S5000x128_S128x128_S5000x128_1_0_0_1_n_n_wf : DotDims.WF S5000x128 S128x128 S5000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S1000x128_S100000x1_S100000x128_1_0_0_1_wf : ScatterDims.WF S1000x128 S100000x1 S100000x128 [1] [0] [0] 1
  dot_S1000x128_S128x1_S1000x1_1_0_0_1_n_n_wf : DotDims.WF S1000x128 S128x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x3.size a ≤ S100000x3.size a
  hwx0_1 : ∀ i : grid0.Coords, EltTy.bits .f32 = 32 ∨ (Rect.block (s := S100000x3) S5000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .f32 = 32 ∨ (Rect.block (s := S3x128) S3x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S100000x128.size a
  hwx0_10 : ∀ i : grid0.Coords, EltTy.bits .f32 = 32 ∨ (Rect.block (s := S100000x128) S5000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S100000x128.size a
  hwx1_10 : ∀ i : grid1.Coords, EltTy.bits .f32 = 32 ∨ (Rect.block (s := S100000x128) S5000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x128.size a ≤ S100000x128.size a
  hwx2_10 : ∀ i : grid2.Coords, EltTy.bits .f32 = 32 ∨ (Rect.block (s := S100000x128) S5000x128.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S5000x128.size a ≤ S100000x128.size a
  hwx3_10 : ∀ i : grid3.Coords, EltTy.bits .f32 = 32 ∨ (Rect.block (s := S100000x128) S5000x128.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x128.size a ≤ S128x128.size a
  hwx4_8 : ∀ i : grid4.Coords, EltTy.bits .f32 = 32 ∨ (Rect.block (s := S128x128) S128x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S5000x128.size a ≤ S100000x128.size a
  hwx4_10 : ∀ i : grid4.Coords, EltTy.bits .f32 = 32 ∨ (Rect.block (s := S100000x128) S5000x128.size (cc4_transform_10 i) (hinb4_10 i)).WholeWords (EltTy.packing .f32)

variable [Facts₀]

def gather_S100000x3_S600000x1_S600000x3_1_0_n_n_0_1_13 : GatherDims S100000x3 S600000x1 S600000x3 where
  offsetDims := [1]
  collapsedSliceDims := [0]
  operandBatchingDims := []
  startIndicesBatchingDims := []
  startIndexMap := [0]
  indexVectorDim := 1
  sliceSizes := ![1, 3]
  wf := gather_S100000x3_S600000x1_S600000x3_1_0_n_n_0_1_13_wf
def scatter_S100000x3_S600000x1_S600000x3_1_0_0_1 : ScatterDims S100000x3 S600000x1 S600000x3 where
  updateWindowDims := [1]
  insertedWindowDims := [0]
  scatterDimsToOperandDims := [0]
  indexVectorDim := 1
  wf := scatter_S100000x3_S600000x1_S600000x3_1_0_0_1_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S5000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v51) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v52) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v53) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v79) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v80) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v81) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v82) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v83) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v84) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v67) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v85) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v86) S5000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v86) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v112) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v88) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v113) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v114) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v115) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v116) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v117) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v100) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v118) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v119) S5000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v119) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v145) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v121) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v146) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v147) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v148) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v149) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v150) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v133) S128x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v151) S1x128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v152) S5000x128.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

class Facts : Prop extends Facts₀ where

variable [Facts]
-- ==== ReferenceIdeal.lean ====
abbrev S100000x3 : Shape := ⟨2, ![100000, 3]⟩
abbrev S2x600000 : Shape := ⟨2, ![2, 600000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S4x128x128 : Shape := ⟨3, ![4, 128, 128]⟩
abbrev S4x128 : Shape := ⟨2, ![4, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x3 : Shape := ⟨2, ![600000, 3]⟩
abbrev S100000x128 : Shape := ⟨2, ![100000, 128]⟩
abbrev S1x128 : Shape := ⟨2, ![1, 128]⟩
abbrev S1x128x128 : Shape := ⟨3, ![1, 128, 128]⟩
abbrev S600000x128 : Shape := ⟨2, ![600000, 128]⟩
abbrev S1000x128 : Shape := ⟨2, ![1000, 128]⟩
abbrev S100000x1 : Shape := ⟨2, ![100000, 1]⟩
abbrev S1000x1 : Shape := ⟨2, ![1000, 1]⟩
abbrev S1x1 : Shape := ⟨2, ![1, 1]⟩
abbrev S1000 : Shape := ⟨1, ![1000]⟩

abbrev nBuf : Space → Nat
  | .hbm => 318
  | .vmem => 0
  | .smem => 0
  | _ => 0

abbrev hbmTy0_0 (i : Nat) : BufTy := match i % 128 with
  | 0 => ⟨S100000x3, .f32⟩
  | 1 => ⟨S2x600000, .i32⟩
  | 2 => ⟨S100000, .i32⟩
  | 3 => ⟨S3x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S4x128x128, .f32⟩
  | 12 => ⟨S4x128, .f32⟩
  | 13 => ⟨S4x128, .f32⟩
  | 14 => ⟨S4x128, .f32⟩
  | 15 => ⟨S4x128, .f32⟩
  | 16 => ⟨S4x128, .f32⟩
  | 17 => ⟨S4x128x128, .f32⟩
  | 18 => ⟨S4x128, .f32⟩
  | 19 => ⟨S128x1, .f32⟩
  | 20 => ⟨S1, .f32⟩
  | 21 => ⟨S1x600000, .i32⟩
  | 22 => ⟨S600000, .i32⟩
  | 23 => ⟨S1x600000, .i32⟩
  | 24 => ⟨S600000, .i32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000x3, .f32⟩
  | 34 => ⟨S_, .f32⟩
  | 35 => ⟨S100000x3, .f32⟩
  | 36 => ⟨S600000x1, .i32⟩
  | 37 => ⟨S100000x3, .f32⟩
  | 38 => ⟨S100000x3, .f32⟩
  | 39 => ⟨S100000x128, .f32⟩
  | 40 => ⟨S1x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S_, .f32⟩
  | 50 => ⟨S128, .f32⟩
  | 51 => ⟨S128, .f32⟩
  | 52 => ⟨S128, .f32⟩
  | 53 => ⟨S1x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S1x128x128, .f32⟩
  | 70 => ⟨S128x128, .f32⟩
  | 71 => ⟨S1x128, .f32⟩
  | 72 => ⟨S128, .f32⟩
  | 73 => ⟨S1x128, .f32⟩
  | 74 => ⟨S128, .f32⟩
  | 75 => ⟨S1x128, .f32⟩
  | 76 => ⟨S128, .f32⟩
  | 77 => ⟨S1x128, .f32⟩
  | 78 => ⟨S128, .f32⟩
  | 79 => ⟨S1x128, .f32⟩
  | 80 => ⟨S128, .f32⟩
  | 81 => ⟨S1x128x128, .f32⟩
  | 82 => ⟨S128x128, .f32⟩
  | 83 => ⟨S1x128, .f32⟩
  | 84 => ⟨S128, .f32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S600000x128, .f32⟩
  | 94 => ⟨S_, .f32⟩
  | 95 => ⟨S100000x128, .f32⟩
  | 96 => ⟨S600000x1, .i32⟩
  | 97 => ⟨S100000x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S128, .f32⟩
  | 111 => ⟨S128, .f32⟩
  | 112 => ⟨S128, .f32⟩
  | 113 => ⟨S1x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x3, .f32⟩

abbrev hbmTy0_1 (i : Nat) : BufTy := match i % 128 with
  | 0 => ⟨S100000x128, .f32⟩
  | 1 => ⟨S1x128x128, .f32⟩
  | 2 => ⟨S128x128, .f32⟩
  | 3 => ⟨S1x128, .f32⟩
  | 4 => ⟨S128, .f32⟩
  | 5 => ⟨S1x128, .f32⟩
  | 6 => ⟨S128, .f32⟩
  | 7 => ⟨S1x128, .f32⟩
  | 8 => ⟨S128, .f32⟩
  | 9 => ⟨S1x128, .f32⟩
  | 10 => ⟨S128, .f32⟩
  | 11 => ⟨S1x128, .f32⟩
  | 12 => ⟨S128, .f32⟩
  | 13 => ⟨S1x128x128, .f32⟩
  | 14 => ⟨S128x128, .f32⟩
  | 15 => ⟨S1x128, .f32⟩
  | 16 => ⟨S128, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x128, .f32⟩
  | 26 => ⟨S_, .f32⟩
  | 27 => ⟨S100000x128, .f32⟩
  | 28 => ⟨S600000x1, .i32⟩
  | 29 => ⟨S100000x128, .f32⟩
  | 30 => ⟨S100000x128, .f32⟩
  | 31 => ⟨S100000x128, .f32⟩
  | 32 => ⟨S1x128, .f32⟩
  | 33 => ⟨S100000x128, .f32⟩
  | 34 => ⟨S100000x128, .f32⟩
  | 35 => ⟨S1x128, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S_, .f32⟩
  | 42 => ⟨S128, .f32⟩
  | 43 => ⟨S128, .f32⟩
  | 44 => ⟨S128, .f32⟩
  | 45 => ⟨S1x128, .f32⟩
  | 46 => ⟨S100000x128, .f32⟩
  | 47 => ⟨S100000x128, .f32⟩
  | 48 => ⟨S1x128, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S_, .f32⟩
  | 59 => ⟨S100000x128, .f32⟩
  | 60 => ⟨S100000x128, .f32⟩
  | 61 => ⟨S1x128x128, .f32⟩
  | 62 => ⟨S128x128, .f32⟩
  | 63 => ⟨S1x128, .f32⟩
  | 64 => ⟨S128, .f32⟩
  | 65 => ⟨S1x128, .f32⟩
  | 66 => ⟨S128, .f32⟩
  | 67 => ⟨S1x128, .f32⟩
  | 68 => ⟨S128, .f32⟩
  | 69 => ⟨S1x128, .f32⟩
  | 70 => ⟨S128, .f32⟩
  | 71 => ⟨S1x128, .f32⟩
  | 72 => ⟨S128, .f32⟩
  | 73 => ⟨S1x128x128, .f32⟩
  | 74 => ⟨S128x128, .f32⟩
  | 75 => ⟨S1x128, .f32⟩
  | 76 => ⟨S128, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S600000x128, .f32⟩
  | 86 => ⟨S_, .f32⟩
  | 87 => ⟨S100000x128, .f32⟩
  | 88 => ⟨S600000x1, .i32⟩
  | 89 => ⟨S100000x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S128, .f32⟩
  | 103 => ⟨S128, .f32⟩
  | 104 => ⟨S128, .f32⟩
  | 105 => ⟨S1x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S1x128x128, .f32⟩
  | 122 => ⟨S128x128, .f32⟩
  | 123 => ⟨S1x128, .f32⟩
  | 124 => ⟨S128, .f32⟩
  | 125 => ⟨S1x128, .f32⟩
  | 126 => ⟨S128, .f32⟩
  | 127 => ⟨S1x128, .f32⟩
  | _ => ⟨S100000x3, .f32⟩

abbrev hbmTy0_2 (i : Nat) : BufTy := match i % 128 with
  | 0 => ⟨S128, .f32⟩
  | 1 => ⟨S1x128, .f32⟩
  | 2 => ⟨S128, .f32⟩
  | 3 => ⟨S1x128, .f32⟩
  | 4 => ⟨S128, .f32⟩
  | 5 => ⟨S1x128x128, .f32⟩
  | 6 => ⟨S128x128, .f32⟩
  | 7 => ⟨S1x128, .f32⟩
  | 8 => ⟨S128, .f32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S600000x128, .f32⟩
  | 18 => ⟨S_, .f32⟩
  | 19 => ⟨S100000x128, .f32⟩
  | 20 => ⟨S600000x1, .i32⟩
  | 21 => ⟨S100000x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S_, .f32⟩
  | 34 => ⟨S128, .f32⟩
  | 35 => ⟨S128, .f32⟩
  | 36 => ⟨S128, .f32⟩
  | 37 => ⟨S1x128, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S_, .f32⟩
  | 44 => ⟨S100000x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S_, .f32⟩
  | 54 => ⟨S1000x128, .f32⟩
  | 55 => ⟨S100000x1, .i32⟩
  | 56 => ⟨S1000x128, .f32⟩
  | 57 => ⟨S1000x1, .f32⟩
  | 58 => ⟨S1x1, .f32⟩
  | 59 => ⟨S1000x1, .f32⟩
  | 60 => ⟨S1000x1, .f32⟩
  | 61 => ⟨S1000, .f32⟩
  | _ => ⟨S100000x3, .f32⟩

abbrev hbmTy (i : Nat) : BufTy := match i / 128 with
  | 0 => hbmTy0_0 i
  | 1 => hbmTy0_1 i
  | 2 => hbmTy0_2 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_1 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call0_cst : Ref sig .tc := ⟨.hbm, 59, rfl⟩
abbrev main_call0_v0 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call1_cst : Ref sig .tc := ⟨.hbm, 66, rfl⟩
abbrev main_call1_v0 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_2 : Ref sig .tc := ⟨.hbm, 85, rfl⟩
abbrev main_v56 : Ref sig .tc := ⟨.hbm, 86, rfl⟩
abbrev main_v57 : Ref sig .tc := ⟨.hbm, 87, rfl⟩
abbrev main_c_3 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_4 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_5 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_call2_cst : Ref sig .tc := ⟨.hbm, 119, rfl⟩
abbrev main_call2_v0 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_call3_cst : Ref sig .tc := ⟨.hbm, 126, rfl⟩
abbrev main_call3_v0 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_c_6 : Ref sig .tc := ⟨.hbm, 145, rfl⟩
abbrev main_v108 : Ref sig .tc := ⟨.hbm, 146, rfl⟩
abbrev main_v109 : Ref sig .tc := ⟨.hbm, 147, rfl⟩
abbrev main_c_7 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_8 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_cst_9 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_call4_cst : Ref sig .tc := ⟨.hbm, 179, rfl⟩
abbrev main_call4_v0 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_call5_cst : Ref sig .tc := ⟨.hbm, 186, rfl⟩
abbrev main_call5_v0 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_c_10 : Ref sig .tc := ⟨.hbm, 205, rfl⟩
abbrev main_v160 : Ref sig .tc := ⟨.hbm, 206, rfl⟩
abbrev main_v161 : Ref sig .tc := ⟨.hbm, 207, rfl⟩
abbrev main_c_11 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_cst_12 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_cst_13 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_call6_cst : Ref sig .tc := ⟨.hbm, 239, rfl⟩
abbrev main_call6_v0 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_call7_cst : Ref sig .tc := ⟨.hbm, 246, rfl⟩
abbrev main_call7_v0 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_c_14 : Ref sig .tc := ⟨.hbm, 265, rfl⟩
abbrev main_v212 : Ref sig .tc := ⟨.hbm, 266, rfl⟩
abbrev main_v213 : Ref sig .tc := ⟨.hbm, 267, rfl⟩
abbrev main_c_15 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_cst_16 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_cst_17 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_call8_cst : Ref sig .tc := ⟨.hbm, 299, rfl⟩
abbrev main_call8_v0 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_call9_cst : Ref sig .tc := ⟨.hbm, 306, rfl⟩
abbrev main_call9_v0 : Ref sig .tc := ⟨.hbm, 307, rfl⟩
abbrev main_v247 : Ref sig .tc := ⟨.hbm, 308, rfl⟩
abbrev main_cst_18 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x3 : S_.BroadcastsInDim S100000x3 (![] : Fin 0 → Fin S100000x3.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S1000x128 : S_.BroadcastsInDim S1000x128 (![] : Fin 0 → Fin S1000x128.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  shapeCasts_S1000x1_S1000 : S1000x1.ShapeCasts S1000
  gather_S100000x3_S600000x1_S600000x3_1_0_n_n_0_1_13_wf : GatherDims.WF S100000x3 S600000x1 S600000x3 [1] [0] [] [0] [] 1 ![1, 3]
  scatter_S100000x3_S600000x1_S600000x3_1_0_0_1_wf : ScatterDims.WF S100000x3 S600000x1 S600000x3 [1] [0] [0] 1
  dot_S100000x3_S3x128_S100000x128_1_0_0_1_n_n_wf : DotDims.WF S100000x3 S3x128 S100000x128 [1] [0] [0] [1] [] []
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S1000x128_S100000x1_S100000x128_1_0_0_1_wf : ScatterDims.WF S1000x128 S100000x1 S100000x128 [1] [0] [0] 1
  dot_S1000x128_S128x1_S1000x1_1_0_0_1_n_n_wf : DotDims.WF S1000x128 S128x1 S1000x1 [1] [0] [0] [1] [] []

variable [Facts₀]

def gather_S100000x3_S600000x1_S600000x3_1_0_n_n_0_1_13 : GatherDims S100000x3 S600000x1 S600000x3 where
  offsetDims := [1]
  collapsedSliceDims := [0]
  operandBatchingDims := []
  startIndicesBatchingDims := []
  startIndexMap := [0]
  indexVectorDim := 1
  sliceSizes := ![1, 3]
  wf := gather_S100000x3_S600000x1_S600000x3_1_0_n_n_0_1_13_wf
def scatter_S100000x3_S600000x1_S600000x3_1_0_0_1 : ScatterDims S100000x3 S600000x1 S600000x3 where
  updateWindowDims := [1]
  insertedWindowDims := [0]
  scatterDimsToOperandDims := [0]
  indexVectorDim := 1
  wf := scatter_S100000x3_S600000x1_S600000x3_1_0_0_1_wf
def dot_S100000x3_S3x128_S100000x128_1_0_0_1_n_n : DotDims S100000x3 S3x128 S100000x128 where
  lhsContracting := [1]
  rhsContracting := [0]
  lhsNonContracting := [0]
  rhsNonContracting := [1]
  lhsBatch := []
  rhsBatch := []
  wf := dot_S100000x3_S3x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

class Facts : Prop extends Facts₀ where

variable [Facts]
-- ==== Proof.KernelRun.lean ====
/-
  The idealized kernel's run with its result named. Every weakly fair execution of the program on the TensorCores
  terminates without a fault; the result buffer then holds what the fold of the program's segments leaves there
  (the host stretches as functions of the buffers they read, each of the five calls' arrays at what its write-backs
  leave), and every argument array holds what it was launched with. This is the launch theorem for a program of
  several calls, applied to the program's segments, with the final thread state read at the result buffer as well
  as at the arguments.
-/
import proofs.«130913_j56831007261128_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer at the last boundary's contents, the arguments as launched. -/
theorem run_result : θ_run defs (onTc (τ := τ) (main (F := F))) ⟨m, fun _ => 0, ρ⟩ (fun r => ∀ c : Dev nD,
      r.2.mem ((c.tc : Thread nD τ).loc main_v160) = W11 m ρ c (Proc.devRef .tc main_v160)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v160 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c),
       (h c _ (mem_uc main_arg19 (by decide))).trans (W11_main_arg19 m ρ c),
       (h c _ (mem_uc main_arg20 (by decide))).trans (W11_main_arg20 m ρ c)⟩)

end Cert.KernelIdeal.Gen

end
-- ==== Proof.KernelTerms.lean ====
/-
  The host-side pieces of the network as named functions of arrays: the two rows of the edge list, the neighbour
  sums (a gather of the source rows followed by a scatter-add at the target rows), the slices of the stacked layer
  parameters, and the read-out. Both programs compute these by the same host operations; naming them lets the
  layer-by-layer comparison treat them as opaque functions.
-/
import proofs.«130913_j56831007261128_1_alg».proof.Proof.Gen.KernelIdeal
import Idealize.ShloMosaic.PureOps.Ideal

noncomputable section

namespace Cert.KernelIdeal.Terms

open Cert.KernelIdeal Cert.KernelIdeal.Gen Idealize.ShloMosaic

/-- The edge list's first row: each edge's source node. -/
def srcOf (e : IVec S2x600000 32) : IVec S600000 32 :=
  shapeCast _ (extractStridedSlice S1x600000 ![0, 0] e slices_S2x600000_S1x600000_0_0) shapeCasts_S1x600000_S600000
/-- The edge list's second row: each edge's target node. -/
def dstOf (e : IVec S2x600000 32) : IVec S600000 32 :=
  shapeCast _ (extractStridedSlice S1x600000 ![1, 0] e slices_S2x600000_S1x600000_1_0) shapeCasts_S1x600000_S600000
/-- A source index below zero counts from the end of the node axis. -/
def wrapIdx (s : IVec S600000 32) : IVec S600000 32 :=
  select (cmpi .slt s (broadcastInDim S600000 ![] bcast_S_S600000 (constantI S_ 32 0#32)))
    (addi s (broadcastInDim S600000 ![] bcast_S_S600000 (constantI S_ 32 100000#32))) s
/-- Neighbour sums of 3-feature nodes: row `dst e` collects row `src e` of `h` over the edges `e`. -/
def agg3 (h : FVec Ideal S100000x3 .f32) (src dst : IVec S600000 32) : FVec Ideal S100000x3 .f32 :=
  Host.scatterAdd scatter_S100000x3_S600000x1_S600000x3_1_0_0_1
    (broadcastInDim S100000x3 ![] bcast_S_S100000x3 (constant (F := Ideal) S_ .f32 0x00000000#32))
    (broadcastInDim S600000x1 ![0] bcast_S600000_S600000x1_0 dst)
    (Host.gather gather_S100000x3_S600000x1_S600000x3_1_0_n_n_0_1_13 h
      (broadcastInDim S600000x1 ![0] bcast_S600000_S600000x1_0 (wrapIdx src)))
/-- Neighbour sums of 128-feature nodes. -/
def agg128 (h : FVec Ideal S100000x128 .f32) (src dst : IVec S600000 32) : FVec Ideal S100000x128 .f32 :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 dst)
    (Host.gather gather_S100000x128_S600000x1_S600000x128_1_0_n_n_0_1_1128 h
      (broadcastInDim S600000x1 ![0] bcast_S600000_S600000x1_0 (wrapIdx src)))
/-- Matrix 0 of a stack of four 128×128 matrices. -/
def mat0 (x : FVec Ideal S4x128x128 .f32) : FVec Ideal S128x128 .f32 :=
  shapeCast _ (extractStridedSlice S1x128x128 ![0, 0, 0] x slices_S4x128x128_S1x128x128_0_0_0) shapeCasts_S1x128x128_S128x128
/-- Row 0 of a stack of four 128-vectors. -/
def row0 (x : FVec Ideal S4x128 .f32) : FVec Ideal S128 .f32 :=
  shapeCast _ (extractStridedSlice S1x128 ![0, 0] x slices_S4x128_S1x128_0_0) shapeCasts_S1x128_S128
/-- Matrix 1 of a stack of four 128×128 matrices. -/
def mat1 (x : FVec Ideal S4x128x128 .f32) : FVec Ideal S128x128 .f32 :=
  shapeCast _ (extractStridedSlice S1x128x128 ![1, 0, 0] x slices_S4x128x128_S1x128x128_1_0_0) shapeCasts_S1x128x128_S128x128
/-- Row 1 of a stack of four 128-vectors. -/
def row1 (x : FVec Ideal S4x128 .f32) : FVec Ideal S128 .f32 :=
  shapeCast _ (extractStridedSlice S1x128 ![1, 0] x slices_S4x128_S1x128_1_0) shapeCasts_S1x128_S128
/-- Matrix 2 of a stack of four 128×128 matrices. -/
def mat2 (x : FVec Ideal S4x128x128 .f32) : FVec Ideal S128x128 .f32 :=
  shapeCast _ (extractStridedSlice S1x128x128 ![2, 0, 0] x slices_S4x128x128_S1x128x128_2_0_0) shapeCasts_S1x128x128_S128x128
/-- Row 2 of a stack of four 128-vectors. -/
def row2 (x : FVec Ideal S4x128 .f32) : FVec Ideal S128 .f32 :=
  shapeCast _ (extractStridedSlice S1x128 ![2, 0] x slices_S4x128_S1x128_2_0) shapeCasts_S1x128_S128
/-- Matrix 3 of a stack of four 128×128 matrices. -/
def mat3 (x : FVec Ideal S4x128x128 .f32) : FVec Ideal S128x128 .f32 :=
  shapeCast _ (extractStridedSlice S1x128x128 ![3, 0, 0] x slices_S4x128x128_S1x128x128_3_0_0) shapeCasts_S1x128x128_S128x128
/-- Row 3 of a stack of four 128-vectors. -/
def row3 (x : FVec Ideal S4x128 .f32) : FVec Ideal S128 .f32 :=
  shapeCast _ (extractStridedSlice S1x128 ![3, 0] x slices_S4x128_S1x128_3_0) shapeCasts_S1x128_S128
/-- The read-out: per-graph sums of the node rows (row `b n` collects node `n`), times the read-out column, plus
    the bias, as a vector over the graphs. -/
def readout (h : FVec Ideal S100000x128 .f32) (b : IVec S100000 32) (w : FVec Ideal S128x1 .f32) (bc : FVec Ideal S1 .f32) :
    FVec Ideal S1000 .f32 :=
  shapeCast _ (addf (Host.dotGeneral dot_S1000x128_S128x1_S1000x1_1_0_0_1_n_n none
      (Host.scatterAdd scatter_S1000x128_S100000x1_S100000x128_1_0_0_1
        (broadcastInDim S1000x128 ![] bcast_S_S1000x128 (constant (F := Ideal) S_ .f32 0x00000000#32))
        (broadcastInDim S100000x1 ![0] bcast_S100000_S100000x1_0 b) h) w)
    (broadcastInDim S1000x1 ![0, 1] bcast_S1x1_S1000x1_0_1 (broadcastInDim S1x1 ![1] bcast_S1_S1x1_1 bc))) shapeCasts_S1000x1_S1000

end Cert.KernelIdeal.Terms

end
-- ==== Proof.LayerSpec.lean ====
/-
  One graph-convolution layer's node update, entry by entry, on the extended reals.

  A node's input row `s` (its own features plus the sum of its in-neighbours' features) goes through a linear
  map `W1` with bias `b1`, an affine normalisation per hidden unit `j`
      g j · (a_j − μ j) · (v j + ε)^(−1/2) + β j ,
  a clamp at zero, a second linear map `W2` with bias `b2`, and a second clamp at zero. `ε` is the single-precision
  number nearest 10⁻⁵, which both programs spell by the same word, so it is never evaluated here.
-/
import Idealize.ShloMosaic.Lib.ValueIdx
import Idealize.ShloMosaic.PureOps.Ideal

noncomputable section

namespace GinLayer

open Idealize.ShloMosaic Idealize.ShloMosaic.ValueIdx

/-- The offset added to the variance before the inverse square root. -/
abbrev varEps : EReal := Ideal.ofBits .f32 0x3727C5AC#32
/-- The clamp's floor. -/
abbrev floor0 : EReal := Ideal.ofBits .f32 0x00000000#32

/-- Hidden unit `j` of a node whose summed input row is `s`. -/
def hidden {D : ℕ} (s : Fin D → EReal) (W1 : Fin D → Fin 128 → EReal) (b1 g be mu v : Fin 128 → EReal)
    (j : Fin 128) : EReal :=
  max (g j * ((∑ d : Fin D, s d * W1 d j) + b1 j - mu j) * Ideal.rsqrt (v j + varEps) + be j) floor0

/-- Output unit `q` of that node. -/
def unit {D : ℕ} (s : Fin D → EReal) (W1 : Fin D → Fin 128 → EReal) (b1 g be mu v : Fin 128 → EReal)
    (W2 : Fin 128 → Fin 128 → EReal) (b2 : Fin 128 → EReal) (q : Fin 128) : EReal :=
  max ((∑ j : Fin 128, hidden s W1 b1 g be mu v j * W2 j q) + b2 q) floor0

/-- The layer on whole arrays: node features `h`, neighbour sums `a`, both N×D; the result is N×128. -/
def layer {N D : ℕ} (h a : (⟨2, ![N, D]⟩ : Shape).Idx → EReal) (W1 : (⟨2, ![D, 128]⟩ : Shape).Idx → EReal)
    (b1 g be mu v : Fin 128 → EReal) (W2 : (⟨2, ![128, 128]⟩ : Shape).Idx → EReal) (b2 : Fin 128 → EReal) :
    (⟨2, ![N, 128]⟩ : Shape).Idx → EReal :=
  fun i => unit (fun d => h (ix2 (i 0) d) + a (ix2 (i 0) d)) (fun d j => W1 (ix2 d j)) b1 g be mu v
    (fun j q => W2 (ix2 j q)) b2 (i 1)

/-- An entry of the layer reads only its own row of `h` and `a`: if row `y 0` of the pair `hb`, `ab` is row
    `i 0` of the pair `h`, `a`, the columns agree and the parameters are the same functions, then entry `y` of the
    layer of the first pair is entry `i` of the layer of the second. (A block of rows of the layer is the layer of
    the block of rows.) -/
theorem layer_entry_congr {N B D : ℕ} (h a : (⟨2, ![N, D]⟩ : Shape).Idx → EReal)
    (hb ab : (⟨2, ![B, D]⟩ : Shape).Idx → EReal) (W1 W1' : (⟨2, ![D, 128]⟩ : Shape).Idx → EReal)
    (b1 g be mu v b1' g' be' mu' v' : Fin 128 → EReal) (W2 W2' : (⟨2, ![128, 128]⟩ : Shape).Idx → EReal)
    (b2 b2' : Fin 128 → EReal)
    (i : (⟨2, ![N, 128]⟩ : Shape).Idx) (y : (⟨2, ![B, 128]⟩ : Shape).Idx) (hq : y 1 = i 1)
    (hh : ∀ d, hb (ix2 (y 0) d) = h (ix2 (i 0) d)) (ha : ∀ d, ab (ix2 (y 0) d) = a (ix2 (i 0) d))
    (hW1 : W1' = W1) (hb1 : b1' = b1) (hg : g' = g) (hbe : be' = be) (hmu : mu' = mu) (hv : v' = v)
    (hW2 : W2' = W2) (hb2 : b2' = b2) :
    layer hb ab W1' b1' g' be' mu' v' W2' b2' y = layer h a W1 b1 g be mu v W2 b2 i := by
  subst hW1 hb1 hg hbe hmu hv hW2 hb2
  unfold layer
  rw [hq]
  congr 1
  funext d
  rw [hh, ha]

end GinLayer

end
-- ==== Proof.KernelKeep.lean ====
/-
  The network as a function of the kernel's launch arrays, and what no segment of the kernel's run overwrites.

  The edge endpoints are computed by the first host stretch and the parameter stacks are arguments; no later host
  operation writes them and they are no call's array, so at every segment boundary they hold their functions of the
  launch arrays.
-/
import proofs.«130913_j56831007261128_1_alg».proof.Proof.KernelRun
import proofs.«130913_j56831007261128_1_alg».proof.Proof.KernelTerms
import proofs.«130913_j56831007261128_1_alg».proof.Proof.LayerSpec
import Idealize.ShloMosaic.Lib.StableHlo.Run

set_option maxRecDepth 16384

noncomputable section

namespace Cert.KernelIdeal.KValue

open Cert.KernelIdeal Cert.KernelIdeal.Gen Cert.KernelIdeal.Terms
open Idealize.ShloMosaic Idealize.ShloMosaic.TcCoe Idealize.ShloMosaic.ValueIdx Idealize.ShloMosaic.StableHlo Idealize.SL.Sem
open Idealize.ShloMosaic.Pipeline

variable (m : (ℓ : Loc nD τ sig) → Buf (Elt Ideal) ℓ) (ρ : Dev nD → PrngReg) (c : Dev nD)

/-! ## The network, as a function of the launch arrays -/

/-- Layer 1's output: the layer of the node features and their neighbour sums. -/
def h1 : S100000x128.Idx → EReal :=
  GinLayer.layer (m ((c.tc : Thread nD τ).loc main_arg0) : FVec Ideal S100000x3 .f32) (agg3 (m ((c.tc : Thread nD τ).loc main_arg0) : FVec Ideal S100000x3 .f32) (srcOf (m ((c.tc : Thread nD τ).loc main_arg1) : IVec S2x600000 32)) (dstOf (m ((c.tc : Thread nD τ).loc main_arg1) : IVec S2x600000 32))) (m ((c.tc : Thread nD τ).loc main_arg3) : FVec Ideal S3x128 .f32)
    (fun j => (m ((c.tc : Thread nD τ).loc main_arg4) : FVec Ideal S128 .f32) (ix1 j)) (fun j => (m ((c.tc : Thread nD τ).loc main_arg5) : FVec Ideal S128 .f32) (ix1 j)) (fun j => (m ((c.tc : Thread nD τ).loc main_arg6) : FVec Ideal S128 .f32) (ix1 j)) (fun j => (m ((c.tc : Thread nD τ).loc main_arg7) : FVec Ideal S128 .f32) (ix1 j)) (fun j => (m ((c.tc : Thread nD τ).loc main_arg8) : FVec Ideal S128 .f32) (ix1 j)) (m ((c.tc : Thread nD τ).loc main_arg9) : FVec Ideal S128x128 .f32) (fun j => (m ((c.tc : Thread nD τ).loc main_arg10) : FVec Ideal S128 .f32) (ix1 j))
/-- Layer 2's output: the layer of layer 1's output and its neighbour sums, with parameter set 0 of the stacks. -/
def h2 : S100000x128.Idx → EReal :=
  GinLayer.layer (h1 m c) (agg128 (h1 m c) (srcOf (m ((c.tc : Thread nD τ).loc main_arg1) : IVec S2x600000 32)) (dstOf (m ((c.tc : Thread nD τ).loc main_arg1) : IVec S2x600000 32))) (mat0 (m ((c.tc : Thread nD τ).loc main_arg11) : FVec Ideal S4x128x128 .f32))
    (fun j => row0 (m ((c.tc : Thread nD τ).loc main_arg12) : FVec Ideal S4x128 .f32) (ix1 j)) (fun j => row0 (m ((c.tc : Thread nD τ).loc main_arg13) : FVec Ideal S4x128 .f32) (ix1 j)) (fun j => row0 (m ((c.tc : Thread nD τ).loc main_arg14) : FVec Ideal S4x128 .f32) (ix1 j))
    (fun j => row0 (m ((c.tc : Thread nD τ).loc main_arg15) : FVec Ideal S4x128 .f32) (ix1 j)) (fun j => row0 (m ((c.tc : Thread nD τ).loc main_arg16) : FVec Ideal S4x128 .f32) (ix1 j)) (mat0 (m ((c.tc : Thread nD τ).loc main_arg17) : FVec Ideal S4x128x128 .f32)) (fun j => row0 (m ((c.tc : Thread nD τ).loc main_arg18) : FVec Ideal S4x128 .f32) (ix1 j))
/-- Layer 3's output: the layer of layer 2's output and its neighbour sums, with parameter set 1 of the stacks. -/
def h3 : S100000x128.Idx → EReal :=
  GinLayer.layer (h2 m c) (agg128 (h2 m c) (srcOf (m ((c.tc : Thread nD τ).loc main_arg1) : IVec S2x600000 32)) (dstOf (m ((c.tc : Thread nD τ).loc main_arg1) : IVec S2x600000 32))) (mat1 (m ((c.tc : Thread nD τ).loc main_arg11) : FVec Ideal S4x128x128 .f32))
    (fun j => row1 (m ((c.tc : Thread nD τ).loc main_arg12) : FVec Ideal S4x128 .f32) (ix1 j)) (fun j => row1 (m ((c.tc : Thread nD τ).loc main_arg13) : FVec Ideal S4x128 .f32) (ix1 j)) (fun j => row1 (m ((c.tc : Thread nD τ).loc main_arg14) : FVec Ideal S4x128 .f32) (ix1 j))
    (fun j => row1 (m ((c.tc : Thread nD τ).loc main_arg15) : FVec Ideal S4x128 .f32) (ix1 j)) (fun j => row1 (m ((c.tc : Thread nD τ).loc main_arg16) : FVec Ideal S4x128 .f32) (ix1 j)) (mat1 (m ((c.tc : Thread nD τ).loc main_arg17) : FVec Ideal S4x128x128 .f32)) (fun j => row1 (m ((c.tc : Thread nD τ).loc main_arg18) : FVec Ideal S4x128 .f32) (ix1 j))
/-- Layer 4's output: the layer of layer 3's output and its neighbour sums, with parameter set 2 of the stacks. -/
def h4 : S100000x128.Idx → EReal :=
  GinLayer.layer (h3 m c) (agg128 (h3 m c) (srcOf (m ((c.tc : Thread nD τ).loc main_arg1) : IVec S2x600000 32)) (dstOf (m ((c.tc : Thread nD τ).loc main_arg1) : IVec S2x600000 32))) (mat2 (m ((c.tc : Thread nD τ).loc main_arg11) : FVec Ideal S4x128x128 .f32))
    (fun j => row2 (m ((c.tc : Thread nD τ).loc main_arg12) : FVec Ideal S4x128 .f32) (ix1 j)) (fun j => row2 (m ((c.tc : Thread nD τ).loc main_arg13) : FVec Ideal S4x128 .f32) (ix1 j)) (fun j => row2 (m ((c.tc : Thread nD τ).loc main_arg14) : FVec Ideal S4x128 .f32) (ix1 j))
    (fun j => row2 (m ((c.tc : Thread nD τ).loc main_arg15) : FVec Ideal S4x128 .f32) (ix1 j)) (fun j => row2 (m ((c.tc : Thread nD τ).loc main_arg16) : FVec Ideal S4x128 .f32) (ix1 j)) (mat2 (m ((c.tc : Thread nD τ).loc main_arg17) : FVec Ideal S4x128x128 .f32)) (fun j => row2 (m ((c.tc : Thread nD τ).loc main_arg18) : FVec Ideal S4x128 .f32) (ix1 j))
/-- Layer 5's output: the layer of layer 4's output and its neighbour sums, with parameter set 3 of the stacks. -/
def h5 : S100000x128.Idx → EReal :=
  GinLayer.layer (h4 m c) (agg128 (h4 m c) (srcOf (m ((c.tc : Thread nD τ).loc main_arg1) : IVec S2x600000 32)) (dstOf (m ((c.tc : Thread nD τ).loc main_arg1) : IVec S2x600000 32))) (mat3 (m ((c.tc : Thread nD τ).loc main_arg11) : FVec Ideal S4x128x128 .f32))
    (fun j => row3 (m ((c.tc : Thread nD τ).loc main_arg12) : FVec Ideal S4x128 .f32) (ix1 j)) (fun j => row3 (m ((c.tc : Thread nD τ).loc main_arg13) : FVec Ideal S4x128 .f32) (ix1 j)) (fun j => row3 (m ((c.tc : Thread nD τ).loc main_arg14) : FVec Ideal S4x128 .f32) (ix1 j))
    (fun j => row3 (m ((c.tc : Thread nD τ).loc main_arg15) : FVec Ideal S4x128 .f32) (ix1 j)) (fun j => row3 (m ((c.tc : Thread nD τ).loc main_arg16) : FVec Ideal S4x128 .f32) (ix1 j)) (mat3 (m ((c.tc : Thread nD τ).loc main_arg17) : FVec Ideal S4x128x128 .f32)) (fun j => row3 (m ((c.tc : Thread nD τ).loc main_arg18) : FVec Ideal S4x128 .f32) (ix1 j))
/-- The program's result: the read-out of layer 5's output. -/
def out : FVec Ideal S1000 .f32 := readout (h5 m c) (m ((c.tc : Thread nD τ).loc main_arg2) : IVec S100000 32) (m ((c.tc : Thread nD τ).loc main_arg19) : FVec Ideal S128x1 .f32) (m ((c.tc : Thread nD τ).loc main_arg20) : FVec Ideal S1 .f32)

/-! ## What is never overwritten -/

theorem k1_main_v1 : (W1 m ρ c (Proc.devRef .tc main_v1) : IVec S600000 32) = srcOf (m ((c.tc : Thread nD τ).loc main_arg1) : IVec S2x600000 32) := by
  show StableHlo.after hostOps0 (W0 m ρ c) (Proc.devRef .tc main_v1) = _
  after_results
  all_goals rfl
theorem k2_main_v1 : (W2 m ρ c (Proc.devRef .tc main_v1) : IVec S600000 32) = srcOf (m ((c.tc : Thread nD τ).loc main_arg1) : IVec S2x600000 32) :=
  (W2_of_ne m ρ c main_v1 (by decide)).trans (k1_main_v1 m ρ c)
theorem k3_main_v1 : (W3 m ρ c (Proc.devRef .tc main_v1) : IVec S600000 32) = srcOf (m ((c.tc : Thread nD τ).loc main_arg1) : IVec S2x600000 32) :=
  (show W3 m ρ c (Proc.devRef .tc main_v1) = W2 m ρ c (Proc.devRef .tc main_v1) from by
    show StableHlo.after hostOps1 (W2 m ρ c) (Proc.devRef .tc main_v1) = _
    after_results
    all_goals rfl).trans (k2_main_v1 m ρ c)
theorem k4_main_v1 : (W4 m ρ c (Proc.devRef .tc main_v1) : IVec S600000 32) = srcOf (m ((c.tc : Thread nD τ).loc main_arg1) : IVec S2x600000 32) :=
  (W4_of_ne m ρ c main_v1 (by decide)).trans (k3_main_v1 m ρ c)
theorem k5_main_v1 : (W5 m ρ c (Proc.devRef .tc main_v1) : IVec S600000 32) = srcOf (m ((c.tc : Thread nD τ).loc main_arg1) : IVec S2x600000 32) :=
  (show W5 m ρ c (Proc.devRef .tc main_v1) = W4 m ρ c (Proc.devRef .tc main_v1) from by
    show StableHlo.after hostOps2 (W4 m ρ c) (Proc.devRef .tc main_v1) = _
    after_results
    all_goals rfl).trans (k4_main_v1 m ρ c)
theorem k6_main_v1 : (W6 m ρ c (Proc.devRef .tc main_v1) : IVec S600000 32) = srcOf (m ((c.tc : Thread nD τ).loc main_arg1) : IVec S2x600000 32) :=
  (W6_of_ne m ρ c main_v1 (by decide)).trans (k5_main_v1 m ρ c)
theorem k7_main_v1 : (W7 m ρ c (Proc.devRef .tc main_v1) : IVec S600000 32) = srcOf (m ((c.tc : Thread nD τ).loc main_arg1) : IVec S2x600000 32) :=
  (show W7 m ρ c (Proc.devRef .tc main_v1) = W6 m ρ c (Proc.devRef .tc main_v1) from by
    show StableHlo.after hostOps3 (W6 m ρ c) (Proc.devRef .tc main_v1) = _
    after_results
    all_goals rfl).trans (k6_main_v1 m ρ c)
theorem k8_main_v1 : (W8 m ρ c (Proc.devRef .tc main_v1) : IVec S600000 32) = srcOf (m ((c.tc : Thread nD τ).loc main_arg1) : IVec S2x600000 32) :=
  (W8_of_ne m ρ c main_v1 (by decide)).trans (k7_main_v1 m ρ c)
theorem k9_main_v1 : (W9 m ρ c (Proc.devRef .tc main_v1) : IVec S600000 32) = srcOf (m ((c.tc : Thread nD τ).loc main_arg1) : IVec S2x600000 32) :=
  (show W9 m ρ c (Proc.devRef .tc main_v1) = W8 m ρ c (Proc.devRef .tc main_v1) from by
    show StableHlo.after hostOps4 (W8 m ρ c) (Proc.devRef .tc main_v1) = _
    after_results
    all_goals rfl).trans (k8_main_v1 m ρ c)
theorem k10_main_v1 : (W10 m ρ c (Proc.devRef .tc main_v1) : IVec S600000 32) = srcOf (m ((c.tc : Thread nD τ).loc main_arg1) : IVec S2x600000 32) :=
  (W10_of_ne m ρ c main_v1 (by decide)).trans (k9_main_v1 m ρ c)
theorem k1_main_v3 : (W1 m ρ c (Proc.devRef .tc main_v3) : IVec S600000 32) = dstOf (m ((c.tc : Thread nD τ).loc main_arg1) : IVec S2x600000 32) := by
  show StableHlo.after hostOps0 (W0 m ρ c) (Proc.devRef .tc main_v3) = _
  after_results
  all_goals rfl
theorem k2_main_v3 : (W2 m ρ c (Proc.devRef .tc main_v3) : IVec S600000 32) = dstOf (m ((c.tc : Thread nD τ).loc main_arg1) : IVec S2x600000 32) :=
  (W2_of_ne m ρ c main_v3 (by decide)).trans (k1_main_v3 m ρ c)
theorem k3_main_v3 : (W3 m ρ c (Proc.devRef .tc main_v3) : IVec S600000 32) = dstOf (m ((c.tc : Thread nD τ).loc main_arg1) : IVec S2x600000 32) :=
  (show W3 m ρ c (Proc.devRef .tc main_v3) = W2 m ρ c (Proc.devRef .tc main_v3) from by
    show StableHlo.after hostOps1 (W2 m ρ c) (Proc.devRef .tc main_v3) = _
    after_results
    all_goals rfl).trans (k2_main_v3 m ρ c)
theorem k4_main_v3 : (W4 m ρ c (Proc.devRef .tc main_v3) : IVec S600000 32) = dstOf (m ((c.tc : Thread nD τ).loc main_arg1) : IVec S2x600000 32) :=
  (W4_of_ne m ρ c main_v3 (by decide)).trans (k3_main_v3 m ρ c)
theorem k5_main_v3 : (W5 m ρ c (Proc.devRef .tc main_v3) : IVec S600000 32) = dstOf (m ((c.tc : Thread nD τ).loc main_arg1) : IVec S2x600000 32) :=
  (show W5 m ρ c (Proc.devRef .tc main_v3) = W4 m ρ c (Proc.devRef .tc main_v3) from by
    show StableHlo.after hostOps2 (W4 m ρ c) (Proc.devRef .tc main_v3) = _
    after_results
    all_goals rfl).trans (k4_main_v3 m ρ c)
theorem k6_main_v3 : (W6 m ρ c (Proc.devRef .tc main_v3) : IVec S600000 32) = dstOf (m ((c.tc : Thread nD τ).loc main_arg1) : IVec S2x600000 32) :=
  (W6_of_ne m ρ c main_v3 (by decide)).trans (k5_main_v3 m ρ c)
theorem k7_main_v3 : (W7 m ρ c (Proc.devRef .tc main_v3) : IVec S600000 32) = dstOf (m ((c.tc : Thread nD τ).loc main_arg1) : IVec S2x600000 32) :=
  (show W7 m ρ c (Proc.devRef .tc main_v3) = W6 m ρ c (Proc.devRef .tc main_v3) from by
    show StableHlo.after hostOps3 (W6 m ρ c) (Proc.devRef .tc main_v3) = _
    after_results
    all_goals rfl).trans (k6_main_v3 m ρ c)
theorem k8_main_v3 : (W8 m ρ c (Proc.devRef .tc main_v3) : IVec S600000 32) = dstOf (m ((c.tc : Thread nD τ).loc main_arg1) : IVec S2x600000 32) :=
  (W8_of_ne m ρ c main_v3 (by decide)).trans (k7_main_v3 m ρ c)
theorem k9_main_v3 : (W9 m ρ c (Proc.devRef .tc main_v3) : IVec S600000 32) = dstOf (m ((c.tc : Thread nD τ).loc main_arg1) : IVec S2x600000 32) :=
  (show W9 m ρ c (Proc.devRef .tc main_v3) = W8 m ρ c (Proc.devRef .tc main_v3) from by
    show StableHlo.after hostOps4 (W8 m ρ c) (Proc.devRef .tc main_v3) = _
    after_results
    all_goals rfl).trans (k8_main_v3 m ρ c)
theorem k10_main_v3 : (W10 m ρ c (Proc.devRef .tc main_v3) : IVec S600000 32) = dstOf (m ((c.tc : Thread nD τ).loc main_arg1) : IVec S2x600000 32) :=
  (W10_of_ne m ρ c main_v3 (by decide)).trans (k9_main_v3 m ρ c)
theorem k1_main_arg2 : (W1 m ρ c (Proc.devRef .tc main_arg2) : IVec S100000 32) = (m ((c.tc : Thread nD τ).loc main_arg2) : IVec S100000 32) := by
  show StableHlo.after hostOps0 (W0 m ρ c) (Proc.devRef .tc main_arg2) = _
  after_results
  all_goals rfl
theorem k2_main_arg2 : (W2 m ρ c (Proc.devRef .tc main_arg2) : IVec S100000 32) = (m ((c.tc : Thread nD τ).loc main_arg2) : IVec S100000 32) :=
  (W2_of_ne m ρ c main_arg2 (by decide)).trans (k1_main_arg2 m ρ c)
theorem k3_main_arg2 : (W3 m ρ c (Proc.devRef .tc main_arg2) : IVec S100000 32) = (m ((c.tc : Thread nD τ).loc main_arg2) : IVec S100000 32) :=
  (show W3 m ρ c (Proc.devRef .tc main_arg2) = W2 m ρ c (Proc.devRef .tc main_arg2) from by
    show StableHlo.after hostOps1 (W2 m ρ c) (Proc.devRef .tc main_arg2) = _
    after_results
    all_goals rfl).trans (k2_main_arg2 m ρ c)
theorem k4_main_arg2 : (W4 m ρ c (Proc.devRef .tc main_arg2) : IVec S100000 32) = (m ((c.tc : Thread nD τ).loc main_arg2) : IVec S100000 32) :=
  (W4_of_ne m ρ c main_arg2 (by decide)).trans (k3_main_arg2 m ρ c)
theorem k5_main_arg2 : (W5 m ρ c (Proc.devRef .tc main_arg2) : IVec S100000 32) = (m ((c.tc : Thread nD τ).loc main_arg2) : IVec S100000 32) :=
  (show W5 m ρ c (Proc.devRef .tc main_arg2) = W4 m ρ c (Proc.devRef .tc main_arg2) from by
    show StableHlo.after hostOps2 (W4 m ρ c) (Proc.devRef .tc main_arg2) = _
    after_results
    all_goals rfl).trans (k4_main_arg2 m ρ c)
theorem k6_main_arg2 : (W6 m ρ c (Proc.devRef .tc main_arg2) : IVec S100000 32) = (m ((c.tc : Thread nD τ).loc main_arg2) : IVec S100000 32) :=
  (W6_of_ne m ρ c main_arg2 (by decide)).trans (k5_main_arg2 m ρ c)
theorem k7_main_arg2 : (W7 m ρ c (Proc.devRef .tc main_arg2) : IVec S100000 32) = (m ((c.tc : Thread nD τ).loc main_arg2) : IVec S100000 32) :=
  (show W7 m ρ c (Proc.devRef .tc main_arg2) = W6 m ρ c (Proc.devRef .tc main_arg2) from by
    show StableHlo.after hostOps3 (W6 m ρ c) (Proc.devRef .tc main_arg2) = _
    after_results
    all_goals rfl).trans (k6_main_arg2 m ρ c)
theorem k8_main_arg2 : (W8 m ρ c (Proc.devRef .tc main_arg2) : IVec S100000 32) = (m ((c.tc : Thread nD τ).loc main_arg2) : IVec S100000 32) :=
  (W8_of_ne m ρ c main_arg2 (by decide)).trans (k7_main_arg2 m ρ c)
theorem k9_main_arg2 : (W9 m ρ c (Proc.devRef .tc main_arg2) : IVec S100000 32) = (m ((c.tc : Thread nD τ).loc main_arg2) : IVec S100000 32) :=
  (show W9 m ρ c (Proc.devRef .tc main_arg2) = W8 m ρ c (Proc.devRef .tc main_arg2) from by
    show StableHlo.after hostOps4 (W8 m ρ c) (Proc.devRef .tc main_arg2) = _
    after_results
    all_goals rfl).trans (k8_main_arg2 m ρ c)
theorem k10_main_arg2 : (W10 m ρ c (Proc.devRef .tc main_arg2) : IVec S100000 32) = (m ((c.tc : Thread nD τ).loc main_arg2) : IVec S100000 32) :=
  (W10_of_ne m ρ c main_arg2 (by decide)).trans (k9_main_arg2 m ρ c)
theorem k1_main_arg11 : (W1 m ρ c (Proc.devRef .tc main_arg11) : FVec Ideal S4x128x128 .f32) = (m ((c.tc : Thread nD τ).loc main_arg11) : FVec Ideal S4x128x128 .f32) := by
  show StableHlo.after hostOps0 (W0 m ρ c) (Proc.devRef .tc main_arg11) = _
  after_results
  all_goals rfl
theorem k2_main_arg11 : (W2 m ρ c (Proc.devRef .tc main_arg11) : FVec Ideal S4x128x128 .f32) = (m ((c.tc : Thread nD τ).loc main_arg11) : FVec Ideal S4x128x128 .f32) :=
  (W2_of_ne m ρ c main_arg11 (by decide)).trans (k1_main_arg11 m ρ c)
theorem k3_main_arg11 : (W3 m ρ c (Proc.devRef .tc main_arg11) : FVec Ideal S4x128x128 .f32) = (m ((c.tc : Thread nD τ).loc main_arg11) : FVec Ideal S4x128x128 .f32) :=
  (show W3 m ρ c (Proc.devRef .tc main_arg11) = W2 m ρ c (Proc.devRef .tc main_arg11) from by
    show StableHlo.after hostOps1 (W2 m ρ c) (Proc.devRef .tc main_arg11) = _
    after_results
    all_goals rfl).trans (k2_main_arg11 m ρ c)
theorem k4_main_arg11 : (W4 m ρ c (Proc.devRef .tc main_arg11) : FVec Ideal S4x128x128 .f32) = (m ((c.tc : Thread nD τ).loc main_arg11) : FVec Ideal S4x128x128 .f32) :=
  (W4_of_ne m ρ c main_arg11 (by decide)).trans (k3_main_arg11 m ρ c)
theorem k5_main_arg11 : (W5 m ρ c (Proc.devRef .tc main_arg11) : FVec Ideal S4x128x128 .f32) = (m ((c.tc : Thread nD τ).loc main_arg11) : FVec Ideal S4x128x128 .f32) :=
  (show W5 m ρ c (Proc.devRef .tc main_arg11) = W4 m ρ c (Proc.devRef .tc main_arg11) from by
    show StableHlo.after hostOps2 (W4 m ρ c) (Proc.devRef .tc main_arg11) = _
    after_results
    all_goals rfl).trans (k4_main_arg11 m ρ c)
theorem k6_main_arg11 : (W6 m ρ c (Proc.devRef .tc main_arg11) : FVec Ideal S4x128x128 .f32) = (m ((c.tc : Thread nD τ).loc main_arg11) : FVec Ideal S4x128x128 .f32) :=
  (W6_of_ne m ρ c main_arg11 (by decide)).trans (k5_main_arg11 m ρ c)
theorem k7_main_arg11 : (W7 m ρ c (Proc.devRef .tc main_arg11) : FVec Ideal S4x128x128 .f32) = (m ((c.tc : Thread nD τ).loc main_arg11) : FVec Ideal S4x128x128 .f32) :=
  (show W7 m ρ c (Proc.devRef .tc main_arg11) = W6 m ρ c (Proc.devRef .tc main_arg11) from by
    show StableHlo.after hostOps3 (W6 m ρ c) (Proc.devRef .tc main_arg11) = _
    after_results
    all_goals rfl).trans (k6_main_arg11 m ρ c)
theorem k8_main_arg11 : (W8 m ρ c (Proc.devRef .tc main_arg11) : FVec Ideal S4x128x128 .f32) = (m ((c.tc : Thread nD τ).loc main_arg11) : FVec Ideal S4x128x128 .f32) :=
  (W8_of_ne m ρ c main_arg11 (by decide)).trans (k7_main_arg11 m ρ c)
theorem k9_main_arg11 : (W9 m ρ c (Proc.devRef .tc main_arg11) : FVec Ideal S4x128x128 .f32) = (m ((c.tc : Thread nD τ).loc main_arg11) : FVec Ideal S4x128x128 .f32) :=
  (show W9 m ρ c (Proc.devRef .tc main_arg11) = W8 m ρ c (Proc.devRef .tc main_arg11) from by
    show StableHlo.after hostOps4 (W8 m ρ c) (Proc.devRef .tc main_arg11) = _
    after_results
    all_goals rfl).trans (k8_main_arg11 m ρ c)
theorem k10_main_arg11 : (W10 m ρ c (Proc.devRef .tc main_arg11) : FVec Ideal S4x128x128 .f32) = (m ((c.tc : Thread nD τ).loc main_arg11) : FVec Ideal S4x128x128 .f32) :=
  (W10_of_ne m ρ c main_arg11 (by decide)).trans (k9_main_arg11 m ρ c)
theorem k1_main_arg12 : (W1 m ρ c (Proc.devRef .tc main_arg12) : FVec Ideal S4x128 .f32) = (m ((c.tc : Thread nD τ).loc main_arg12) : FVec Ideal S4x128 .f32) := by
  show StableHlo.after hostOps0 (W0 m ρ c) (Proc.devRef .tc main_arg12) = _
  after_results
  all_goals rfl
theorem k2_main_arg12 : (W2 m ρ c (Proc.devRef .tc main_arg12) : FVec Ideal S4x128 .f32) = (m ((c.tc : Thread nD τ).loc main_arg12) : FVec Ideal S4x128 .f32) :=
  (W2_of_ne m ρ c main_arg12 (by decide)).trans (k1_main_arg12 m ρ c)
theorem k3_main_arg12 : (W3 m ρ c (Proc.devRef .tc main_arg12) : FVec Ideal S4x128 .f32) = (m ((c.tc : Thread nD τ).loc main_arg12) : FVec Ideal S4x128 .f32) :=
  (show W3 m ρ c (Proc.devRef .tc main_arg12) = W2 m ρ c (Proc.devRef .tc main_arg12) from by
    show StableHlo.after hostOps1 (W2 m ρ c) (Proc.devRef .tc main_arg12) = _
    after_results
    all_goals rfl).trans (k2_main_arg12 m ρ c)
theorem k4_main_arg12 : (W4 m ρ c (Proc.devRef .tc main_arg12) : FVec Ideal S4x128 .f32) = (m ((c.tc : Thread nD τ).loc main_arg12) : FVec Ideal S4x128 .f32) :=
  (W4_of_ne m ρ c main_arg12 (by decide)).trans (k3_main_arg12 m ρ c)
theorem k5_main_arg12 : (W5 m ρ c (Proc.devRef .tc main_arg12) : FVec Ideal S4x128 .f32) = (m ((c.tc : Thread nD τ).loc main_arg12) : FVec Ideal S4x128 .f32) :=
  (show W5 m ρ c (Proc.devRef .tc main_arg12) = W4 m ρ c (Proc.devRef .tc main_arg12) from by
    show StableHlo.after hostOps2 (W4 m ρ c) (Proc.devRef .tc main_arg12) = _
    after_results
    all_goals rfl).trans (k4_main_arg12 m ρ c)
theorem k6_main_arg12 : (W6 m ρ c (Proc.devRef .tc main_arg12) : FVec Ideal S4x128 .f32) = (m ((c.tc : Thread nD τ).loc main_arg12) : FVec Ideal S4x128 .f32) :=
  (W6_of_ne m ρ c main_arg12 (by decide)).trans (k5_main_arg12 m ρ c)
theorem k7_main_arg12 : (W7 m ρ c (Proc.devRef .tc main_arg12) : FVec Ideal S4x128 .f32) = (m ((c.tc : Thread nD τ).loc main_arg12) : FVec Ideal S4x128 .f32) :=
  (show W7 m ρ c (Proc.devRef .tc main_arg12) = W6 m ρ c (Proc.devRef .tc main_arg12) from by
    show StableHlo.after hostOps3 (W6 m ρ c) (Proc.devRef .tc main_arg12) = _
    after_results
    all_goals rfl).trans (k6_main_arg12 m ρ c)
theorem k8_main_arg12 : (W8 m ρ c (Proc.devRef .tc main_arg12) : FVec Ideal S4x128 .f32) = (m ((c.tc : Thread nD τ).loc main_arg12) : FVec Ideal S4x128 .f32) :=
  (W8_of_ne m ρ c main_arg12 (by decide)).trans (k7_main_arg12 m ρ c)
theorem k9_main_arg12 : (W9 m ρ c (Proc.devRef .tc main_arg12) : FVec Ideal S4x128 .f32) = (m ((c.tc : Thread nD τ).loc main_arg12) : FVec Ideal S4x128 .f32) :=
  (show W9 m ρ c (Proc.devRef .tc main_arg12) = W8 m ρ c (Proc.devRef .tc main_arg12) from by
    show StableHlo.after hostOps4 (W8 m ρ c) (Proc.devRef .tc main_arg12) = _
    after_results
    all_goals rfl).trans (k8_main_arg12 m ρ c)
theorem k10_main_arg12 : (W10 m ρ c (Proc.devRef .tc main_arg12) : FVec Ideal S4x128 .f32) = (m ((c.tc : Thread nD τ).loc main_arg12) : FVec Ideal S4x128 .f32) :=
  (W10_of_ne m ρ c main_arg12 (by decide)).trans (k9_main_arg12 m ρ c)
theorem k1_main_arg13 : (W1 m ρ c (Proc.devRef .tc main_arg13) : FVec Ideal S4x128 .f32) = (m ((c.tc : Thread nD τ).loc main_arg13) : FVec Ideal S4x128 .f32) := by
  show StableHlo.after hostOps0 (W0 m ρ c) (Proc.devRef .tc main_arg13) = _
  after_results
  all_goals rfl
theorem k2_main_arg13 : (W2 m ρ c (Proc.devRef .tc main_arg13) : FVec Ideal S4x128 .f32) = (m ((c.tc : Thread nD τ).loc main_arg13) : FVec Ideal S4x128 .f32) :=
  (W2_of_ne m ρ c main_arg13 (by decide)).trans (k1_main_arg13 m ρ c)
theorem k3_main_arg13 : (W3 m ρ c (Proc.devRef .tc main_arg13) : FVec Ideal S4x128 .f32) = (m ((c.tc : Thread nD τ).loc main_arg13) : FVec Ideal S4x128 .f32) :=
  (show W3 m ρ c (Proc.devRef .tc main_arg13) = W2 m ρ c (Proc.devRef .tc main_arg13) from by
    show StableHlo.after hostOps1 (W2 m ρ c) (Proc.devRef .tc main_arg13) = _
    after_results
    all_goals rfl).trans (k2_main_arg13 m ρ c)
theorem k4_main_arg13 : (W4 m ρ c (Proc.devRef .tc main_arg13) : FVec Ideal S4x128 .f32) = (m ((c.tc : Thread nD τ).loc main_arg13) : FVec Ideal S4x128 .f32) :=
  (W4_of_ne m ρ c main_arg13 (by decide)).trans (k3_main_arg13 m ρ c)
theorem k5_main_arg13 : (W5 m ρ c (Proc.devRef .tc main_arg13) : FVec Ideal S4x128 .f32) = (m ((c.tc : Thread nD τ).loc main_arg13) : FVec Ideal S4x128 .f32) :=
  (show W5 m ρ c (Proc.devRef .tc main_arg13) = W4 m ρ c (Proc.devRef .tc main_arg13) from by
    show StableHlo.after hostOps2 (W4 m ρ c) (Proc.devRef .tc main_arg13) = _
    after_results
    all_goals rfl).trans (k4_main_arg13 m ρ c)
theorem k6_main_arg13 : (W6 m ρ c (Proc.devRef .tc main_arg13) : FVec Ideal S4x128 .f32) = (m ((c.tc : Thread nD τ).loc main_arg13) : FVec Ideal S4x128 .f32) :=
  (W6_of_ne m ρ c main_arg13 (by decide)).trans (k5_main_arg13 m ρ c)
theorem k7_main_arg13 : (W7 m ρ c (Proc.devRef .tc main_arg13) : FVec Ideal S4x128 .f32) = (m ((c.tc : Thread nD τ).loc main_arg13) : FVec Ideal S4x128 .f32) :=
  (show W7 m ρ c (Proc.devRef .tc main_arg13) = W6 m ρ c (Proc.devRef .tc main_arg13) from by
    show StableHlo.after hostOps3 (W6 m ρ c) (Proc.devRef .tc main_arg13) = _
    after_results
    all_goals rfl).trans (k6_main_arg13 m ρ c)
theorem k8_main_arg13 : (W8 m ρ c (Proc.devRef .tc main_arg13) : FVec Ideal S4x128 .f32) = (m ((c.tc : Thread nD τ).loc main_arg13) : FVec Ideal S4x128 .f32) :=
  (W8_of_ne m ρ c main_arg13 (by decide)).trans (k7_main_arg13 m ρ c)
theorem k9_main_arg13 : (W9 m ρ c (Proc.devRef .tc main_arg13) : FVec Ideal S4x128 .f32) = (m ((c.tc : Thread nD τ).loc main_arg13) : FVec Ideal S4x128 .f32) :=
  (show W9 m ρ c (Proc.devRef .tc main_arg13) = W8 m ρ c (Proc.devRef .tc main_arg13) from by
    show StableHlo.after hostOps4 (W8 m ρ c) (Proc.devRef .tc main_arg13) = _
    after_results
    all_goals rfl).trans (k8_main_arg13 m ρ c)
theorem k10_main_arg13 : (W10 m ρ c (Proc.devRef .tc main_arg13) : FVec Ideal S4x128 .f32) = (m ((c.tc : Thread nD τ).loc main_arg13) : FVec Ideal S4x128 .f32) :=
  (W10_of_ne m ρ c main_arg13 (by decide)).trans (k9_main_arg13 m ρ c)
theorem k1_main_arg14 : (W1 m ρ c (Proc.devRef .tc main_arg14) : FVec Ideal S4x128 .f32) = (m ((c.tc : Thread nD τ).loc main_arg14) : FVec Ideal S4x128 .f32) := by
  show StableHlo.after hostOps0 (W0 m ρ c) (Proc.devRef .tc main_arg14) = _
  after_results
  all_goals rfl
theorem k2_main_arg14 : (W2 m ρ c (Proc.devRef .tc main_arg14) : FVec Ideal S4x128 .f32) = (m ((c.tc : Thread nD τ).loc main_arg14) : FVec Ideal S4x128 .f32) :=
  (W2_of_ne m ρ c main_arg14 (by decide)).trans (k1_main_arg14 m ρ c)
theorem k3_main_arg14 : (W3 m ρ c (Proc.devRef .tc main_arg14) : FVec Ideal S4x128 .f32) = (m ((c.tc : Thread nD τ).loc main_arg14) : FVec Ideal S4x128 .f32) :=
  (show W3 m ρ c (Proc.devRef .tc main_arg14) = W2 m ρ c (Proc.devRef .tc main_arg14) from by
    show StableHlo.after hostOps1 (W2 m ρ c) (Proc.devRef .tc main_arg14) = _
    after_results
    all_goals rfl).trans (k2_main_arg14 m ρ c)
theorem k4_main_arg14 : (W4 m ρ c (Proc.devRef .tc main_arg14) : FVec Ideal S4x128 .f32) = (m ((c.tc : Thread nD τ).loc main_arg14) : FVec Ideal S4x128 .f32) :=
  (W4_of_ne m ρ c main_arg14 (by decide)).trans (k3_main_arg14 m ρ c)
theorem k5_main_arg14 : (W5 m ρ c (Proc.devRef .tc main_arg14) : FVec Ideal S4x128 .f32) = (m ((c.tc : Thread nD τ).loc main_arg14) : FVec Ideal S4x128 .f32) :=
  (show W5 m ρ c (Proc.devRef .tc main_arg14) = W4 m ρ c (Proc.devRef .tc main_arg14) from by
    show StableHlo.after hostOps2 (W4 m ρ c) (Proc.devRef .tc main_arg14) = _
    after_results
    all_goals rfl).trans (k4_main_arg14 m ρ c)
theorem k6_main_arg14 : (W6 m ρ c (Proc.devRef .tc main_arg14) : FVec Ideal S4x128 .f32) = (m ((c.tc : Thread nD τ).loc main_arg14) : FVec Ideal S4x128 .f32) :=
  (W6_of_ne m ρ c main_arg14 (by decide)).trans (k5_main_arg14 m ρ c)
theorem k7_main_arg14 : (W7 m ρ c (Proc.devRef .tc main_arg14) : FVec Ideal S4x128 .f32) = (m ((c.tc : Thread nD τ).loc main_arg14) : FVec Ideal S4x128 .f32) :=
  (show W7 m ρ c (Proc.devRef .tc main_arg14) = W6 m ρ c (Proc.devRef .tc main_arg14) from by
    show StableHlo.after hostOps3 (W6 m ρ c) (Proc.devRef .tc main_arg14) = _
    after_results
    all_goals rfl).trans (k6_main_arg14 m ρ c)
theorem k8_main_arg14 : (W8 m ρ c (Proc.devRef .tc main_arg14) : FVec Ideal S4x128 .f32) = (m ((c.tc : Thread nD τ).loc main_arg14) : FVec Ideal S4x128 .f32) :=
  (W8_of_ne m ρ c main_arg14 (by decide)).trans (k7_main_arg14 m ρ c)
theorem k9_main_arg14 : (W9 m ρ c (Proc.devRef .tc main_arg14) : FVec Ideal S4x128 .f32) = (m ((c.tc : Thread nD τ).loc main_arg14) : FVec Ideal S4x128 .f32) :=
  (show W9 m ρ c (Proc.devRef .tc main_arg14) = W8 m ρ c (Proc.devRef .tc main_arg14) from by
    show StableHlo.after hostOps4 (W8 m ρ c) (Proc.devRef .tc main_arg14) = _
    after_results
    all_goals rfl).trans (k8_main_arg14 m ρ c)
theorem k10_main_arg14 : (W10 m ρ c (Proc.devRef .tc main_arg14) : FVec Ideal S4x128 .f32) = (m ((c.tc : Thread nD τ).loc main_arg14) : FVec Ideal S4x128 .f32) :=
  (W10_of_ne m ρ c main_arg14 (by decide)).trans (k9_main_arg14 m ρ c)
theorem k1_main_arg15 : (W1 m ρ c (Proc.devRef .tc main_arg15) : FVec Ideal S4x128 .f32) = (m ((c.tc : Thread nD τ).loc main_arg15) : FVec Ideal S4x128 .f32) := by
  show StableHlo.after hostOps0 (W0 m ρ c) (Proc.devRef .tc main_arg15) = _
  after_results
  all_goals rfl
theorem k2_main_arg15 : (W2 m ρ c (Proc.devRef .tc main_arg15) : FVec Ideal S4x128 .f32) = (m ((c.tc : Thread nD τ).loc main_arg15) : FVec Ideal S4x128 .f32) :=
  (W2_of_ne m ρ c main_arg15 (by decide)).trans (k1_main_arg15 m ρ c)
theorem k3_main_arg15 : (W3 m ρ c (Proc.devRef .tc main_arg15) : FVec Ideal S4x128 .f32) = (m ((c.tc : Thread nD τ).loc main_arg15) : FVec Ideal S4x128 .f32) :=
  (show W3 m ρ c (Proc.devRef .tc main_arg15) = W2 m ρ c (Proc.devRef .tc main_arg15) from by
    show StableHlo.after hostOps1 (W2 m ρ c) (Proc.devRef .tc main_arg15) = _
    after_results
    all_goals rfl).trans (k2_main_arg15 m ρ c)
theorem k4_main_arg15 : (W4 m ρ c (Proc.devRef .tc main_arg15) : FVec Ideal S4x128 .f32) = (m ((c.tc : Thread nD τ).loc main_arg15) : FVec Ideal S4x128 .f32) :=
  (W4_of_ne m ρ c main_arg15 (by decide)).trans (k3_main_arg15 m ρ c)
theorem k5_main_arg15 : (W5 m ρ c (Proc.devRef .tc main_arg15) : FVec Ideal S4x128 .f32) = (m ((c.tc : Thread nD τ).loc main_arg15) : FVec Ideal S4x128 .f32) :=
  (show W5 m ρ c (Proc.devRef .tc main_arg15) = W4 m ρ c (Proc.devRef .tc main_arg15) from by
    show StableHlo.after hostOps2 (W4 m ρ c) (Proc.devRef .tc main_arg15) = _
    after_results
    all_goals rfl).trans (k4_main_arg15 m ρ c)
theorem k6_main_arg15 : (W6 m ρ c (Proc.devRef .tc main_arg15) : FVec Ideal S4x128 .f32) = (m ((c.tc : Thread nD τ).loc main_arg15) : FVec Ideal S4x128 .f32) :=
  (W6_of_ne m ρ c main_arg15 (by decide)).trans (k5_main_arg15 m ρ c)
theorem k7_main_arg15 : (W7 m ρ c (Proc.devRef .tc main_arg15) : FVec Ideal S4x128 .f32) = (m ((c.tc : Thread nD τ).loc main_arg15) : FVec Ideal S4x128 .f32) :=
  (show W7 m ρ c (Proc.devRef .tc main_arg15) = W6 m ρ c (Proc.devRef .tc main_arg15) from by
    show StableHlo.after hostOps3 (W6 m ρ c) (Proc.devRef .tc main_arg15) = _
    after_results
    all_goals rfl).trans (k6_main_arg15 m ρ c)
theorem k8_main_arg15 : (W8 m ρ c (Proc.devRef .tc main_arg15) : FVec Ideal S4x128 .f32) = (m ((c.tc : Thread nD τ).loc main_arg15) : FVec Ideal S4x128 .f32) :=
  (W8_of_ne m ρ c main_arg15 (by decide)).trans (k7_main_arg15 m ρ c)
theorem k9_main_arg15 : (W9 m ρ c (Proc.devRef .tc main_arg15) : FVec Ideal S4x128 .f32) = (m ((c.tc : Thread nD τ).loc main_arg15) : FVec Ideal S4x128 .f32) :=
  (show W9 m ρ c (Proc.devRef .tc main_arg15) = W8 m ρ c (Proc.devRef .tc main_arg15) from by
    show StableHlo.after hostOps4 (W8 m ρ c) (Proc.devRef .tc main_arg15) = _
    after_results
    all_goals rfl).trans (k8_main_arg15 m ρ c)
theorem k10_main_arg15 : (W10 m ρ c (Proc.devRef .tc main_arg15) : FVec Ideal S4x128 .f32) = (m ((c.tc : Thread nD τ).loc main_arg15) : FVec Ideal S4x128 .f32) :=
  (W10_of_ne m ρ c main_arg15 (by decide)).trans (k9_main_arg15 m ρ c)
theorem k1_main_arg16 : (W1 m ρ c (Proc.devRef .tc main_arg16) : FVec Ideal S4x128 .f32) = (m ((c.tc : Thread nD τ).loc main_arg16) : FVec Ideal S4x128 .f32) := by
  show StableHlo.after hostOps0 (W0 m ρ c) (Proc.devRef .tc main_arg16) = _
  after_results
  all_goals rfl
theorem k2_main_arg16 : (W2 m ρ c (Proc.devRef .tc main_arg16) : FVec Ideal S4x128 .f32) = (m ((c.tc : Thread nD τ).loc main_arg16) : FVec Ideal S4x128 .f32) :=
  (W2_of_ne m ρ c main_arg16 (by decide)).trans (k1_main_arg16 m ρ c)
theorem k3_main_arg16 : (W3 m ρ c (Proc.devRef .tc main_arg16) : FVec Ideal S4x128 .f32) = (m ((c.tc : Thread nD τ).loc main_arg16) : FVec Ideal S4x128 .f32) :=
  (show W3 m ρ c (Proc.devRef .tc main_arg16) = W2 m ρ c (Proc.devRef .tc main_arg16) from by
    show StableHlo.after hostOps1 (W2 m ρ c) (Proc.devRef .tc main_arg16) = _
    after_results
    all_goals rfl).trans (k2_main_arg16 m ρ c)
theorem k4_main_arg16 : (W4 m ρ c (Proc.devRef .tc main_arg16) : FVec Ideal S4x128 .f32) = (m ((c.tc : Thread nD τ).loc main_arg16) : FVec Ideal S4x128 .f32) :=
  (W4_of_ne m ρ c main_arg16 (by decide)).trans (k3_main_arg16 m ρ c)
theorem k5_main_arg16 : (W5 m ρ c (Proc.devRef .tc main_arg16) : FVec Ideal S4x128 .f32) = (m ((c.tc : Thread nD τ).loc main_arg16) : FVec Ideal S4x128 .f32) :=
  (show W5 m ρ c (Proc.devRef .tc main_arg16) = W4 m ρ c (Proc.devRef .tc main_arg16) from by
    show StableHlo.after hostOps2 (W4 m ρ c) (Proc.devRef .tc main_arg16) = _
    after_results
    all_goals rfl).trans (k4_main_arg16 m ρ c)
theorem k6_main_arg16 : (W6 m ρ c (Proc.devRef .tc main_arg16) : FVec Ideal S4x128 .f32) = (m ((c.tc : Thread nD τ).loc main_arg16) : FVec Ideal S4x128 .f32) :=
  (W6_of_ne m ρ c main_arg16 (by decide)).trans (k5_main_arg16 m ρ c)
theorem k7_main_arg16 : (W7 m ρ c (Proc.devRef .tc main_arg16) : FVec Ideal S4x128 .f32) = (m ((c.tc : Thread nD τ).loc main_arg16) : FVec Ideal S4x128 .f32) :=
  (show W7 m ρ c (Proc.devRef .tc main_arg16) = W6 m ρ c (Proc.devRef .tc main_arg16) from by
    show StableHlo.after hostOps3 (W6 m ρ c) (Proc.devRef .tc main_arg16) = _
    after_results
    all_goals rfl).trans (k6_main_arg16 m ρ c)
theorem k8_main_arg16 : (W8 m ρ c (Proc.devRef .tc main_arg16) : FVec Ideal S4x128 .f32) = (m ((c.tc : Thread nD τ).loc main_arg16) : FVec Ideal S4x128 .f32) :=
  (W8_of_ne m ρ c main_arg16 (by decide)).trans (k7_main_arg16 m ρ c)
theorem k9_main_arg16 : (W9 m ρ c (Proc.devRef .tc main_arg16) : FVec Ideal S4x128 .f32) = (m ((c.tc : Thread nD τ).loc main_arg16) : FVec Ideal S4x128 .f32) :=
  (show W9 m ρ c (Proc.devRef .tc main_arg16) = W8 m ρ c (Proc.devRef .tc main_arg16) from by
    show StableHlo.after hostOps4 (W8 m ρ c) (Proc.devRef .tc main_arg16) = _
    after_results
    all_goals rfl).trans (k8_main_arg16 m ρ c)
theorem k10_main_arg16 : (W10 m ρ c (Proc.devRef .tc main_arg16) : FVec Ideal S4x128 .f32) = (m ((c.tc : Thread nD τ).loc main_arg16) : FVec Ideal S4x128 .f32) :=
  (W10_of_ne m ρ c main_arg16 (by decide)).trans (k9_main_arg16 m ρ c)
theorem k1_main_arg17 : (W1 m ρ c (Proc.devRef .tc main_arg17) : FVec Ideal S4x128x128 .f32) = (m ((c.tc : Thread nD τ).loc main_arg17) : FVec Ideal S4x128x128 .f32) := by
  show StableHlo.after hostOps0 (W0 m ρ c) (Proc.devRef .tc main_arg17) = _
  after_results
  all_goals rfl
theorem k2_main_arg17 : (W2 m ρ c (Proc.devRef .tc main_arg17) : FVec Ideal S4x128x128 .f32) = (m ((c.tc : Thread nD τ).loc main_arg17) : FVec Ideal S4x128x128 .f32) :=
  (W2_of_ne m ρ c main_arg17 (by decide)).trans (k1_main_arg17 m ρ c)
theorem k3_main_arg17 : (W3 m ρ c (Proc.devRef .tc main_arg17) : FVec Ideal S4x128x128 .f32) = (m ((c.tc : Thread nD τ).loc main_arg17) : FVec Ideal S4x128x128 .f32) :=
  (show W3 m ρ c (Proc.devRef .tc main_arg17) = W2 m ρ c (Proc.devRef .tc main_arg17) from by
    show StableHlo.after hostOps1 (W2 m ρ c) (Proc.devRef .tc main_arg17) = _
    after_results
    all_goals rfl).trans (k2_main_arg17 m ρ c)
theorem k4_main_arg17 : (W4 m ρ c (Proc.devRef .tc main_arg17) : FVec Ideal S4x128x128 .f32) = (m ((c.tc : Thread nD τ).loc main_arg17) : FVec Ideal S4x128x128 .f32) :=
  (W4_of_ne m ρ c main_arg17 (by decide)).trans (k3_main_arg17 m ρ c)
theorem k5_main_arg17 : (W5 m ρ c (Proc.devRef .tc main_arg17) : FVec Ideal S4x128x128 .f32) = (m ((c.tc : Thread nD τ).loc main_arg17) : FVec Ideal S4x128x128 .f32) :=
  (show W5 m ρ c (Proc.devRef .tc main_arg17) = W4 m ρ c (Proc.devRef .tc main_arg17) from by
    show StableHlo.after hostOps2 (W4 m ρ c) (Proc.devRef .tc main_arg17) = _
    after_results
    all_goals rfl).trans (k4_main_arg17 m ρ c)
theorem k6_main_arg17 : (W6 m ρ c (Proc.devRef .tc main_arg17) : FVec Ideal S4x128x128 .f32) = (m ((c.tc : Thread nD τ).loc main_arg17) : FVec Ideal S4x128x128 .f32) :=
  (W6_of_ne m ρ c main_arg17 (by decide)).trans (k5_main_arg17 m ρ c)
theorem k7_main_arg17 : (W7 m ρ c (Proc.devRef .tc main_arg17) : FVec Ideal S4x128x128 .f32) = (m ((c.tc : Thread nD τ).loc main_arg17) : FVec Ideal S4x128x128 .f32) :=
  (show W7 m ρ c (Proc.devRef .tc main_arg17) = W6 m ρ c (Proc.devRef .tc main_arg17) from by
    show StableHlo.after hostOps3 (W6 m ρ c) (Proc.devRef .tc main_arg17) = _
    after_results
    all_goals rfl).trans (k6_main_arg17 m ρ c)
theorem k8_main_arg17 : (W8 m ρ c (Proc.devRef .tc main_arg17) : FVec Ideal S4x128x128 .f32) = (m ((c.tc : Thread nD τ).loc main_arg17) : FVec Ideal S4x128x128 .f32) :=
  (W8_of_ne m ρ c main_arg17 (by decide)).trans (k7_main_arg17 m ρ c)
theorem k9_main_arg17 : (W9 m ρ c (Proc.devRef .tc main_arg17) : FVec Ideal S4x128x128 .f32) = (m ((c.tc : Thread nD τ).loc main_arg17) : FVec Ideal S4x128x128 .f32) :=
  (show W9 m ρ c (Proc.devRef .tc main_arg17) = W8 m ρ c (Proc.devRef .tc main_arg17) from by
    show StableHlo.after hostOps4 (W8 m ρ c) (Proc.devRef .tc main_arg17) = _
    after_results
    all_goals rfl).trans (k8_main_arg17 m ρ c)
theorem k10_main_arg17 : (W10 m ρ c (Proc.devRef .tc main_arg17) : FVec Ideal S4x128x128 .f32) = (m ((c.tc : Thread nD τ).loc main_arg17) : FVec Ideal S4x128x128 .f32) :=
  (W10_of_ne m ρ c main_arg17 (by decide)).trans (k9_main_arg17 m ρ c)
theorem k1_main_arg18 : (W1 m ρ c (Proc.devRef .tc main_arg18) : FVec Ideal S4x128 .f32) = (m ((c.tc : Thread nD τ).loc main_arg18) : FVec Ideal S4x128 .f32) := by
  show StableHlo.after hostOps0 (W0 m ρ c) (Proc.devRef .tc main_arg18) = _
  after_results
  all_goals rfl
theorem k2_main_arg18 : (W2 m ρ c (Proc.devRef .tc main_arg18) : FVec Ideal S4x128 .f32) = (m ((c.tc : Thread nD τ).loc main_arg18) : FVec Ideal S4x128 .f32) :=
  (W2_of_ne m ρ c main_arg18 (by decide)).trans (k1_main_arg18 m ρ c)
theorem k3_main_arg18 : (W3 m ρ c (Proc.devRef .tc main_arg18) : FVec Ideal S4x128 .f32) = (m ((c.tc : Thread nD τ).loc main_arg18) : FVec Ideal S4x128 .f32) :=
  (show W3 m ρ c (Proc.devRef .tc main_arg18) = W2 m ρ c (Proc.devRef .tc main_arg18) from by
    show StableHlo.after hostOps1 (W2 m ρ c) (Proc.devRef .tc main_arg18) = _
    after_results
    all_goals rfl).trans (k2_main_arg18 m ρ c)
theorem k4_main_arg18 : (W4 m ρ c (Proc.devRef .tc main_arg18) : FVec Ideal S4x128 .f32) = (m ((c.tc : Thread nD τ).loc main_arg18) : FVec Ideal S4x128 .f32) :=
  (W4_of_ne m ρ c main_arg18 (by decide)).trans (k3_main_arg18 m ρ c)
theorem k5_main_arg18 : (W5 m ρ c (Proc.devRef .tc main_arg18) : FVec Ideal S4x128 .f32) = (m ((c.tc : Thread nD τ).loc main_arg18) : FVec Ideal S4x128 .f32) :=
  (show W5 m ρ c (Proc.devRef .tc main_arg18) = W4 m ρ c (Proc.devRef .tc main_arg18) from by
    show StableHlo.after hostOps2 (W4 m ρ c) (Proc.devRef .tc main_arg18) = _
    after_results
    all_goals rfl).trans (k4_main_arg18 m ρ c)
theorem k6_main_arg18 : (W6 m ρ c (Proc.devRef .tc main_arg18) : FVec Ideal S4x128 .f32) = (m ((c.tc : Thread nD τ).loc main_arg18) : FVec Ideal S4x128 .f32) :=
  (W6_of_ne m ρ c main_arg18 (by decide)).trans (k5_main_arg18 m ρ c)
theorem k7_main_arg18 : (W7 m ρ c (Proc.devRef .tc main_arg18) : FVec Ideal S4x128 .f32) = (m ((c.tc : Thread nD τ).loc main_arg18) : FVec Ideal S4x128 .f32) :=
  (show W7 m ρ c (Proc.devRef .tc main_arg18) = W6 m ρ c (Proc.devRef .tc main_arg18) from by
    show StableHlo.after hostOps3 (W6 m ρ c) (Proc.devRef .tc main_arg18) = _
    after_results
    all_goals rfl).trans (k6_main_arg18 m ρ c)
theorem k8_main_arg18 : (W8 m ρ c (Proc.devRef .tc main_arg18) : FVec Ideal S4x128 .f32) = (m ((c.tc : Thread nD τ).loc main_arg18) : FVec Ideal S4x128 .f32) :=
  (W8_of_ne m ρ c main_arg18 (by decide)).trans (k7_main_arg18 m ρ c)
theorem k9_main_arg18 : (W9 m ρ c (Proc.devRef .tc main_arg18) : FVec Ideal S4x128 .f32) = (m ((c.tc : Thread nD τ).loc main_arg18) : FVec Ideal S4x128 .f32) :=
  (show W9 m ρ c (Proc.devRef .tc main_arg18) = W8 m ρ c (Proc.devRef .tc main_arg18) from by
    show StableHlo.after hostOps4 (W8 m ρ c) (Proc.devRef .tc main_arg18) = _
    after_results
    all_goals rfl).trans (k8_main_arg18 m ρ c)
theorem k10_main_arg18 : (W10 m ρ c (Proc.devRef .tc main_arg18) : FVec Ideal S4x128 .f32) = (m ((c.tc : Thread nD τ).loc main_arg18) : FVec Ideal S4x128 .f32) :=
  (W10_of_ne m ρ c main_arg18 (by decide)).trans (k9_main_arg18 m ρ c)
theorem k1_main_arg19 : (W1 m ρ c (Proc.devRef .tc main_arg19) : FVec Ideal S128x1 .f32) = (m ((c.tc : Thread nD τ).loc main_arg19) : FVec Ideal S128x1 .f32) := by
  show StableHlo.after hostOps0 (W0 m ρ c) (Proc.devRef .tc main_arg19) = _
  after_results
  all_goals rfl
theorem k2_main_arg19 : (W2 m ρ c (Proc.devRef .tc main_arg19) : FVec Ideal S128x1 .f32) = (m ((c.tc : Thread nD τ).loc main_arg19) : FVec Ideal S128x1 .f32) :=
  (W2_of_ne m ρ c main_arg19 (by decide)).trans (k1_main_arg19 m ρ c)
theorem k3_main_arg19 : (W3 m ρ c (Proc.devRef .tc main_arg19) : FVec Ideal S128x1 .f32) = (m ((c.tc : Thread nD τ).loc main_arg19) : FVec Ideal S128x1 .f32) :=
  (show W3 m ρ c (Proc.devRef .tc main_arg19) = W2 m ρ c (Proc.devRef .tc main_arg19) from by
    show StableHlo.after hostOps1 (W2 m ρ c) (Proc.devRef .tc main_arg19) = _
    after_results
    all_goals rfl).trans (k2_main_arg19 m ρ c)
theorem k4_main_arg19 : (W4 m ρ c (Proc.devRef .tc main_arg19) : FVec Ideal S128x1 .f32) = (m ((c.tc : Thread nD τ).loc main_arg19) : FVec Ideal S128x1 .f32) :=
  (W4_of_ne m ρ c main_arg19 (by decide)).trans (k3_main_arg19 m ρ c)
theorem k5_main_arg19 : (W5 m ρ c (Proc.devRef .tc main_arg19) : FVec Ideal S128x1 .f32) = (m ((c.tc : Thread nD τ).loc main_arg19) : FVec Ideal S128x1 .f32) :=
  (show W5 m ρ c (Proc.devRef .tc main_arg19) = W4 m ρ c (Proc.devRef .tc main_arg19) from by
    show StableHlo.after hostOps2 (W4 m ρ c) (Proc.devRef .tc main_arg19) = _
    after_results
    all_goals rfl).trans (k4_main_arg19 m ρ c)
theorem k6_main_arg19 : (W6 m ρ c (Proc.devRef .tc main_arg19) : FVec Ideal S128x1 .f32) = (m ((c.tc : Thread nD τ).loc main_arg19) : FVec Ideal S128x1 .f32) :=
  (W6_of_ne m ρ c main_arg19 (by decide)).trans (k5_main_arg19 m ρ c)
theorem k7_main_arg19 : (W7 m ρ c (Proc.devRef .tc main_arg19) : FVec Ideal S128x1 .f32) = (m ((c.tc : Thread nD τ).loc main_arg19) : FVec Ideal S128x1 .f32) :=
  (show W7 m ρ c (Proc.devRef .tc main_arg19) = W6 m ρ c (Proc.devRef .tc main_arg19) from by
    show StableHlo.after hostOps3 (W6 m ρ c) (Proc.devRef .tc main_arg19) = _
    after_results
    all_goals rfl).trans (k6_main_arg19 m ρ c)
theorem k8_main_arg19 : (W8 m ρ c (Proc.devRef .tc main_arg19) : FVec Ideal S128x1 .f32) = (m ((c.tc : Thread nD τ).loc main_arg19) : FVec Ideal S128x1 .f32) :=
  (W8_of_ne m ρ c main_arg19 (by decide)).trans (k7_main_arg19 m ρ c)
theorem k9_main_arg19 : (W9 m ρ c (Proc.devRef .tc main_arg19) : FVec Ideal S128x1 .f32) = (m ((c.tc : Thread nD τ).loc main_arg19) : FVec Ideal S128x1 .f32) :=
  (show W9 m ρ c (Proc.devRef .tc main_arg19) = W8 m ρ c (Proc.devRef .tc main_arg19) from by
    show StableHlo.after hostOps4 (W8 m ρ c) (Proc.devRef .tc main_arg19) = _
    after_results
    all_goals rfl).trans (k8_main_arg19 m ρ c)
theorem k10_main_arg19 : (W10 m ρ c (Proc.devRef .tc main_arg19) : FVec Ideal S128x1 .f32) = (m ((c.tc : Thread nD τ).loc main_arg19) : FVec Ideal S128x1 .f32) :=
  (W10_of_ne m ρ c main_arg19 (by decide)).trans (k9_main_arg19 m ρ c)
theorem k1_main_arg20 : (W1 m ρ c (Proc.devRef .tc main_arg20) : FVec Ideal S1 .f32) = (m ((c.tc : Thread nD τ).loc main_arg20) : FVec Ideal S1 .f32) := by
  show StableHlo.after hostOps0 (W0 m ρ c) (Proc.devRef .tc main_arg20) = _
  after_results
  all_goals rfl
theorem k2_main_arg20 : (W2 m ρ c (Proc.devRef .tc main_arg20) : FVec Ideal S1 .f32) = (m ((c.tc : Thread nD τ).loc main_arg20) : FVec Ideal S1 .f32) :=
  (W2_of_ne m ρ c main_arg20 (by decide)).trans (k1_main_arg20 m ρ c)
theorem k3_main_arg20 : (W3 m ρ c (Proc.devRef .tc main_arg20) : FVec Ideal S1 .f32) = (m ((c.tc : Thread nD τ).loc main_arg20) : FVec Ideal S1 .f32) :=
  (show W3 m ρ c (Proc.devRef .tc main_arg20) = W2 m ρ c (Proc.devRef .tc main_arg20) from by
    show StableHlo.after hostOps1 (W2 m ρ c) (Proc.devRef .tc main_arg20) = _
    after_results
    all_goals rfl).trans (k2_main_arg20 m ρ c)
theorem k4_main_arg20 : (W4 m ρ c (Proc.devRef .tc main_arg20) : FVec Ideal S1 .f32) = (m ((c.tc : Thread nD τ).loc main_arg20) : FVec Ideal S1 .f32) :=
  (W4_of_ne m ρ c main_arg20 (by decide)).trans (k3_main_arg20 m ρ c)
theorem k5_main_arg20 : (W5 m ρ c (Proc.devRef .tc main_arg20) : FVec Ideal S1 .f32) = (m ((c.tc : Thread nD τ).loc main_arg20) : FVec Ideal S1 .f32) :=
  (show W5 m ρ c (Proc.devRef .tc main_arg20) = W4 m ρ c (Proc.devRef .tc main_arg20) from by
    show StableHlo.after hostOps2 (W4 m ρ c) (Proc.devRef .tc main_arg20) = _
    after_results
    all_goals rfl).trans (k4_main_arg20 m ρ c)
theorem k6_main_arg20 : (W6 m ρ c (Proc.devRef .tc main_arg20) : FVec Ideal S1 .f32) = (m ((c.tc : Thread nD τ).loc main_arg20) : FVec Ideal S1 .f32) :=
  (W6_of_ne m ρ c main_arg20 (by decide)).trans (k5_main_arg20 m ρ c)
theorem k7_main_arg20 : (W7 m ρ c (Proc.devRef .tc main_arg20) : FVec Ideal S1 .f32) = (m ((c.tc : Thread nD τ).loc main_arg20) : FVec Ideal S1 .f32) :=
  (show W7 m ρ c (Proc.devRef .tc main_arg20) = W6 m ρ c (Proc.devRef .tc main_arg20) from by
    show StableHlo.after hostOps3 (W6 m ρ c) (Proc.devRef .tc main_arg20) = _
    after_results
    all_goals rfl).trans (k6_main_arg20 m ρ c)
theorem k8_main_arg20 : (W8 m ρ c (Proc.devRef .tc main_arg20) : FVec Ideal S1 .f32) = (m ((c.tc : Thread nD τ).loc main_arg20) : FVec Ideal S1 .f32) :=
  (W8_of_ne m ρ c main_arg20 (by decide)).trans (k7_main_arg20 m ρ c)
theorem k9_main_arg20 : (W9 m ρ c (Proc.devRef .tc main_arg20) : FVec Ideal S1 .f32) = (m ((c.tc : Thread nD τ).loc main_arg20) : FVec Ideal S1 .f32) :=
  (show W9 m ρ c (Proc.devRef .tc main_arg20) = W8 m ρ c (Proc.devRef .tc main_arg20) from by
    show StableHlo.after hostOps4 (W8 m ρ c) (Proc.devRef .tc main_arg20) = _
    after_results
    all_goals rfl).trans (k8_main_arg20 m ρ c)
theorem k10_main_arg20 : (W10 m ρ c (Proc.devRef .tc main_arg20) : FVec Ideal S1 .f32) = (m ((c.tc : Thread nD τ).loc main_arg20) : FVec Ideal S1 .f32) :=
  (W10_of_ne m ρ c main_arg20 (by decide)).trans (k9_main_arg20 m ρ c)

end Cert.KernelIdeal.KValue

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.KernelPay.lean ====
/-
  What the kernel's body leaves in its output block, entry by entry, at exact arithmetic.

  The body adds a block of node features to the matching block of neighbour sums, multiplies by the first weight
  matrix on the TensorCore (the change of format before the product is the identity on the extended reals, and the
  accumulator starts at zero), adds the bias, applies the per-unit normalisation
  g · (a − μ) · (v + ε)^(−1/2) + β, clamps at zero, multiplies by the second weight matrix, adds the second bias
  and clamps again. Entry (p, q) of the block is therefore `GinLayer.unit` of row p of the two input blocks: the
  per-unit parameters arrive as 1×128 rows broadcast down the block, so unit j reads their entry (0, j).
  The first call has 3 input features per node, the other four have 128; the four share one body text.
-/
import proofs.«130913_j56831007261128_1_alg».proof.Proof.Gen.KernelIdeal.Frame
import proofs.«130913_j56831007261128_1_alg».proof.Proof.LibMatmulIdx
import proofs.«130913_j56831007261128_1_alg».proof.Proof.LayerSpec
import Idealize.ShloMosaic.Lib.Pipeline.Value
import Idealize.ShloMosaic.Lib.ValueLayout

set_option maxRecDepth 16384

noncomputable section

namespace Cert.KernelIdeal.Pay

open Cert.KernelIdeal Cert.KernelIdeal.Gen Idealize.ShloMosaic Idealize.ShloMosaic.ValueIdx Idealize.ShloMosaic.Pipeline

theorem hz : (![0, 0] : Fin 2 → Nat) = fun _ => 0 := funext fun a => by fin_cases a <;> rfl

/-! ## The two contraction records: rows of the left factor against columns of the right -/

theorem d3_l0 (j : S5000x128.Idx) (k : dot_S5000x3_S3x128_S5000x128_1_0_0_1_n_n.contr.Idx) :
    (dot_S5000x3_S3x128_S5000x128_1_0_0_1_n_n.lhsIdx j k 0).val = (j 0).val := by
  unfold DotDims.lhsIdx
  rw [dif_neg (show ¬(0 : Fin S5000x3.rank) ∈ dot_S5000x3_S3x128_S5000x128_1_0_0_1_n_n.lhsBatch by decide),
    dif_pos (show (0 : Fin S5000x3.rank) ∈ dot_S5000x3_S3x128_S5000x128_1_0_0_1_n_n.lhsNonContracting by decide)]
  rfl
theorem d3_l1 (j : S5000x128.Idx) (k : dot_S5000x3_S3x128_S5000x128_1_0_0_1_n_n.contr.Idx) :
    (dot_S5000x3_S3x128_S5000x128_1_0_0_1_n_n.lhsIdx j k 1).val = (k ⟨0, by decide⟩).val :=
  dot_S5000x3_S3x128_S5000x128_1_0_0_1_n_n.lhsIdx_val_of_single rfl j k
theorem d3_r0 (j : S5000x128.Idx) (k : dot_S5000x3_S3x128_S5000x128_1_0_0_1_n_n.contr.Idx) :
    (dot_S5000x3_S3x128_S5000x128_1_0_0_1_n_n.rhsIdx j k 0).val = (k ⟨0, by decide⟩).val :=
  dot_S5000x3_S3x128_S5000x128_1_0_0_1_n_n.rhsIdx_val_of_single rfl j k
theorem d3_r1 (j : S5000x128.Idx) (k : dot_S5000x3_S3x128_S5000x128_1_0_0_1_n_n.contr.Idx) :
    (dot_S5000x3_S3x128_S5000x128_1_0_0_1_n_n.rhsIdx j k 1).val = (j 1).val := by
  unfold DotDims.rhsIdx
  rw [dif_neg (show ¬(1 : Fin S3x128.rank) ∈ dot_S5000x3_S3x128_S5000x128_1_0_0_1_n_n.rhsBatch by decide),
    dif_pos (show (1 : Fin S3x128.rank) ∈ dot_S5000x3_S3x128_S5000x128_1_0_0_1_n_n.rhsNonContracting by decide)]
  rfl

theorem d128_l0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem d128_l1 (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k
theorem d128_r0 (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k
theorem d128_r1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## A 1×128 row broadcast down the block -/

/-- Entry (p, j) of a parameter row broadcast to the block is the row's entry (0, j). -/
theorem row_entry (v : FVec Ideal S1x128 .f32) (p : Fin 5000) (j : Fin 128) :
    broadcastTo S5000x128 (shapeCast S1x128 v shapeCasts_S1x128_S1x128) broadcasts_S1x128_S5000x128 (ix2 p j)
      = v (ix2 (0 : Fin 1) j) := by
  rw [shapeCast_self]
  exact broadcastTo_1b_ab_apply v _ p j

/-- Entry (p, j) of the broadcast inverse square root of the offset variance row. -/
theorem rsqrt_entry (v : FVec Ideal S1x128 .f32) (p : Fin 5000) (j : Fin 128) :
    broadcastTo S5000x128 (rsqrt (addf (shapeCast S1x128 v shapeCasts_S1x128_S1x128)
        (broadcast S1x128 (Scalar.ofBits (F := Ideal) .f32 0x3727C5AC#32)))) broadcasts_S1x128_S5000x128 (ix2 p j)
      = Ideal.rsqrt (v (ix2 (0 : Fin 1) j) + GinLayer.varEps) := by
  rw [shapeCast_self]
  exact (broadcastTo_1b_ab_apply _ _ p j).trans rfl

/-! ## The first call: 3 input features -/

/-- The second product of the first call's body (before its bias), at entry (p, q): the sum over the hidden
    units of the clamped normalised unit times the second weight. -/
theorem pay2_0_entry (v0 v1 : Vec Ideal S5000x3 .f32) (v4 : Vec Ideal S3x128 .f32)
    (v8 v12 v14 v20 v27 : Vec Ideal S1x128 .f32) (v33 : Vec Ideal S128x128 .f32) (p : Fin 5000) (q : Fin 128) :
    k0_pay2 (F := Ideal) v0 v1 v4 v8 v12 v14 v20 v27 v33 (ix2 p q)
      = ∑ j : Fin 128, GinLayer.hidden (fun d => v0 (ix2 p d) + v1 (ix2 p d)) (fun d j => v4 (ix2 d j))
          (fun j => v8 (ix2 (0 : Fin 1) j)) (fun j => v12 (ix2 (0 : Fin 1) j)) (fun j => v27 (ix2 (0 : Fin 1) j))
          (fun j => v14 (ix2 (0 : Fin 1) j)) (fun j => v20 (ix2 (0 : Fin 1) j)) j * v33 (ix2 j q) := by
  unfold k0_pay2
  try dsimp only
  refine (LibMatmulIdx.matmul2_apply dot_S5000x128_S128x128_S5000x128_1_0_0_1_n_n rfl rfl d128_l0 d128_l1 d128_r0 d128_r1 none _ _ (ix2 p q)).trans ?_
  refine Finset.sum_congr rfl fun j _ => ?_
  refine congrArg₂ (· * ·) ?_ rfl
  unfold GinLayer.hidden
  refine congrArg₂ max ?_ rfl
  refine congrArg₂ (· + ·) ?_ (row_entry v27 p j)
  refine congrArg₂ (· * ·) ?_ (rsqrt_entry v20 p j)
  refine congrArg₂ (· * ·) (row_entry v12 p j) ?_
  refine congrArg₂ (· - ·) ?_ (row_entry v14 p j)
  refine congrArg₂ (· + ·) ?_ (row_entry v8 p j)
  refine (LibMatmulIdx.matmul2_apply dot_S5000x3_S3x128_S5000x128_1_0_0_1_n_n rfl rfl d3_l0 d3_l1 d3_r0 d3_r1 none _ _ (ix2 p j)).trans ?_
  refine Finset.sum_congr rfl fun d _ => ?_
  exact congrArg₂ (· * ·) (congrArg₂ (· + ·) rfl (congrFun (shapeCast_self v1 _) _)) rfl

/-- The first call's output block, entry by entry. -/
theorem out0_eq (x0 x1 : Vec Ideal S5000x3 .f32) (x2 : Vec Ideal S3x128 .f32) (x3 x4 x5 x6 x7 : Vec Ideal S1x128 .f32)
    (x8 : Vec Ideal S128x128 .f32) (x9 : Vec Ideal S1x128 .f32) :
    out0_10 (F := Ideal) x0 x1 x2 x3 x4 x5 x6 x7 x8 x9
      = GinLayer.layer x0 x1 x2 (fun j => x3 (ix2 (0 : Fin 1) j)) (fun j => x4 (ix2 (0 : Fin 1) j))
          (fun j => x5 (ix2 (0 : Fin 1) j)) (fun j => x6 (ix2 (0 : Fin 1) j)) (fun j => x7 (ix2 (0 : Fin 1) j)) x8
          (fun j => x9 (ix2 (0 : Fin 1) j)) := by
  unfold out0_10
  rw [View.canon_unit_zero hz]
  simp only [View.ld_unit_zero (S := S5000x3) hz, View.ld_unit_zero (S := S3x128) hz, View.ld_unit_zero (S := S1x128) hz,
    View.ld_unit_zero (S := S128x128) hz]
  funext y
  obtain ⟨p, q, rfl⟩ : ∃ (p : Fin 5000) (q : Fin 128), y = ix2 p q := ⟨y 0, y 1, eq_ix2 y⟩
  unfold k0_pay1 GinLayer.layer GinLayer.unit
  try dsimp only
  refine congrArg₂ max ?_ rfl
  refine congrArg₂ (· + ·) ?_ (row_entry x9 p q)
  exact pay2_0_entry x0 x1 x2 x3 x4 x6 x7 x5 x8 p q

/-! ## The other four calls: 128 input features -/

/-- The hidden activations of the later calls' body at entry (p, j). -/
theorem pay2_1_entry (v0 v2 : Vec Ideal S5000x128 .f32) (v5 : Vec Ideal S128x128 .f32)
    (v10 v14 v16 v22 v29 : Vec Ideal S1x128 .f32) (p : Fin 5000) (j : Fin 128) :
    k1_pay2 (F := Ideal) v0 v2 v5 v10 v14 v16 v22 v29 (ix2 p j)
      = GinLayer.hidden (fun d => v0 (ix2 p d) + v2 (ix2 p d)) (fun d j => v5 (ix2 d j))
          (fun j => v10 (ix2 (0 : Fin 1) j)) (fun j => v14 (ix2 (0 : Fin 1) j)) (fun j => v29 (ix2 (0 : Fin 1) j))
          (fun j => v16 (ix2 (0 : Fin 1) j)) (fun j => v22 (ix2 (0 : Fin 1) j)) j := by
  unfold k1_pay2 GinLayer.hidden
  try dsimp only
  refine congrArg₂ max ?_ rfl
  refine congrArg₂ (· + ·) ?_ (row_entry v29 p j)
  refine congrArg₂ (· * ·) ?_ (rsqrt_entry v22 p j)
  refine congrArg₂ (· * ·) (row_entry v14 p j) ?_
  refine congrArg₂ (· - ·) ?_ (row_entry v16 p j)
  refine congrArg₂ (· + ·) ?_ (row_entry v10 p j)
  refine (LibMatmulIdx.matmul2_apply dot_S5000x128_S128x128_S5000x128_1_0_0_1_n_n rfl rfl d128_l0 d128_l1 d128_r0 d128_r1 none _ _ (ix2 p j)).trans ?_
  refine Finset.sum_congr rfl fun d _ => ?_
  refine congrArg₂ (· * ·) (congrArg₂ (· + ·) (congrFun (shapeCast_self v0 _) _) (congrFun (shapeCast_self v2 _) _)) ?_
  exact congrFun (shapeCast_self v5 _) _

/-- The second call's output block, entry by entry. -/
theorem out1_eq (x0 x1 : Vec Ideal S5000x128 .f32) (x2 : Vec Ideal S128x128 .f32) (x3 x4 x5 x6 x7 : Vec Ideal S1x128 .f32)
    (x8 : Vec Ideal S128x128 .f32) (x9 : Vec Ideal S1x128 .f32) :
    out1_10 (F := Ideal) x0 x1 x2 x3 x4 x5 x6 x7 x8 x9
      = GinLayer.layer x0 x1 x2 (fun j => x3 (ix2 (0 : Fin 1) j)) (fun j => x4 (ix2 (0 : Fin 1) j))
          (fun j => x5 (ix2 (0 : Fin 1) j)) (fun j => x6 (ix2 (0 : Fin 1) j)) (fun j => x7 (ix2 (0 : Fin 1) j)) x8
          (fun j => x9 (ix2 (0 : Fin 1) j)) := by
  unfold out1_10
  rw [View.canon_unit_zero hz]
  simp only [View.ld_unit_zero (S := S5000x128) hz, View.ld_unit_zero (S := S1x128) hz, View.ld_unit_zero (S := S128x128) hz]
  funext y
  obtain ⟨p, q, rfl⟩ : ∃ (p : Fin 5000) (q : Fin 128), y = ix2 p q := ⟨y 0, y 1, eq_ix2 y⟩
  unfold k1_pay1 k1_pay3 GinLayer.layer GinLayer.unit
  try dsimp only
  refine congrArg₂ max ?_ rfl
  refine congrArg₂ (· + ·) ?_ (row_entry x9 p q)
  refine (LibMatmulIdx.matmul2_apply dot_S5000x128_S128x128_S5000x128_1_0_0_1_n_n rfl rfl d128_l0 d128_l1 d128_r0 d128_r1 none _ _ (ix2 p q)).trans ?_
  refine Finset.sum_congr rfl fun j _ => ?_
  refine congrArg₂ (· * ·) (pay2_1_entry x0 x1 x2 x3 x4 x6 x7 x5 p j) ?_
  exact congrFun (shapeCast_self x8 _) _

/-- The third, fourth and fifth calls run the second call's body. -/
theorem out2_eq (x0 x1 : Vec Ideal S5000x128 .f32) (x2 : Vec Ideal S128x128 .f32) (x3 x4 x5 x6 x7 : Vec Ideal S1x128 .f32)
    (x8 : Vec Ideal S128x128 .f32) (x9 : Vec Ideal S1x128 .f32) :
    out2_10 (F := Ideal) x0 x1 x2 x3 x4 x5 x6 x7 x8 x9 = out1_10 (F := Ideal) x0 x1 x2 x3 x4 x5 x6 x7 x8 x9 := rfl
theorem out3_eq (x0 x1 : Vec Ideal S5000x128 .f32) (x2 : Vec Ideal S128x128 .f32) (x3 x4 x5 x6 x7 : Vec Ideal S1x128 .f32)
    (x8 : Vec Ideal S128x128 .f32) (x9 : Vec Ideal S1x128 .f32) :
    out3_10 (F := Ideal) x0 x1 x2 x3 x4 x5 x6 x7 x8 x9 = out1_10 (F := Ideal) x0 x1 x2 x3 x4 x5 x6 x7 x8 x9 := rfl
theorem out4_eq (x0 x1 : Vec Ideal S5000x128 .f32) (x2 : Vec Ideal S128x128 .f32) (x3 x4 x5 x6 x7 : Vec Ideal S1x128 .f32)
    (x8 : Vec Ideal S128x128 .f32) (x9 : Vec Ideal S1x128 .f32) :
    out4_10 (F := Ideal) x0 x1 x2 x3 x4 x5 x6 x7 x8 x9 = out1_10 (F := Ideal) x0 x1 x2 x3 x4 x5 x6 x7 x8 x9 := rfl

end Cert.KernelIdeal.Pay

end
-- ==== Proof.Region0.lean ====
/-
  Call 0 of the five: the array it leaves, as one function of the arrays it finds.

  The grid has 20 points; point t takes rows 5000·t … 5000·t + 4999 of the node features and of the neighbour sums,
  all of each parameter array, and writes rows 5000·t … 5000·t + 4999 of the result. What a point writes back is
  the layer (`GinLayer.layer`) of its two row blocks, which is the matching row block of the layer of the whole
  arrays, since an entry of the layer reads only its own row. The 20 row blocks tile the result, so the result array
  ends as the layer of the whole arrays.
-/
import proofs.«130913_j56831007261128_1_alg».proof.Proof.KernelPay

set_option maxRecDepth 16384

noncomputable section

namespace Cert.KernelIdeal.Region0

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The layer of the whole arrays the call finds. -/
def G (c : Dev nD) : S100000x128.Idx → EReal :=
  GinLayer.layer (V c main_arg0 : S100000x3.Idx → EReal) (V c main_v13 : S100000x3.Idx → EReal) (V c main_arg3 : S3x128.Idx → EReal)
    (fun j => (V c main_v14 : S1x128.Idx → EReal) (ix2 (0 : Fin 1) j)) (fun j => (V c main_v15 : S1x128.Idx → EReal) (ix2 (0 : Fin 1) j))
    (fun j => (V c main_v16 : S1x128.Idx → EReal) (ix2 (0 : Fin 1) j)) (fun j => (V c main_v17 : S1x128.Idx → EReal) (ix2 (0 : Fin 1) j))
    (fun j => (V c main_v18 : S1x128.Idx → EReal) (ix2 (0 : Fin 1) j)) (V c main_arg9 : S128x128.Idx → EReal)
    (fun j => (V c main_v19 : S1x128.Idx → EReal) (ix2 (0 : Fin 1) j))

/-- The printed block-index maps, decided over the grid: the two row-blocked inputs move with the output's row
    block, which is the point's number; every parameter window stays at block (0, 0). -/
theorem idx_facts0 : ∀ t : Fin cfg0.N,
      win0_10.index t (0 : Fin 2) = t.val ∧ win0_10.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Window 2 is its whole array at every point. -/
theorem whole0_2 (c : Dev nD) (t : Fin cfg0.N) (x : S3x128.Idx) :
    iblk0 V c 2 t x = (V c main_arg3 : S3x128.Idx → EReal) x := by
  obtain ⟨-, -, -, -, -, -, e0, e1, -, -, -, -, -, -, -, -, -, -, -, -, -, -⟩ := idx_facts0 t
  show (V c main_arg3 : S3x128.Idx → EReal) (((cfg0.win 2).blk t).view.emb x) = _
  refine congrArg _ (funext fun a => Fin.ext ?_)
  match a with
  | ⟨0, _⟩ => show win0_2.index t (0 : Fin 2) * 3 + 1 * (x 0).val = (x 0).val; omega
  | ⟨1, _⟩ => show win0_2.index t (1 : Fin 2) * 128 + 1 * (x 1).val = (x 1).val; omega

/-- Window 3 is its whole array at every point. -/
theorem whole0_3 (c : Dev nD) (t : Fin cfg0.N) (x : S1x128.Idx) :
    iblk0 V c 3 t x = (V c main_v14 : S1x128.Idx → EReal) x := by
  obtain ⟨-, -, -, -, -, -, -, -, e0, e1, -, -, -, -, -, -, -, -, -, -, -, -⟩ := idx_facts0 t
  show (V c main_v14 : S1x128.Idx → EReal) (((cfg0.win 3).blk t).view.emb x) = _
  refine congrArg _ (funext fun a => Fin.ext ?_)
  match a with
  | ⟨0, _⟩ => show win0_3.index t (0 : Fin 2) * 1 + 1 * (x 0).val = (x 0).val; omega
  | ⟨1, _⟩ => show win0_3.index t (1 : Fin 2) * 128 + 1 * (x 1).val = (x 1).val; omega

/-- Window 4 is its whole array at every point. -/
theorem whole0_4 (c : Dev nD) (t : Fin cfg0.N) (x : S1x128.Idx) :
    iblk0 V c 4 t x = (V c main_v15 : S1x128.Idx → EReal) x := by
  obtain ⟨-, -, -, -, -, -, -, -, -, -, e0, e1, -, -, -, -, -, -, -, -, -, -⟩ := idx_facts0 t
  show (V c main_v15 : S1x128.Idx → EReal) (((cfg0.win 4).blk t).view.emb x) = _
  refine congrArg _ (funext fun a => Fin.ext ?_)
  match a with
  | ⟨0, _⟩ => show win0_4.index t (0 : Fin 2) * 1 + 1 * (x 0).val = (x 0).val; omega
  | ⟨1, _⟩ => show win0_4.index t (1 : Fin 2) * 128 + 1 * (x 1).val = (x 1).val; omega

/-- Window 5 is its whole array at every point. -/
theorem whole0_5 (c : Dev nD) (t : Fin cfg0.N) (x : S1x128.Idx) :
    iblk0 V c 5 t x = (V c main_v16 : S1x128.Idx → EReal) x := by
  obtain ⟨-, -, -, -, -, -, -, -, -, -, -, -, e0, e1, -, -, -, -, -, -, -, -⟩ := idx_facts0 t
  show (V c main_v16 : S1x128.Idx → EReal) (((cfg0.win 5).blk t).view.emb x) = _
  refine congrArg _ (funext fun a => Fin.ext ?_)
  match a with
  | ⟨0, _⟩ => show win0_5.index t (0 : Fin 2) * 1 + 1 * (x 0).val = (x 0).val; omega
  | ⟨1, _⟩ => show win0_5.index t (1 : Fin 2) * 128 + 1 * (x 1).val = (x 1).val; omega

/-- Window 6 is its whole array at every point. -/
theorem whole0_6 (c : Dev nD) (t : Fin cfg0.N) (x : S1x128.Idx) :
    iblk0 V c 6 t x = (V c main_v17 : S1x128.Idx → EReal) x := by
  obtain ⟨-, -, -, -, -, -, -, -, -, -, -, -, -, -, e0, e1, -, -, -, -, -, -⟩ := idx_facts0 t
  show (V c main_v17 : S1x128.Idx → EReal) (((cfg0.win 6).blk t).view.emb x) = _
  refine congrArg _ (funext fun a => Fin.ext ?_)
  match a with
  | ⟨0, _⟩ => show win0_6.index t (0 : Fin 2) * 1 + 1 * (x 0).val = (x 0).val; omega
  | ⟨1, _⟩ => show win0_6.index t (1 : Fin 2) * 128 + 1 * (x 1).val = (x 1).val; omega

/-- Window 7 is its whole array at every point. -/
theorem whole0_7 (c : Dev nD) (t : Fin cfg0.N) (x : S1x128.Idx) :
    iblk0 V c 7 t x = (V c main_v18 : S1x128.Idx → EReal) x := by
  obtain ⟨-, -, -, -, -, -, -, -, -, -, -, -, -, -, -, -, e0, e1, -, -, -, -⟩ := idx_facts0 t
  show (V c main_v18 : S1x128.Idx → EReal) (((cfg0.win 7).blk t).view.emb x) = _
  refine congrArg _ (funext fun a => Fin.ext ?_)
  match a with
  | ⟨0, _⟩ => show win0_7.index t (0 : Fin 2) * 1 + 1 * (x 0).val = (x 0).val; omega
  | ⟨1, _⟩ => show win0_7.index t (1 : Fin 2) * 128 + 1 * (x 1).val = (x 1).val; omega

/-- Window 8 is its whole array at every point. -/
theorem whole0_8 (c : Dev nD) (t : Fin cfg0.N) (x : S128x128.Idx) :
    iblk0 V c 8 t x = (V c main_arg9 : S128x128.Idx → EReal) x := by
  obtain ⟨-, -, -, -, -, -, -, -, -, -, -, -, -, -, -, -, -, -, e0, e1, -, -⟩ := idx_facts0 t
  show (V c main_arg9 : S128x128.Idx → EReal) (((cfg0.win 8).blk t).view.emb x) = _
  refine congrArg _ (funext fun a => Fin.ext ?_)
  match a with
  | ⟨0, _⟩ => show win0_8.index t (0 : Fin 2) * 128 + 1 * (x 0).val = (x 0).val; omega
  | ⟨1, _⟩ => show win0_8.index t (1 : Fin 2) * 128 + 1 * (x 1).val = (x 1).val; omega

/-- Window 9 is its whole array at every point. -/
theorem whole0_9 (c : Dev nD) (t : Fin cfg0.N) (x : S1x128.Idx) :
    iblk0 V c 9 t x = (V c main_v19 : S1x128.Idx → EReal) x := by
  obtain ⟨-, -, -, -, -, -, -, -, -, -, -, -, -, -, -, -, -, -, -, -, e0, e1⟩ := idx_facts0 t
  show (V c main_v19 : S1x128.Idx → EReal) (((cfg0.win 9).blk t).view.emb x) = _
  refine congrArg _ (funext fun a => Fin.ext ?_)
  match a with
  | ⟨0, _⟩ => show win0_9.index t (0 : Fin 2) * 1 + 1 * (x 0).val = (x 0).val; omega
  | ⟨1, _⟩ => show win0_9.index t (1 : Fin 2) * 128 + 1 * (x 1).val = (x 1).val; omega

/-- WHAT POINT `t` WRITES BACK is block `t` of the layer of the whole arrays. -/
theorem flushed_eq (c : Dev nD) (t : Fin cfg0.N) :
    (dat0 (F := Ideal) V c).flushed 10 t = ((cfg0.win 10).blk t).view.read (Elt Ideal) (G V c) := by
  show (cfg0.win 10).cut (grid0.coords t) ((dat0 (F := Ideal) V c).after 10 t) = _
  rw [after0_10, Pay.out0_eq (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)]
  obtain ⟨o0, o1, a0, a1, b0, b1, -⟩ := idx_facts0 t
  funext y
  show GinLayer.layer (iblk0 V c 0 t) (iblk0 V c 1 t) (iblk0 V c 2 t) (fun j => (iblk0 V c 3 t) (ix2 (0 : Fin 1) j)) (fun j => (iblk0 V c 4 t) (ix2 (0 : Fin 1) j)) (fun j => (iblk0 V c 5 t) (ix2 (0 : Fin 1) j)) (fun j => (iblk0 V c 6 t) (ix2 (0 : Fin 1) j)) (fun j => (iblk0 V c 7 t) (ix2 (0 : Fin 1) j)) (iblk0 V c 8 t) (fun j => (iblk0 V c 9 t) (ix2 (0 : Fin 1) j)) y
    = G V c (((cfg0.win 10).blk t).view.emb y)
  unfold G
  refine GinLayer.layer_entry_congr _ _ _ _ _ _ _ _ _ _ _ _ _ _ _ _ _ _ _ _ _ _ ?_ ?_ ?_ ?_ ?_ ?_ ?_ ?_ ?_ ?_ ?_
  · exact Fin.ext (show (y 1).val = win0_10.index t (1 : Fin 2) * 128 + 1 * (y 1).val by omega)
  · intro d
    show (V c main_arg0 : S100000x3.Idx → EReal) (((cfg0.win 0).blk t).view.emb (ix2 (y 0) d)) = _
    refine congrArg _ (funext fun a => Fin.ext ?_)
    match a with
    | ⟨0, _⟩ => show win0_0.index t (0 : Fin 2) * 5000 + 1 * (y 0).val = win0_10.index t (0 : Fin 2) * 5000 + 1 * (y 0).val; omega
    | ⟨1, _⟩ => show win0_0.index t (1 : Fin 2) * 3 + 1 * d.val = d.val; omega
  · intro d
    show (V c main_v13 : S100000x3.Idx → EReal) (((cfg0.win 1).blk t).view.emb (ix2 (y 0) d)) = _
    refine congrArg _ (funext fun a => Fin.ext ?_)
    match a with
    | ⟨0, _⟩ => show win0_1.index t (0 : Fin 2) * 5000 + 1 * (y 0).val = win0_10.index t (0 : Fin 2) * 5000 + 1 * (y 0).val; omega
    | ⟨1, _⟩ => show win0_1.index t (1 : Fin 2) * 3 + 1 * d.val = d.val; omega
  · exact funext fun x => whole0_2 V c t x
  · exact funext fun j => whole0_3 V c t _
  · exact funext fun j => whole0_4 V c t _
  · exact funext fun j => whole0_5 V c t _
  · exact funext fun j => whole0_6 V c t _
  · exact funext fun j => whole0_7 V c t _
  · exact funext fun x => whole0_8 V c t x
  · exact funext fun j => whole0_9 V c t _

/-- An index of the result array is in point `t`'s block iff each coordinate is in the block's range on its axis. -/
theorem mem_blk (t : Fin cfg0.N) (i : S100000x128.Idx) :
    i ∈ ((cfg0.win 10).blk t).view.set ↔ ∀ a : Fin 2, win0_10.index t a * S5000x128.size a ≤ (i a).val
      ∧ (i a).val < win0_10.index t a * S5000x128.size a + S5000x128.size a := by
  show i ∈ ((View.whole main_v20).slice (win0_10.rect t)).set ↔ _
  rw [View.set_slice_whole, Rect.mem_set_unit]
  exact Iff.rfl

/-- Every row of the result is in the block of the point numbered by the row's quotient by 5000. -/
theorem cover (i : S100000x128.Idx) :
    ∃ t : Fin cfg0.N, (cfg0.win 10).flush t = true ∧ i ∈ ((cfg0.win 10).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨o0, o1, -⟩ := idx_facts0 t
  refine ⟨t, flush0_10 t, ?_⟩
  rw [mem_blk]
  intro a
  match a with
  | ⟨0, _⟩ => show win0_10.index t (0 : Fin 2) * 5000 ≤ (i 0).val ∧ (i 0).val < win0_10.index t (0 : Fin 2) * 5000 + 5000; omega
  | ⟨1, _⟩ => show win0_10.index t (1 : Fin 2) * 128 ≤ (i 1).val ∧ (i 1).val < win0_10.index t (1 : Fin 2) * 128 + 128; omega

/-- THE RESULT ARRAY after the call: the layer of the arrays the call finds. -/
theorem final (c : Dev nD) : (dat0 (F := Ideal) V c).arrAt 10 cfg0.N = G V c :=
  (dat0 (F := Ideal) V c).arrAt_eq_of_cover 10 (G V c) (fun t _ => flushed_eq V c t) cover

end Cert.KernelIdeal.Region0

end
-- ==== Proof.Region1.lean ====
/-
  Call 1 of the five: the array it leaves, as one function of the arrays it finds.

  The grid has 20 points; point t takes rows 5000·t … 5000·t + 4999 of the node features and of the neighbour sums,
  all of each parameter array, and writes rows 5000·t … 5000·t + 4999 of the result. What a point writes back is
  the layer (`GinLayer.layer`) of its two row blocks, which is the matching row block of the layer of the whole
  arrays, since an entry of the layer reads only its own row. The 20 row blocks tile the result, so the result array
  ends as the layer of the whole arrays.
-/
import proofs.«130913_j56831007261128_1_alg».proof.Proof.KernelPay

set_option maxRecDepth 16384

noncomputable section

namespace Cert.KernelIdeal.Region1

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The layer of the whole arrays the call finds. -/
def G (c : Dev nD) : S100000x128.Idx → EReal :=
  GinLayer.layer (V c main_v20 : S100000x128.Idx → EReal) (V c main_v46 : S100000x128.Idx → EReal) (V c main_v22 : S128x128.Idx → EReal)
    (fun j => (V c main_v47 : S1x128.Idx → EReal) (ix2 (0 : Fin 1) j)) (fun j => (V c main_v48 : S1x128.Idx → EReal) (ix2 (0 : Fin 1) j))
    (fun j => (V c main_v49 : S1x128.Idx → EReal) (ix2 (0 : Fin 1) j)) (fun j => (V c main_v50 : S1x128.Idx → EReal) (ix2 (0 : Fin 1) j))
    (fun j => (V c main_v51 : S1x128.Idx → EReal) (ix2 (0 : Fin 1) j)) (V c main_v34 : S128x128.Idx → EReal)
    (fun j => (V c main_v52 : S1x128.Idx → EReal) (ix2 (0 : Fin 1) j))

/-- The printed block-index maps, decided over the grid: the two row-blocked inputs move with the output's row
    block, which is the point's number; every parameter window stays at block (0, 0). -/
theorem idx_facts1 : ∀ t : Fin cfg1.N,
      win1_10.index t (0 : Fin 2) = t.val ∧ win1_10.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

/-- Window 2 is its whole array at every point. -/
theorem whole1_2 (c : Dev nD) (t : Fin cfg1.N) (x : S128x128.Idx) :
    iblk1 V c 2 t x = (V c main_v22 : S128x128.Idx → EReal) x := by
  obtain ⟨-, -, -, -, -, -, e0, e1, -, -, -, -, -, -, -, -, -, -, -, -, -, -⟩ := idx_facts1 t
  show (V c main_v22 : S128x128.Idx → EReal) (((cfg1.win 2).blk t).view.emb x) = _
  refine congrArg _ (funext fun a => Fin.ext ?_)
  match a with
  | ⟨0, _⟩ => show win1_2.index t (0 : Fin 2) * 128 + 1 * (x 0).val = (x 0).val; omega
  | ⟨1, _⟩ => show win1_2.index t (1 : Fin 2) * 128 + 1 * (x 1).val = (x 1).val; omega

/-- Window 3 is its whole array at every point. -/
theorem whole1_3 (c : Dev nD) (t : Fin cfg1.N) (x : S1x128.Idx) :
    iblk1 V c 3 t x = (V c main_v47 : S1x128.Idx → EReal) x := by
  obtain ⟨-, -, -, -, -, -, -, -, e0, e1, -, -, -, -, -, -, -, -, -, -, -, -⟩ := idx_facts1 t
  show (V c main_v47 : S1x128.Idx → EReal) (((cfg1.win 3).blk t).view.emb x) = _
  refine congrArg _ (funext fun a => Fin.ext ?_)
  match a with
  | ⟨0, _⟩ => show win1_3.index t (0 : Fin 2) * 1 + 1 * (x 0).val = (x 0).val; omega
  | ⟨1, _⟩ => show win1_3.index t (1 : Fin 2) * 128 + 1 * (x 1).val = (x 1).val; omega

/-- Window 4 is its whole array at every point. -/
theorem whole1_4 (c : Dev nD) (t : Fin cfg1.N) (x : S1x128.Idx) :
    iblk1 V c 4 t x = (V c main_v48 : S1x128.Idx → EReal) x := by
  obtain ⟨-, -, -, -, -, -, -, -, -, -, e0, e1, -, -, -, -, -, -, -, -, -, -⟩ := idx_facts1 t
  show (V c main_v48 : S1x128.Idx → EReal) (((cfg1.win 4).blk t).view.emb x) = _
  refine congrArg _ (funext fun a => Fin.ext ?_)
  match a with
  | ⟨0, _⟩ => show win1_4.index t (0 : Fin 2) * 1 + 1 * (x 0).val = (x 0).val; omega
  | ⟨1, _⟩ => show win1_4.index t (1 : Fin 2) * 128 + 1 * (x 1).val = (x 1).val; omega

/-- Window 5 is its whole array at every point. -/
theorem whole1_5 (c : Dev nD) (t : Fin cfg1.N) (x : S1x128.Idx) :
    iblk1 V c 5 t x = (V c main_v49 : S1x128.Idx → EReal) x := by
  obtain ⟨-, -, -, -, -, -, -, -, -, -, -, -, e0, e1, -, -, -, -, -, -, -, -⟩ := idx_facts1 t
  show (V c main_v49 : S1x128.Idx → EReal) (((cfg1.win 5).blk t).view.emb x) = _
  refine congrArg _ (funext fun a => Fin.ext ?_)
  match a with
  | ⟨0, _⟩ => show win1_5.index t (0 : Fin 2) * 1 + 1 * (x 0).val = (x 0).val; omega
  | ⟨1, _⟩ => show win1_5.index t (1 : Fin 2) * 128 + 1 * (x 1).val = (x 1).val; omega

/-- Window 6 is its whole array at every point. -/
theorem whole1_6 (c : Dev nD) (t : Fin cfg1.N) (x : S1x128.Idx) :
    iblk1 V c 6 t x = (V c main_v50 : S1x128.Idx → EReal) x := by
  obtain ⟨-, -, -, -, -, -, -, -, -, -, -, -, -, -, e0, e1, -, -, -, -, -, -⟩ := idx_facts1 t
  show (V c main_v50 : S1x128.Idx → EReal) (((cfg1.win 6).blk t).view.emb x) = _
  refine congrArg _ (funext fun a => Fin.ext ?_)
  match a with
  | ⟨0, _⟩ => show win1_6.index t (0 : Fin 2) * 1 + 1 * (x 0).val = (x 0).val; omega
  | ⟨1, _⟩ => show win1_6.index t (1 : Fin 2) * 128 + 1 * (x 1).val = (x 1).val; omega

/-- Window 7 is its whole array at every point. -/
theorem whole1_7 (c : Dev nD) (t : Fin cfg1.N) (x : S1x128.Idx) :
    iblk1 V c 7 t x = (V c main_v51 : S1x128.Idx → EReal) x := by
  obtain ⟨-, -, -, -, -, -, -, -, -, -, -, -, -, -, -, -, e0, e1, -, -, -, -⟩ := idx_facts1 t
  show (V c main_v51 : S1x128.Idx → EReal) (((cfg1.win 7).blk t).view.emb x) = _
  refine congrArg _ (funext fun a => Fin.ext ?_)
  match a with
  | ⟨0, _⟩ => show win1_7.index t (0 : Fin 2) * 1 + 1 * (x 0).val = (x 0).val; omega
  | ⟨1, _⟩ => show win1_7.index t (1 : Fin 2) * 128 + 1 * (x 1).val = (x 1).val; omega

/-- Window 8 is its whole array at every point. -/
theorem whole1_8 (c : Dev nD) (t : Fin cfg1.N) (x : S128x128.Idx) :
    iblk1 V c 8 t x = (V c main_v34 : S128x128.Idx → EReal) x := by
  obtain ⟨-, -, -, -, -, -, -, -, -, -, -, -, -, -, -, -, -, -, e0, e1, -, -⟩ := idx_facts1 t
  show (V c main_v34 : S128x128.Idx → EReal) (((cfg1.win 8).blk t).view.emb x) = _
  refine congrArg _ (funext fun a => Fin.ext ?_)
  match a with
  | ⟨0, _⟩ => show win1_8.index t (0 : Fin 2) * 128 + 1 * (x 0).val = (x 0).val; omega
  | ⟨1, _⟩ => show win1_8.index t (1 : Fin 2) * 128 + 1 * (x 1).val = (x 1).val; omega

/-- Window 9 is its whole array at every point. -/
theorem whole1_9 (c : Dev nD) (t : Fin cfg1.N) (x : S1x128.Idx) :
    iblk1 V c 9 t x = (V c main_v52 : S1x128.Idx → EReal) x := by
  obtain ⟨-, -, -, -, -, -, -, -, -, -, -, -, -, -, -, -, -, -, -, -, e0, e1⟩ := idx_facts1 t
  show (V c main_v52 : S1x128.Idx → EReal) (((cfg1.win 9).blk t).view.emb x) = _
  refine congrArg _ (funext fun a => Fin.ext ?_)
  match a with
  | ⟨0, _⟩ => show win1_9.index t (0 : Fin 2) * 1 + 1 * (x 0).val = (x 0).val; omega
  | ⟨1, _⟩ => show win1_9.index t (1 : Fin 2) * 128 + 1 * (x 1).val = (x 1).val; omega

/-- WHAT POINT `t` WRITES BACK is block `t` of the layer of the whole arrays. -/
theorem flushed_eq (c : Dev nD) (t : Fin cfg1.N) :
    (dat1 (F := Ideal) V c).flushed 10 t = ((cfg1.win 10).blk t).view.read (Elt Ideal) (G V c) := by
  show (cfg1.win 10).cut (grid1.coords t) ((dat1 (F := Ideal) V c).after 10 t) = _
  rw [after1_10, Pay.out1_eq (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)]
  obtain ⟨o0, o1, a0, a1, b0, b1, -⟩ := idx_facts1 t
  funext y
  show GinLayer.layer (iblk1 V c 0 t) (iblk1 V c 1 t) (iblk1 V c 2 t) (fun j => (iblk1 V c 3 t) (ix2 (0 : Fin 1) j)) (fun j => (iblk1 V c 4 t) (ix2 (0 : Fin 1) j)) (fun j => (iblk1 V c 5 t) (ix2 (0 : Fin 1) j)) (fun j => (iblk1 V c 6 t) (ix2 (0 : Fin 1) j)) (fun j => (iblk1 V c 7 t) (ix2 (0 : Fin 1) j)) (iblk1 V c 8 t) (fun j => (iblk1 V c 9 t) (ix2 (0 : Fin 1) j)) y
    = G V c (((cfg1.win 10).blk t).view.emb y)
  unfold G
  refine GinLayer.layer_entry_congr _ _ _ _ _ _ _ _ _ _ _ _ _ _ _ _ _ _ _ _ _ _ ?_ ?_ ?_ ?_ ?_ ?_ ?_ ?_ ?_ ?_ ?_
  · exact Fin.ext (show (y 1).val = win1_10.index t (1 : Fin 2) * 128 + 1 * (y 1).val by omega)
  · intro d
    show (V c main_v20 : S100000x128.Idx → EReal) (((cfg1.win 0).blk t).view.emb (ix2 (y 0) d)) = _
    refine congrArg _ (funext fun a => Fin.ext ?_)
    match a with
    | ⟨0, _⟩ => show win1_0.index t (0 : Fin 2) * 5000 + 1 * (y 0).val = win1_10.index t (0 : Fin 2) * 5000 + 1 * (y 0).val; omega
    | ⟨1, _⟩ => show win1_0.index t (1 : Fin 2) * 128 + 1 * d.val = d.val; omega
  · intro d
    show (V c main_v46 : S100000x128.Idx → EReal) (((cfg1.win 1).blk t).view.emb (ix2 (y 0) d)) = _
    refine congrArg _ (funext fun a => Fin.ext ?_)
    match a with
    | ⟨0, _⟩ => show win1_1.index t (0 : Fin 2) * 5000 + 1 * (y 0).val = win1_10.index t (0 : Fin 2) * 5000 + 1 * (y 0).val; omega
    | ⟨1, _⟩ => show win1_1.index t (1 : Fin 2) * 128 + 1 * d.val = d.val; omega
  · exact funext fun x => whole1_2 V c t x
  · exact funext fun j => whole1_3 V c t _
  · exact funext fun j => whole1_4 V c t _
  · exact funext fun j => whole1_5 V c t _
  · exact funext fun j => whole1_6 V c t _
  · exact funext fun j => whole1_7 V c t _
  · exact funext fun x => whole1_8 V c t x
  · exact funext fun j => whole1_9 V c t _

/-- An index of the result array is in point `t`'s block iff each coordinate is in the block's range on its axis. -/
theorem mem_blk (t : Fin cfg1.N) (i : S100000x128.Idx) :
    i ∈ ((cfg1.win 10).blk t).view.set ↔ ∀ a : Fin 2, win1_10.index t a * S5000x128.size a ≤ (i a).val
      ∧ (i a).val < win1_10.index t a * S5000x128.size a + S5000x128.size a := by
  show i ∈ ((View.whole main_v53).slice (win1_10.rect t)).set ↔ _
  rw [View.set_slice_whole, Rect.mem_set_unit]
  exact Iff.rfl

/-- Every row of the result is in the block of the point numbered by the row's quotient by 5000. -/
theorem cover (i : S100000x128.Idx) :
    ∃ t : Fin cfg1.N, (cfg1.win 10).flush t = true ∧ i ∈ ((cfg1.win 10).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨o0, o1, -⟩ := idx_facts1 t
  refine ⟨t, flush1_10 t, ?_⟩
  rw [mem_blk]
  intro a
  match a with
  | ⟨0, _⟩ => show win1_10.index t (0 : Fin 2) * 5000 ≤ (i 0).val ∧ (i 0).val < win1_10.index t (0 : Fin 2) * 5000 + 5000; omega
  | ⟨1, _⟩ => show win1_10.index t (1 : Fin 2) * 128 ≤ (i 1).val ∧ (i 1).val < win1_10.index t (1 : Fin 2) * 128 + 128; omega

/-- THE RESULT ARRAY after the call: the layer of the arrays the call finds. -/
theorem final (c : Dev nD) : (dat1 (F := Ideal) V c).arrAt 10 cfg1.N = G V c :=
  (dat1 (F := Ideal) V c).arrAt_eq_of_cover 10 (G V c) (fun t _ => flushed_eq V c t) cover

end Cert.KernelIdeal.Region1

end
-- ==== Proof.Region2.lean ====
/-
  Call 2 of the five: the array it leaves, as one function of the arrays it finds.

  The grid has 20 points; point t takes rows 5000·t … 5000·t + 4999 of the node features and of the neighbour sums,
  all of each parameter array, and writes rows 5000·t … 5000·t + 4999 of the result. What a point writes back is
  the layer (`GinLayer.layer`) of its two row blocks, which is the matching row block of the layer of the whole
  arrays, since an entry of the layer reads only its own row. The 20 row blocks tile the result, so the result array
  ends as the layer of the whole arrays.
-/
import proofs.«130913_j56831007261128_1_alg».proof.Proof.KernelPay

set_option maxRecDepth 16384

noncomputable section

namespace Cert.KernelIdeal.Region2

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The layer of the whole arrays the call finds. -/
def G (c : Dev nD) : S100000x128.Idx → EReal :=
  GinLayer.layer (V c main_v53 : S100000x128.Idx → EReal) (V c main_v79 : S100000x128.Idx → EReal) (V c main_v55 : S128x128.Idx → EReal)
    (fun j => (V c main_v80 : S1x128.Idx → EReal) (ix2 (0 : Fin 1) j)) (fun j => (V c main_v81 : S1x128.Idx → EReal) (ix2 (0 : Fin 1) j))
    (fun j => (V c main_v82 : S1x128.Idx → EReal) (ix2 (0 : Fin 1) j)) (fun j => (V c main_v83 : S1x128.Idx → EReal) (ix2 (0 : Fin 1) j))
    (fun j => (V c main_v84 : S1x128.Idx → EReal) (ix2 (0 : Fin 1) j)) (V c main_v67 : S128x128.Idx → EReal)
    (fun j => (V c main_v85 : S1x128.Idx → EReal) (ix2 (0 : Fin 1) j))

/-- The printed block-index maps, decided over the grid: the two row-blocked inputs move with the output's row
    block, which is the point's number; every parameter window stays at block (0, 0). -/
theorem idx_facts2 : ∀ t : Fin cfg2.N,
      win2_10.index t (0 : Fin 2) = t.val ∧ win2_10.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0 :=
  (by decide +kernel : ∀ t : Fin grid2.N, _)

/-- Window 2 is its whole array at every point. -/
theorem whole2_2 (c : Dev nD) (t : Fin cfg2.N) (x : S128x128.Idx) :
    iblk2 V c 2 t x = (V c main_v55 : S128x128.Idx → EReal) x := by
  obtain ⟨-, -, -, -, -, -, e0, e1, -, -, -, -, -, -, -, -, -, -, -, -, -, -⟩ := idx_facts2 t
  show (V c main_v55 : S128x128.Idx → EReal) (((cfg2.win 2).blk t).view.emb x) = _
  refine congrArg _ (funext fun a => Fin.ext ?_)
  match a with
  | ⟨0, _⟩ => show win2_2.index t (0 : Fin 2) * 128 + 1 * (x 0).val = (x 0).val; omega
  | ⟨1, _⟩ => show win2_2.index t (1 : Fin 2) * 128 + 1 * (x 1).val = (x 1).val; omega

/-- Window 3 is its whole array at every point. -/
theorem whole2_3 (c : Dev nD) (t : Fin cfg2.N) (x : S1x128.Idx) :
    iblk2 V c 3 t x = (V c main_v80 : S1x128.Idx → EReal) x := by
  obtain ⟨-, -, -, -, -, -, -, -, e0, e1, -, -, -, -, -, -, -, -, -, -, -, -⟩ := idx_facts2 t
  show (V c main_v80 : S1x128.Idx → EReal) (((cfg2.win 3).blk t).view.emb x) = _
  refine congrArg _ (funext fun a => Fin.ext ?_)
  match a with
  | ⟨0, _⟩ => show win2_3.index t (0 : Fin 2) * 1 + 1 * (x 0).val = (x 0).val; omega
  | ⟨1, _⟩ => show win2_3.index t (1 : Fin 2) * 128 + 1 * (x 1).val = (x 1).val; omega

/-- Window 4 is its whole array at every point. -/
theorem whole2_4 (c : Dev nD) (t : Fin cfg2.N) (x : S1x128.Idx) :
    iblk2 V c 4 t x = (V c main_v81 : S1x128.Idx → EReal) x := by
  obtain ⟨-, -, -, -, -, -, -, -, -, -, e0, e1, -, -, -, -, -, -, -, -, -, -⟩ := idx_facts2 t
  show (V c main_v81 : S1x128.Idx → EReal) (((cfg2.win 4).blk t).view.emb x) = _
  refine congrArg _ (funext fun a => Fin.ext ?_)
  match a with
  | ⟨0, _⟩ => show win2_4.index t (0 : Fin 2) * 1 + 1 * (x 0).val = (x 0).val; omega
  | ⟨1, _⟩ => show win2_4.index t (1 : Fin 2) * 128 + 1 * (x 1).val = (x 1).val; omega

/-- Window 5 is its whole array at every point. -/
theorem whole2_5 (c : Dev nD) (t : Fin cfg2.N) (x : S1x128.Idx) :
    iblk2 V c 5 t x = (V c main_v82 : S1x128.Idx → EReal) x := by
  obtain ⟨-, -, -, -, -, -, -, -, -, -, -, -, e0, e1, -, -, -, -, -, -, -, -⟩ := idx_facts2 t
  show (V c main_v82 : S1x128.Idx → EReal) (((cfg2.win 5).blk t).view.emb x) = _
  refine congrArg _ (funext fun a => Fin.ext ?_)
  match a with
  | ⟨0, _⟩ => show win2_5.index t (0 : Fin 2) * 1 + 1 * (x 0).val = (x 0).val; omega
  | ⟨1, _⟩ => show win2_5.index t (1 : Fin 2) * 128 + 1 * (x 1).val = (x 1).val; omega

/-- Window 6 is its whole array at every point. -/
theorem whole2_6 (c : Dev nD) (t : Fin cfg2.N) (x : S1x128.Idx) :
    iblk2 V c 6 t x = (V c main_v83 : S1x128.Idx → EReal) x := by
  obtain ⟨-, -, -, -, -, -, -, -, -, -, -, -, -, -, e0, e1, -, -, -, -, -, -⟩ := idx_facts2 t
  show (V c main_v83 : S1x128.Idx → EReal) (((cfg2.win 6).blk t).view.emb x) = _
  refine congrArg _ (funext fun a => Fin.ext ?_)
  match a with
  | ⟨0, _⟩ => show win2_6.index t (0 : Fin 2) * 1 + 1 * (x 0).val = (x 0).val; omega
  | ⟨1, _⟩ => show win2_6.index t (1 : Fin 2) * 128 + 1 * (x 1).val = (x 1).val; omega

/-- Window 7 is its whole array at every point. -/
theorem whole2_7 (c : Dev nD) (t : Fin cfg2.N) (x : S1x128.Idx) :
    iblk2 V c 7 t x = (V c main_v84 : S1x128.Idx → EReal) x := by
  obtain ⟨-, -, -, -, -, -, -, -, -, -, -, -, -, -, -, -, e0, e1, -, -, -, -⟩ := idx_facts2 t
  show (V c main_v84 : S1x128.Idx → EReal) (((cfg2.win 7).blk t).view.emb x) = _
  refine congrArg _ (funext fun a => Fin.ext ?_)
  match a with
  | ⟨0, _⟩ => show win2_7.index t (0 : Fin 2) * 1 + 1 * (x 0).val = (x 0).val; omega
  | ⟨1, _⟩ => show win2_7.index t (1 : Fin 2) * 128 + 1 * (x 1).val = (x 1).val; omega

/-- Window 8 is its whole array at every point. -/
theorem whole2_8 (c : Dev nD) (t : Fin cfg2.N) (x : S128x128.Idx) :
    iblk2 V c 8 t x = (V c main_v67 : S128x128.Idx → EReal) x := by
  obtain ⟨-, -, -, -, -, -, -, -, -, -, -, -, -, -, -, -, -, -, e0, e1, -, -⟩ := idx_facts2 t
  show (V c main_v67 : S128x128.Idx → EReal) (((cfg2.win 8).blk t).view.emb x) = _
  refine congrArg _ (funext fun a => Fin.ext ?_)
  match a with
  | ⟨0, _⟩ => show win2_8.index t (0 : Fin 2) * 128 + 1 * (x 0).val = (x 0).val; omega
  | ⟨1, _⟩ => show win2_8.index t (1 : Fin 2) * 128 + 1 * (x 1).val = (x 1).val; omega

/-- Window 9 is its whole array at every point. -/
theorem whole2_9 (c : Dev nD) (t : Fin cfg2.N) (x : S1x128.Idx) :
    iblk2 V c 9 t x = (V c main_v85 : S1x128.Idx → EReal) x := by
  obtain ⟨-, -, -, -, -, -, -, -, -, -, -, -, -, -, -, -, -, -, -, -, e0, e1⟩ := idx_facts2 t
  show (V c main_v85 : S1x128.Idx → EReal) (((cfg2.win 9).blk t).view.emb x) = _
  refine congrArg _ (funext fun a => Fin.ext ?_)
  match a with
  | ⟨0, _⟩ => show win2_9.index t (0 : Fin 2) * 1 + 1 * (x 0).val = (x 0).val; omega
  | ⟨1, _⟩ => show win2_9.index t (1 : Fin 2) * 128 + 1 * (x 1).val = (x 1).val; omega

/-- WHAT POINT `t` WRITES BACK is block `t` of the layer of the whole arrays. -/
theorem flushed_eq (c : Dev nD) (t : Fin cfg2.N) :
    (dat2 (F := Ideal) V c).flushed 10 t = ((cfg2.win 10).blk t).view.read (Elt Ideal) (G V c) := by
  show (cfg2.win 10).cut (grid2.coords t) ((dat2 (F := Ideal) V c).after 10 t) = _
  rw [after2_10, Pay.out2_eq (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t), Pay.out1_eq (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)]
  obtain ⟨o0, o1, a0, a1, b0, b1, -⟩ := idx_facts2 t
  funext y
  show GinLayer.layer (iblk2 V c 0 t) (iblk2 V c 1 t) (iblk2 V c 2 t) (fun j => (iblk2 V c 3 t) (ix2 (0 : Fin 1) j)) (fun j => (iblk2 V c 4 t) (ix2 (0 : Fin 1) j)) (fun j => (iblk2 V c 5 t) (ix2 (0 : Fin 1) j)) (fun j => (iblk2 V c 6 t) (ix2 (0 : Fin 1) j)) (fun j => (iblk2 V c 7 t) (ix2 (0 : Fin 1) j)) (iblk2 V c 8 t) (fun j => (iblk2 V c 9 t) (ix2 (0 : Fin 1) j)) y
    = G V c (((cfg2.win 10).blk t).view.emb y)
  unfold G
  refine GinLayer.layer_entry_congr _ _ _ _ _ _ _ _ _ _ _ _ _ _ _ _ _ _ _ _ _ _ ?_ ?_ ?_ ?_ ?_ ?_ ?_ ?_ ?_ ?_ ?_
  · exact Fin.ext (show (y 1).val = win2_10.index t (1 : Fin 2) * 128 + 1 * (y 1).val by omega)
  · intro d
    show (V c main_v53 : S100000x128.Idx → EReal) (((cfg2.win 0).blk t).view.emb (ix2 (y 0) d)) = _
    refine congrArg _ (funext fun a => Fin.ext ?_)
    match a with
    | ⟨0, _⟩ => show win2_0.index t (0 : Fin 2) * 5000 + 1 * (y 0).val = win2_10.index t (0 : Fin 2) * 5000 + 1 * (y 0).val; omega
    | ⟨1, _⟩ => show win2_0.index t (1 : Fin 2) * 128 + 1 * d.val = d.val; omega
  · intro d
    show (V c main_v79 : S100000x128.Idx → EReal) (((cfg2.win 1).blk t).view.emb (ix2 (y 0) d)) = _
    refine congrArg _ (funext fun a => Fin.ext ?_)
    match a with
    | ⟨0, _⟩ => show win2_1.index t (0 : Fin 2) * 5000 + 1 * (y 0).val = win2_10.index t (0 : Fin 2) * 5000 + 1 * (y 0).val; omega
    | ⟨1, _⟩ => show win2_1.index t (1 : Fin 2) * 128 + 1 * d.val = d.val; omega
  · exact funext fun x => whole2_2 V c t x
  · exact funext fun j => whole2_3 V c t _
  · exact funext fun j => whole2_4 V c t _
  · exact funext fun j => whole2_5 V c t _
  · exact funext fun j => whole2_6 V c t _
  · exact funext fun j => whole2_7 V c t _
  · exact funext fun x => whole2_8 V c t x
  · exact funext fun j => whole2_9 V c t _

/-- An index of the result array is in point `t`'s block iff each coordinate is in the block's range on its axis. -/
theorem mem_blk (t : Fin cfg2.N) (i : S100000x128.Idx) :
    i ∈ ((cfg2.win 10).blk t).view.set ↔ ∀ a : Fin 2, win2_10.index t a * S5000x128.size a ≤ (i a).val
      ∧ (i a).val < win2_10.index t a * S5000x128.size a + S5000x128.size a := by
  show i ∈ ((View.whole main_v86).slice (win2_10.rect t)).set ↔ _
  rw [View.set_slice_whole, Rect.mem_set_unit]
  exact Iff.rfl

/-- Every row of the result is in the block of the point numbered by the row's quotient by 5000. -/
theorem cover (i : S100000x128.Idx) :
    ∃ t : Fin cfg2.N, (cfg2.win 10).flush t = true ∧ i ∈ ((cfg2.win 10).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by rw [show cfg2.N = 20 from N_2]; omega⟩, rfl⟩
  obtain ⟨o0, o1, -⟩ := idx_facts2 t
  refine ⟨t, flush2_10 t, ?_⟩
  rw [mem_blk]
  intro a
  match a with
  | ⟨0, _⟩ => show win2_10.index t (0 : Fin 2) * 5000 ≤ (i 0).val ∧ (i 0).val < win2_10.index t (0 : Fin 2) * 5000 + 5000; omega
  | ⟨1, _⟩ => show win2_10.index t (1 : Fin 2) * 128 ≤ (i 1).val ∧ (i 1).val < win2_10.index t (1 : Fin 2) * 128 + 128; omega

/-- THE RESULT ARRAY after the call: the layer of the arrays the call finds. -/
theorem final (c : Dev nD) : (dat2 (F := Ideal) V c).arrAt 10 cfg2.N = G V c :=
  (dat2 (F := Ideal) V c).arrAt_eq_of_cover 10 (G V c) (fun t _ => flushed_eq V c t) cover

end Cert.KernelIdeal.Region2

end
-- ==== Proof.Region3.lean ====
/-
  Call 3 of the five: the array it leaves, as one function of the arrays it finds.

  The grid has 20 points; point t takes rows 5000·t … 5000·t + 4999 of the node features and of the neighbour sums,
  all of each parameter array, and writes rows 5000·t … 5000·t + 4999 of the result. What a point writes back is
  the layer (`GinLayer.layer`) of its two row blocks, which is the matching row block of the layer of the whole
  arrays, since an entry of the layer reads only its own row. The 20 row blocks tile the result, so the result array
  ends as the layer of the whole arrays.
-/
import proofs.«130913_j56831007261128_1_alg».proof.Proof.KernelPay

set_option maxRecDepth 16384

noncomputable section

namespace Cert.KernelIdeal.Region3

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The layer of the whole arrays the call finds. -/
def G (c : Dev nD) : S100000x128.Idx → EReal :=
  GinLayer.layer (V c main_v86 : S100000x128.Idx → EReal) (V c main_v112 : S100000x128.Idx → EReal) (V c main_v88 : S128x128.Idx → EReal)
    (fun j => (V c main_v113 : S1x128.Idx → EReal) (ix2 (0 : Fin 1) j)) (fun j => (V c main_v114 : S1x128.Idx → EReal) (ix2 (0 : Fin 1) j))
    (fun j => (V c main_v115 : S1x128.Idx → EReal) (ix2 (0 : Fin 1) j)) (fun j => (V c main_v116 : S1x128.Idx → EReal) (ix2 (0 : Fin 1) j))
    (fun j => (V c main_v117 : S1x128.Idx → EReal) (ix2 (0 : Fin 1) j)) (V c main_v100 : S128x128.Idx → EReal)
    (fun j => (V c main_v118 : S1x128.Idx → EReal) (ix2 (0 : Fin 1) j))

/-- The printed block-index maps, decided over the grid: the two row-blocked inputs move with the output's row
    block, which is the point's number; every parameter window stays at block (0, 0). -/
theorem idx_facts3 : ∀ t : Fin cfg3.N,
      win3_10.index t (0 : Fin 2) = t.val ∧ win3_10.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0 :=
  (by decide +kernel : ∀ t : Fin grid3.N, _)

/-- Window 2 is its whole array at every point. -/
theorem whole3_2 (c : Dev nD) (t : Fin cfg3.N) (x : S128x128.Idx) :
    iblk3 V c 2 t x = (V c main_v88 : S128x128.Idx → EReal) x := by
  obtain ⟨-, -, -, -, -, -, e0, e1, -, -, -, -, -, -, -, -, -, -, -, -, -, -⟩ := idx_facts3 t
  show (V c main_v88 : S128x128.Idx → EReal) (((cfg3.win 2).blk t).view.emb x) = _
  refine congrArg _ (funext fun a => Fin.ext ?_)
  match a with
  | ⟨0, _⟩ => show win3_2.index t (0 : Fin 2) * 128 + 1 * (x 0).val = (x 0).val; omega
  | ⟨1, _⟩ => show win3_2.index t (1 : Fin 2) * 128 + 1 * (x 1).val = (x 1).val; omega

/-- Window 3 is its whole array at every point. -/
theorem whole3_3 (c : Dev nD) (t : Fin cfg3.N) (x : S1x128.Idx) :
    iblk3 V c 3 t x = (V c main_v113 : S1x128.Idx → EReal) x := by
  obtain ⟨-, -, -, -, -, -, -, -, e0, e1, -, -, -, -, -, -, -, -, -, -, -, -⟩ := idx_facts3 t
  show (V c main_v113 : S1x128.Idx → EReal) (((cfg3.win 3).blk t).view.emb x) = _
  refine congrArg _ (funext fun a => Fin.ext ?_)
  match a with
  | ⟨0, _⟩ => show win3_3.index t (0 : Fin 2) * 1 + 1 * (x 0).val = (x 0).val; omega
  | ⟨1, _⟩ => show win3_3.index t (1 : Fin 2) * 128 + 1 * (x 1).val = (x 1).val; omega

/-- Window 4 is its whole array at every point. -/
theorem whole3_4 (c : Dev nD) (t : Fin cfg3.N) (x : S1x128.Idx) :
    iblk3 V c 4 t x = (V c main_v114 : S1x128.Idx → EReal) x := by
  obtain ⟨-, -, -, -, -, -, -, -, -, -, e0, e1, -, -, -, -, -, -, -, -, -, -⟩ := idx_facts3 t
  show (V c main_v114 : S1x128.Idx → EReal) (((cfg3.win 4).blk t).view.emb x) = _
  refine congrArg _ (funext fun a => Fin.ext ?_)
  match a with
  | ⟨0, _⟩ => show win3_4.index t (0 : Fin 2) * 1 + 1 * (x 0).val = (x 0).val; omega
  | ⟨1, _⟩ => show win3_4.index t (1 : Fin 2) * 128 + 1 * (x 1).val = (x 1).val; omega

/-- Window 5 is its whole array at every point. -/
theorem whole3_5 (c : Dev nD) (t : Fin cfg3.N) (x : S1x128.Idx) :
    iblk3 V c 5 t x = (V c main_v115 : S1x128.Idx → EReal) x := by
  obtain ⟨-, -, -, -, -, -, -, -, -, -, -, -, e0, e1, -, -, -, -, -, -, -, -⟩ := idx_facts3 t
  show (V c main_v115 : S1x128.Idx → EReal) (((cfg3.win 5).blk t).view.emb x) = _
  refine congrArg _ (funext fun a => Fin.ext ?_)
  match a with
  | ⟨0, _⟩ => show win3_5.index t (0 : Fin 2) * 1 + 1 * (x 0).val = (x 0).val; omega
  | ⟨1, _⟩ => show win3_5.index t (1 : Fin 2) * 128 + 1 * (x 1).val = (x 1).val; omega

/-- Window 6 is its whole array at every point. -/
theorem whole3_6 (c : Dev nD) (t : Fin cfg3.N) (x : S1x128.Idx) :
    iblk3 V c 6 t x = (V c main_v116 : S1x128.Idx → EReal) x := by
  obtain ⟨-, -, -, -, -, -, -, -, -, -, -, -, -, -, e0, e1, -, -, -, -, -, -⟩ := idx_facts3 t
  show (V c main_v116 : S1x128.Idx → EReal) (((cfg3.win 6).blk t).view.emb x) = _
  refine congrArg _ (funext fun a => Fin.ext ?_)
  match a with
  | ⟨0, _⟩ => show win3_6.index t (0 : Fin 2) * 1 + 1 * (x 0).val = (x 0).val; omega
  | ⟨1, _⟩ => show win3_6.index t (1 : Fin 2) * 128 + 1 * (x 1).val = (x 1).val; omega

/-- Window 7 is its whole array at every point. -/
theorem whole3_7 (c : Dev nD) (t : Fin cfg3.N) (x : S1x128.Idx) :
    iblk3 V c 7 t x = (V c main_v117 : S1x128.Idx → EReal) x := by
  obtain ⟨-, -, -, -, -, -, -, -, -, -, -, -, -, -, -, -, e0, e1, -, -, -, -⟩ := idx_facts3 t
  show (V c main_v117 : S1x128.Idx → EReal) (((cfg3.win 7).blk t).view.emb x) = _
  refine congrArg _ (funext fun a => Fin.ext ?_)
  match a with
  | ⟨0, _⟩ => show win3_7.index t (0 : Fin 2) * 1 + 1 * (x 0).val = (x 0).val; omega
  | ⟨1, _⟩ => show win3_7.index t (1 : Fin 2) * 128 + 1 * (x 1).val = (x 1).val; omega

/-- Window 8 is its whole array at every point. -/
theorem whole3_8 (c : Dev nD) (t : Fin cfg3.N) (x : S128x128.Idx) :
    iblk3 V c 8 t x = (V c main_v100 : S128x128.Idx → EReal) x := by
  obtain ⟨-, -, -, -, -, -, -, -, -, -, -, -, -, -, -, -, -, -, e0, e1, -, -⟩ := idx_facts3 t
  show (V c main_v100 : S128x128.Idx → EReal) (((cfg3.win 8).blk t).view.emb x) = _
  refine congrArg _ (funext fun a => Fin.ext ?_)
  match a with
  | ⟨0, _⟩ => show win3_8.index t (0 : Fin 2) * 128 + 1 * (x 0).val = (x 0).val; omega
  | ⟨1, _⟩ => show win3_8.index t (1 : Fin 2) * 128 + 1 * (x 1).val = (x 1).val; omega

/-- Window 9 is its whole array at every point. -/
theorem whole3_9 (c : Dev nD) (t : Fin cfg3.N) (x : S1x128.Idx) :
    iblk3 V c 9 t x = (V c main_v118 : S1x128.Idx → EReal) x := by
  obtain ⟨-, -, -, -, -, -, -, -, -, -, -, -, -, -, -, -, -, -, -, -, e0, e1⟩ := idx_facts3 t
  show (V c main_v118 : S1x128.Idx → EReal) (((cfg3.win 9).blk t).view.emb x) = _
  refine congrArg _ (funext fun a => Fin.ext ?_)
  match a with
  | ⟨0, _⟩ => show win3_9.index t (0 : Fin 2) * 1 + 1 * (x 0).val = (x 0).val; omega
  | ⟨1, _⟩ => show win3_9.index t (1 : Fin 2) * 128 + 1 * (x 1).val = (x 1).val; omega

/-- WHAT POINT `t` WRITES BACK is block `t` of the layer of the whole arrays. -/
theorem flushed_eq (c : Dev nD) (t : Fin cfg3.N) :
    (dat3 (F := Ideal) V c).flushed 10 t = ((cfg3.win 10).blk t).view.read (Elt Ideal) (G V c) := by
  show (cfg3.win 10).cut (grid3.coords t) ((dat3 (F := Ideal) V c).after 10 t) = _
  rw [after3_10, Pay.out3_eq (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t), Pay.out1_eq (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)]
  obtain ⟨o0, o1, a0, a1, b0, b1, -⟩ := idx_facts3 t
  funext y
  show GinLayer.layer (iblk3 V c 0 t) (iblk3 V c 1 t) (iblk3 V c 2 t) (fun j => (iblk3 V c 3 t) (ix2 (0 : Fin 1) j)) (fun j => (iblk3 V c 4 t) (ix2 (0 : Fin 1) j)) (fun j => (iblk3 V c 5 t) (ix2 (0 : Fin 1) j)) (fun j => (iblk3 V c 6 t) (ix2 (0 : Fin 1) j)) (fun j => (iblk3 V c 7 t) (ix2 (0 : Fin 1) j)) (iblk3 V c 8 t) (fun j => (iblk3 V c 9 t) (ix2 (0 : Fin 1) j)) y
    = G V c (((cfg3.win 10).blk t).view.emb y)
  unfold G
  refine GinLayer.layer_entry_congr _ _ _ _ _ _ _ _ _ _ _ _ _ _ _ _ _ _ _ _ _ _ ?_ ?_ ?_ ?_ ?_ ?_ ?_ ?_ ?_ ?_ ?_
  · exact Fin.ext (show (y 1).val = win3_10.index t (1 : Fin 2) * 128 + 1 * (y 1).val by omega)
  · intro d
    show (V c main_v86 : S100000x128.Idx → EReal) (((cfg3.win 0).blk t).view.emb (ix2 (y 0) d)) = _
    refine congrArg _ (funext fun a => Fin.ext ?_)
    match a with
    | ⟨0, _⟩ => show win3_0.index t (0 : Fin 2) * 5000 + 1 * (y 0).val = win3_10.index t (0 : Fin 2) * 5000 + 1 * (y 0).val; omega
    | ⟨1, _⟩ => show win3_0.index t (1 : Fin 2) * 128 + 1 * d.val = d.val; omega
  · intro d
    show (V c main_v112 : S100000x128.Idx → EReal) (((cfg3.win 1).blk t).view.emb (ix2 (y 0) d)) = _
    refine congrArg _ (funext fun a => Fin.ext ?_)
    match a with
    | ⟨0, _⟩ => show win3_1.index t (0 : Fin 2) * 5000 + 1 * (y 0).val = win3_10.index t (0 : Fin 2) * 5000 + 1 * (y 0).val; omega
    | ⟨1, _⟩ => show win3_1.index t (1 : Fin 2) * 128 + 1 * d.val = d.val; omega
  · exact funext fun x => whole3_2 V c t x
  · exact funext fun j => whole3_3 V c t _
  · exact funext fun j => whole3_4 V c t _
  · exact funext fun j => whole3_5 V c t _
  · exact funext fun j => whole3_6 V c t _
  · exact funext fun j => whole3_7 V c t _
  · exact funext fun x => whole3_8 V c t x
  · exact funext fun j => whole3_9 V c t _

/-- An index of the result array is in point `t`'s block iff each coordinate is in the block's range on its axis. -/
theorem mem_blk (t : Fin cfg3.N) (i : S100000x128.Idx) :
    i ∈ ((cfg3.win 10).blk t).view.set ↔ ∀ a : Fin 2, win3_10.index t a * S5000x128.size a ≤ (i a).val
      ∧ (i a).val < win3_10.index t a * S5000x128.size a + S5000x128.size a := by
  show i ∈ ((View.whole main_v119).slice (win3_10.rect t)).set ↔ _
  rw [View.set_slice_whole, Rect.mem_set_unit]
  exact Iff.rfl

/-- Every row of the result is in the block of the point numbered by the row's quotient by 5000. -/
theorem cover (i : S100000x128.Idx) :
    ∃ t : Fin cfg3.N, (cfg3.win 10).flush t = true ∧ i ∈ ((cfg3.win 10).blk t).view.set := by
  have hi0 : (i 0).val < 100000 := (i 0).isLt
  have hi1 : (i 1).val < 128 := (i 1).isLt
  obtain ⟨t, ht⟩ : ∃ t : Fin cfg3.N, t.val = (i 0).val / 5000 :=
    ⟨⟨(i 0).val / 5000, by rw [show cfg3.N = 20 from N_3]; omega⟩, rfl⟩
  obtain ⟨o0, o1, -⟩ := idx_facts3 t
  refine ⟨t, flush3_10 t, ?_⟩
  rw [mem_blk]
  intro a
  match a with
  | ⟨0, _⟩ => show win3_10.index t (0 : Fin 2) * 5000 ≤ (i 0).val ∧ (i 0).val < win3_10.index t (0 : Fin 2) * 5000 + 5000; omega
  | ⟨1, _⟩ => show win3_10.index t (1 : Fin 2) * 128 ≤ (i 1).val ∧ (i 1).val < win3_10.index t (1 : Fin 2) * 128 + 128; omega

/-- THE RESULT ARRAY after the call: the layer of the arrays the call finds. -/
theorem final (c : Dev nD) : (dat3 (F := Ideal) V c).arrAt 10 cfg3.N = G V c :=
  (dat3 (F := Ideal) V c).arrAt_eq_of_cover 10 (G V c) (fun t _ => flushed_eq V c t) cover

end Cert.KernelIdeal.Region3

end
-- ==== Proof.Region4.lean ====
/-
  Call 4 of the five: the array it leaves, as one function of the arrays it finds.

  The grid has 20 points; point t takes rows 5000·t … 5000·t + 4999 of the node features and of the neighbour sums,
  all of each parameter array, and writes rows 5000·t … 5000·t + 4999 of the result. What a point writes back is
  the layer (`GinLayer.layer`) of its two row blocks, which is the matching row block of the layer of the whole
  arrays, since an entry of the layer reads only its own row. The 20 row blocks tile the result, so the result array
  ends as the layer of the whole arrays.
-/
import proofs.«130913_j56831007261128_1_alg».proof.Proof.KernelPay

set_option maxRecDepth 16384

noncomputable section

namespace Cert.KernelIdeal.Region4

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The layer of the whole arrays the call finds. -/
def G (c : Dev nD) : S100000x128.Idx → EReal :=
  GinLayer.layer (V c main_v119 : S100000x128.Idx → EReal) (V c main_v145 : S100000x128.Idx → EReal) (V c main_v121 : S128x128.Idx → EReal)
    (fun j => (V c main_v146 : S1x128.Idx → EReal) (ix2 (0 : Fin 1) j)) (fun j => (V c main_v147 : S1x128.Idx → EReal) (ix2 (0 : Fin 1) j))
    (fun j => (V c main_v148 : S1x128.Idx → EReal) (ix2 (0 : Fin 1) j)) (fun j => (V c main_v149 : S1x128.Idx → EReal) (ix2 (0 : Fin 1) j))
    (fun j => (V c main_v150 : S1x128.Idx → EReal) (ix2 (0 : Fin 1) j)) (V c main_v133 : S128x128.Idx → EReal)
    (fun j => (V c main_v151 : S1x128.Idx → EReal) (ix2 (0 : Fin 1) j))

/-- The printed block-index maps, decided over the grid: the two row-blocked inputs move with the output's row
    block, which is the point's number; every parameter window stays at block (0, 0). -/
theorem idx_facts4 : ∀ t : Fin cfg4.N,
      win4_10.index t (0 : Fin 2) = t.val ∧ win4_10.index t (1 : Fin 2) = 0
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0 :=
  (by decide +kernel : ∀ t : Fin grid4.N, _)

/-- Window 2 is its whole array at every point. -/
theorem whole4_2 (c : Dev nD) (t : Fin cfg4.N) (x : S128x128.Idx) :
    iblk4 V c 2 t x = (V c main_v121 : S128x128.Idx → EReal) x := by
  obtain ⟨-, -, -, -, -, -, e0, e1, -, -, -, -, -, -, -, -, -, -, -, -, -, -⟩ := idx_facts4 t
  show (V c main_v121 : S128x128.Idx → EReal) (((cfg4.win 2).blk t).view.emb x) = _
  refine congrArg _ (funext fun a => Fin.ext ?_)
  match a with
  | ⟨0, _⟩ => show win4_2.index t (0 : Fin 2) * 128 + 1 * (x 0).val = (x 0).val; omega
  | ⟨1, _⟩ => show win4_2.index t (1 : Fin 2) * 128 + 1 * (x 1).val = (x 1).val; omega

/-- Window 3 is its whole array at every point. -/
theorem whole4_3 (c : Dev nD) (t : Fin cfg4.N) (x : S1x128.Idx) :
    iblk4 V c 3 t x = (V c main_v146 : S1x128.Idx → EReal) x := by
  obtain ⟨-, -, -, -, -, -, -, -, e0, e1, -, -, -, -, -, -, -, -, -, -, -, -⟩ := idx_facts4 t
  show (V c main_v146 : S1x128.Idx → EReal) (((cfg4.win 3).blk t).view.emb x) = _
  refine congrArg _ (funext fun a => Fin.ext ?_)
  match a with
  | ⟨0, _⟩ => show win4_3.index t (0 : Fin 2) * 1 + 1 * (x 0).val = (x 0).val; omega
  | ⟨1, _⟩ => show win4_3.index t (1 : Fin 2) * 128 + 1 * (x 1).val = (x 1).val; omega

/-- Window 4 is its whole array at every point. -/
theorem whole4_4 (c : Dev nD) (t : Fin cfg4.N) (x : S1x128.Idx) :
    iblk4 V c 4 t x = (V c main_v147 : S1x128.Idx → EReal) x := by
  obtain ⟨-, -, -, -, -, -, -, -, -, -, e0, e1, -, -, -, -, -, -, -, -, -, -⟩ := idx_facts4 t
  show (V c main_v147 : S1x128.Idx → EReal) (((cfg4.win 4).blk t).view.emb x) = _
  refine congrArg _ (funext fun a => Fin.ext ?_)
  match a with
  | ⟨0, _⟩ => show win4_4.index t (0 : Fin 2) * 1 + 1 * (x 0).val = (x 0).val; omega
  | ⟨1, _⟩ => show win4_4.index t (1 : Fin 2) * 128 + 1 * (x 1).val = (x 1).val; omega

/-- Window 5 is its whole array at every point. -/
theorem whole4_5 (c : Dev nD) (t : Fin cfg4.N) (x : S1x128.Idx) :
    iblk4 V c 5 t x = (V c main_v148 : S1x128.Idx → EReal) x := by
  obtain ⟨-, -, -, -, -, -, -, -, -, -, -, -, e0, e1, -, -, -, -, -, -, -, -⟩ := idx_facts4 t
  show (V c main_v148 : S1x128.Idx → EReal) (((cfg4.win 5).blk t).view.emb x) = _
  refine congrArg _ (funext fun a => Fin.ext ?_)
  match a with
  | ⟨0, _⟩ => show win4_5.index t (0 : Fin 2) * 1 + 1 * (x 0).val = (x 0).val; omega
  | ⟨1, _⟩ => show win4_5.index t (1 : Fin 2) * 128 + 1 * (x 1).val = (x 1).val; omega

/-- Window 6 is its whole array at every point. -/
theorem whole4_6 (c : Dev nD) (t : Fin cfg4.N) (x : S1x128.Idx) :
    iblk4 V c 6 t x = (V c main_v149 : S1x128.Idx → EReal) x := by
  obtain ⟨-, -, -, -, -, -, -, -, -, -, -, -, -, -, e0, e1, -, -, -, -, -, -⟩ := idx_facts4 t
  show (V c main_v149 : S1x128.Idx → EReal) (((cfg4.win 6).blk t).view.emb x) = _
  refine congrArg _ (funext fun a => Fin.ext ?_)
  match a with
  | ⟨0, _⟩ => show win4_6.index t (0 : Fin 2) * 1 + 1 * (x 0).val = (x 0).val; omega
  | ⟨1, _⟩ => show win4_6.index t (1 : Fin 2) * 128 + 1 * (x 1).val = (x 1).val; omega

/-- Window 7 is its whole array at every point. -/
theorem whole4_7 (c : Dev nD) (t : Fin cfg4.N) (x : S1x128.Idx) :
    iblk4 V c 7 t x = (V c main_v150 : S1x128.Idx → EReal) x := by
  obtain ⟨-, -, -, -, -, -, -, -, -, -, -, -, -, -, -, -, e0, e1, -, -, -, -⟩ := idx_facts4 t
  show (V c main_v150 : S1x128.Idx → EReal) (((cfg4.win 7).blk t).view.emb x) = _
  refine congrArg _ (funext fun a => Fin.ext ?_)
  match a with
  | ⟨0, _⟩ => show win4_7.index t (0 : Fin 2) * 1 + 1 * (x 0).val = (x 0).val; omega
  | ⟨1, _⟩ => show win4_7.index t (1 : Fin 2) * 128 + 1 * (x 1).val = (x 1).val; omega

/-- Window 8 is its whole array at every point. -/
theorem whole4_8 (c : Dev nD) (t : Fin cfg4.N) (x : S128x128.Idx) :
    iblk4 V c 8 t x = (V c main_v133 : S128x128.Idx → EReal) x := by
  obtain ⟨-, -, -, -, -, -, -, -, -, -, -, -, -, -, -, -, -, -, e0, e1, -, -⟩ := idx_facts4 t
  show (V c main_v133 : S128x128.Idx → EReal) (((cfg4.win 8).blk t).view.emb x) = _
  refine congrArg _ (funext fun a => Fin.ext ?_)
  match a with
  | ⟨0, _⟩ => show win4_8.index t (0 : Fin 2) * 128 + 1 * (x 0).val = (x 0).val; omega
  | ⟨1, _⟩ => show win4_8.index t (1 : Fin 2) * 128 + 1 * (x 1).val = (x 1).val; omega

/-- Window 9 is its whole array at every point. -/
theorem whole4_9 (c : Dev nD) (t : Fin cfg4.N) (x : S1x128.Idx) :
    iblk4 V c 9 t x = (V c main_v151 : S1x128.Idx → EReal) x := by
  obtain ⟨-, -, -, -, -, -, -, -, -, -, -, -, -, -, -, -, -, -, -, -, e0, e1⟩ := idx_facts4 t
  show (V c main_v151 : S1x128.Idx → EReal) (((cfg4.win 9).blk t).view.emb x) = _
  refine congrArg _ (funext fun a => Fin.ext ?_)
  match a with
  | ⟨0, _⟩ => show win4_9.index t (0 : Fin 2) * 1 + 1 * (x 0).val = (x 0).val; omega
  | ⟨1, _⟩ => show win4_9.index t (1 : Fin 2) * 128 + 1 * (x 1).val = (x 1).val; omega

/-- WHAT POINT `t` WRITES BACK is block `t` of the layer of the whole arrays. -/
theorem flushed_eq (c : Dev nD) (t : Fin cfg4.N) :
    (dat4 (F := Ideal) V c).flushed 10 t = ((cfg4.win 10).blk t).view.read (Elt Ideal) (G V c) := by
  show (cfg4.win 10).cut (grid4.coords t) ((dat4 (F := Ideal) V c).after 10 t) = _
  rw [after4_10, Pay.out4_eq (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t), Pay.out1_eq (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)]
  obtain ⟨o0, o1, a0, a1, b0, b1, -⟩ := idx_facts4 t
  funext y
  show GinLayer.layer (iblk4 V c 0 t) (iblk4 V c 1 t) (iblk4 V c 2 t) (fun j => (iblk4 V c 3 t) (ix2 (0 : Fin 1) j)) (fun j => (iblk4 V c 4 t) (ix2 (0 : Fin 1) j)) (fun j => (iblk4 V c 5 t) (ix2 (0 : Fin 1) j)) (fun j => (iblk4 V c 6 t) (ix2 (0 : Fin 1) j)) (fun j => (iblk4 V c 7 t) (ix2 (0 : Fin 1) j)) (iblk4 V c 8 t) (fun j => (iblk4 V c 9 t) (ix2 (0 : Fin 1) j)) y
    = G V c (((cfg4.win 10).blk t).view.emb y)
  unfold G
  refine GinLayer.layer_entry_congr _ _ _ _ _ _ _ _ _ _ _ _ _ _ _ _ _ _ _ _ _ _ ?_ ?_ ?_ ?_ ?_ ?_ ?_ ?_ ?_ ?_ ?_
  · exact Fin.ext (show (y 1).val = win4_10.index t (1 : Fin 2) * 128 + 1 * (y 1).val by omega)
  · intro d
    show (V c main_v119 : S100000x128.Idx → EReal) (((cfg4.win 0).blk t).view.emb (ix2 (y 0) d)) = _
    refine congrArg _ (funext fun a => Fin.ext ?_)
    match a with
    | ⟨0, _⟩ => show win4_0.index t (0 : Fin 2) * 5000 + 1 * (y 0).val = win4_10.index t (0 : Fin 2) * 5000 + 1 * (y 0).val; omega
    | ⟨1, _⟩ => show win4_0.index t (1 : Fin 2) * 128 + 1 * d.val = d.val; omega
  · intro d
    show (V c main_v145 : S100000x128.Idx → EReal) (((cfg4.win 1).blk t).view.emb (ix2 (y 0) d)) = _
    refine congrArg _ (funext fun a => Fin.ext ?_)
    match a with
    | ⟨0, _⟩ => show win4_1.index t (0 : Fin 2) * 5000 + 1 * (y 0).val = win4_10.index t (0 : Fin 2) * 5000 + 1 * (y 0).val; omega
    | ⟨1, _⟩ => show win4_1.index t (1 : Fin 2) * 128 + 1 * d.val = d.val; omega
  · exact funext fun x => whole4_2 V c t x
  · exact funext fun j => whole4_3 V c t _
  · exact funext fun j => whole4_4 V c t _
  · exact funext fun j => whole4_5 V c t _
  · exact funext fun j => whole4_6 V c t _
  · exact funext fun j => whole4_7 V c t _
  · exact funext fun x => whole4_8 V c t x
  · exact funext fun j => whole4_9 V c t _

/-- An index of the result array is in point `t`'s block iff each coordinate is in the block's range on its axis. -/
theorem mem_blk (t : Fin cfg4.N) (i : S100000x128.Idx) :
    i ∈ ((cfg4.win 10).blk t).view.set ↔ ∀ a : Fin 2, win4_10.index t a * S5000x128.size a ≤ (i a).val
      ∧ (i a).val < win4_10.index t a * S5000x128.size a + S5000x128.size a := by
  show i ∈ ((View.whole main_v152).slice (win4_10.rect t)).set ↔ _
  rw [View.set_slice_whole, Rect.mem_set_unit]
  exact Iff.rfl

/-- Every row of the result is in the block of the point numbered by the row's quotient by 5000. -/
theorem cover (i : S100000x128.Idx) :
    ∃ t : Fin cfg4.N, (cfg4.win 10).flush t = true ∧ i ∈ ((cfg4.win 10).blk t).view.set := by
  have hi0 : (i 0).val < 100000 := (i 0).isLt
  have hi1 : (i 1).val < 128 := (i 1).isLt
  obtain ⟨t, ht⟩ : ∃ t : Fin cfg4.N, t.val = (i 0).val / 5000 :=
    ⟨⟨(i 0).val / 5000, by rw [show cfg4.N = 20 from N_4]; omega⟩, rfl⟩
  obtain ⟨o0, o1, -⟩ := idx_facts4 t
  refine ⟨t, flush4_10 t, ?_⟩
  rw [mem_blk]
  intro a
  match a with
  | ⟨0, _⟩ => show win4_10.index t (0 : Fin 2) * 5000 ≤ (i 0).val ∧ (i 0).val < win4_10.index t (0 : Fin 2) * 5000 + 5000; omega
  | ⟨1, _⟩ => show win4_10.index t (1 : Fin 2) * 128 ≤ (i 1).val ∧ (i 1).val < win4_10.index t (1 : Fin 2) * 128 + 128; omega

/-- THE RESULT ARRAY after the call: the layer of the arrays the call finds. -/
theorem final (c : Dev nD) : (dat4 (F := Ideal) V c).arrAt 10 cfg4.N = G V c :=
  (dat4 (F := Ideal) V c).arrAt_eq_of_cover 10 (G V c) (fun t _ => flushed_eq V c t) cover

end Cert.KernelIdeal.Region4

end
-- ==== Proof.KernelStages.lean ====
/-
  The idealized kernel's result as the network of `LayerSpec` layers.

  Segment by segment through the kernel's run: a host stretch computes the neighbour sums and slices the stacked
  parameters, a call turns them into the next layer's output. The edge endpoints and the parameter stacks are written
  by no later host operation and are no call's array, so at every boundary they hold their functions of the launch
  arrays; each call's result array holds the layer of the previous call's result and its neighbour sums; the result
  buffer holds the read-out of the last call's result.
-/
import proofs.«130913_j56831007261128_1_alg».proof.Proof.KernelKeep
import proofs.«130913_j56831007261128_1_alg».proof.Proof.Region0
import proofs.«130913_j56831007261128_1_alg».proof.Proof.Region1
import proofs.«130913_j56831007261128_1_alg».proof.Proof.Region2
import proofs.«130913_j56831007261128_1_alg».proof.Proof.Region3
import proofs.«130913_j56831007261128_1_alg».proof.Proof.Region4
import Idealize.ShloMosaic.Lib.StableHlo.Run

set_option maxRecDepth 16384

noncomputable section

namespace Cert.KernelIdeal.KValue

open Cert.KernelIdeal Cert.KernelIdeal.Gen Cert.KernelIdeal.Terms
open Idealize.ShloMosaic Idealize.ShloMosaic.TcCoe Idealize.ShloMosaic.ValueIdx Idealize.ShloMosaic.StableHlo Idealize.SL.Sem
open Idealize.ShloMosaic.Pipeline

/-- Equal arguments, equal layers. -/
theorem layer_congr {N D : ℕ} {h h' a a' : (⟨2, ![N, D]⟩ : Shape).Idx → EReal} {W1 W1' : (⟨2, ![D, 128]⟩ : Shape).Idx → EReal}
    {b1 b1' g g' be be' mu mu' v v' : Fin 128 → EReal} {W2 W2' : (⟨2, ![128, 128]⟩ : Shape).Idx → EReal}
    {b2 b2' : Fin 128 → EReal} (e1 : h = h') (e2 : a = a') (e3 : W1 = W1') (e4 : b1 = b1') (e5 : g = g') (e6 : be = be')
    (e7 : mu = mu') (e8 : v = v') (e9 : W2 = W2') (e10 : b2 = b2') :
    GinLayer.layer h a W1 b1 g be mu v W2 b2 = GinLayer.layer h' a' W1' b1' g' be' mu' v' W2' b2' := by
  subst e1 e2 e3 e4 e5 e6 e7 e8 e9 e10; rfl

variable (m : (ℓ : Loc nD τ sig) → Buf (Elt Ideal) ℓ) (ρ : Dev nD → PrngReg) (c : Dev nD)

/-! ## The calls' result arrays -/

set_option maxHeartbeats 8000000 in
/-- After the first call its result array holds `h1`. -/
theorem kh1 : (W2 m ρ c (Proc.devRef .tc main_v20) : FVec Ideal S100000x128 .f32) = h1 m c := by
  refine (W2_arr m ρ c 10).trans ?_
  refine (Region0.final (V1 m ρ) c).trans ?_
  unfold Region0.G h1
  refine layer_congr ?_ ?_ ?_ ?_ ?_ ?_ ?_ ?_ ?_ ?_
  · show StableHlo.after hostOps0 (W0 m ρ c) (Proc.devRef .tc main_arg0) = _
    after_results_simp
    all_goals rfl
  · show StableHlo.after hostOps0 (W0 m ρ c) (Proc.devRef .tc main_v13) = _
    after_results_simp
    all_goals rfl
  · show StableHlo.after hostOps0 (W0 m ρ c) (Proc.devRef .tc main_arg3) = _
    after_results_simp
    all_goals rfl
  · have e : (V1 m ρ c main_v14 : S1x128.Idx → EReal) = shapeCast S1x128 (m ((c.tc : Thread nD τ).loc main_arg4) : FVec Ideal S128 .f32) shapeCasts_S128_S1x128 := by
      show StableHlo.after hostOps0 (W0 m ρ c) (Proc.devRef .tc main_v14) = _
      after_results_simp
      all_goals rfl
    exact funext fun j => (congrFun e _).trans (shapeCast_a_1a_apply _ _ 0 j)
  · have e : (V1 m ρ c main_v15 : S1x128.Idx → EReal) = shapeCast S1x128 (m ((c.tc : Thread nD τ).loc main_arg5) : FVec Ideal S128 .f32) shapeCasts_S128_S1x128 := by
      show StableHlo.after hostOps0 (W0 m ρ c) (Proc.devRef .tc main_v15) = _
      after_results_simp
      all_goals rfl
    exact funext fun j => (congrFun e _).trans (shapeCast_a_1a_apply _ _ 0 j)
  · have e : (V1 m ρ c main_v16 : S1x128.Idx → EReal) = shapeCast S1x128 (m ((c.tc : Thread nD τ).loc main_arg6) : FVec Ideal S128 .f32) shapeCasts_S128_S1x128 := by
      show StableHlo.after hostOps0 (W0 m ρ c) (Proc.devRef .tc main_v16) = _
      after_results_simp
      all_goals rfl
    exact funext fun j => (congrFun e _).trans (shapeCast_a_1a_apply _ _ 0 j)
  · have e : (V1 m ρ c main_v17 : S1x128.Idx → EReal) = shapeCast S1x128 (m ((c.tc : Thread nD τ).loc main_arg7) : FVec Ideal S128 .f32) shapeCasts_S128_S1x128 := by
      show StableHlo.after hostOps0 (W0 m ρ c) (Proc.devRef .tc main_v17) = _
      after_results_simp
      all_goals rfl
    exact funext fun j => (congrFun e _).trans (shapeCast_a_1a_apply _ _ 0 j)
  · have e : (V1 m ρ c main_v18 : S1x128.Idx → EReal) = shapeCast S1x128 (m ((c.tc : Thread nD τ).loc main_arg8) : FVec Ideal S128 .f32) shapeCasts_S128_S1x128 := by
      show StableHlo.after hostOps0 (W0 m ρ c) (Proc.devRef .tc main_v18) = _
      after_results_simp
      all_goals rfl
    exact funext fun j => (congrFun e _).trans (shapeCast_a_1a_apply _ _ 0 j)
  · show StableHlo.after hostOps0 (W0 m ρ c) (Proc.devRef .tc main_arg9) = _
    after_results_simp
    all_goals rfl
  · have e : (V1 m ρ c main_v19 : S1x128.Idx → EReal) = shapeCast S1x128 (m ((c.tc : Thread nD τ).loc main_arg10) : FVec Ideal S128 .f32) shapeCasts_S128_S1x128 := by
      show StableHlo.after hostOps0 (W0 m ρ c) (Proc.devRef .tc main_v19) = _
      after_results_simp
      all_goals rfl
    exact funext fun j => (congrFun e _).trans (shapeCast_a_1a_apply _ _ 0 j)
set_option maxHeartbeats 8000000 in
/-- After call 2 its result array holds `h2`. -/
theorem kh2 : (W4 m ρ c (Proc.devRef .tc main_v53) : FVec Ideal S100000x128 .f32) = h2 m c := by
  refine (W4_arr m ρ c 10).trans ?_
  refine (Region1.final (V3 m ρ) c).trans ?_
  unfold Region1.G h2
  refine layer_congr ?_ ?_ ?_ ?_ ?_ ?_ ?_ ?_ ?_ ?_
  · show StableHlo.after hostOps1 (W2 m ρ c) (Proc.devRef .tc main_v20) = _
    after_results_simp
    exact kh1 m ρ c
  · show StableHlo.after hostOps1 (W2 m ρ c) (Proc.devRef .tc main_v46) = _
    after_results_simp
    rw [kh1 m ρ c, k2_main_v1 m ρ c, k2_main_v3 m ρ c]
    all_goals rfl
  · show StableHlo.after hostOps1 (W2 m ρ c) (Proc.devRef .tc main_v22) = _
    after_results_simp
    rw [k2_main_arg11 m ρ c]
    all_goals rfl
  · have e : (V3 m ρ c main_v47 : S1x128.Idx → EReal) = shapeCast S1x128 (row0 (m ((c.tc : Thread nD τ).loc main_arg12) : FVec Ideal S4x128 .f32)) shapeCasts_S128_S1x128 := by
      show StableHlo.after hostOps1 (W2 m ρ c) (Proc.devRef .tc main_v47) = _
      after_results_simp
      rw [k2_main_arg12 m ρ c]
      all_goals rfl
    exact funext fun j => (congrFun e _).trans (shapeCast_a_1a_apply _ _ 0 j)
  · have e : (V3 m ρ c main_v48 : S1x128.Idx → EReal) = shapeCast S1x128 (row0 (m ((c.tc : Thread nD τ).loc main_arg13) : FVec Ideal S4x128 .f32)) shapeCasts_S128_S1x128 := by
      show StableHlo.after hostOps1 (W2 m ρ c) (Proc.devRef .tc main_v48) = _
      after_results_simp
      rw [k2_main_arg13 m ρ c]
      all_goals rfl
    exact funext fun j => (congrFun e _).trans (shapeCast_a_1a_apply _ _ 0 j)
  · have e : (V3 m ρ c main_v49 : S1x128.Idx → EReal) = shapeCast S1x128 (row0 (m ((c.tc : Thread nD τ).loc main_arg14) : FVec Ideal S4x128 .f32)) shapeCasts_S128_S1x128 := by
      show StableHlo.after hostOps1 (W2 m ρ c) (Proc.devRef .tc main_v49) = _
      after_results_simp
      rw [k2_main_arg14 m ρ c]
      all_goals rfl
    exact funext fun j => (congrFun e _).trans (shapeCast_a_1a_apply _ _ 0 j)
  · have e : (V3 m ρ c main_v50 : S1x128.Idx → EReal) = shapeCast S1x128 (row0 (m ((c.tc : Thread nD τ).loc main_arg15) : FVec Ideal S4x128 .f32)) shapeCasts_S128_S1x128 := by
      show StableHlo.after hostOps1 (W2 m ρ c) (Proc.devRef .tc main_v50) = _
      after_results_simp
      rw [k2_main_arg15 m ρ c]
      all_goals rfl
    exact funext fun j => (congrFun e _).trans (shapeCast_a_1a_apply _ _ 0 j)
  · have e : (V3 m ρ c main_v51 : S1x128.Idx → EReal) = shapeCast S1x128 (row0 (m ((c.tc : Thread nD τ).loc main_arg16) : FVec Ideal S4x128 .f32)) shapeCasts_S128_S1x128 := by
      show StableHlo.after hostOps1 (W2 m ρ c) (Proc.devRef .tc main_v51) = _
      after_results_simp
      rw [k2_main_arg16 m ρ c]
      all_goals rfl
    exact funext fun j => (congrFun e _).trans (shapeCast_a_1a_apply _ _ 0 j)
  · show StableHlo.after hostOps1 (W2 m ρ c) (Proc.devRef .tc main_v34) = _
    after_results_simp
    rw [k2_main_arg17 m ρ c]
    all_goals rfl
  · have e : (V3 m ρ c main_v52 : S1x128.Idx → EReal) = shapeCast S1x128 (row0 (m ((c.tc : Thread nD τ).loc main_arg18) : FVec Ideal S4x128 .f32)) shapeCasts_S128_S1x128 := by
      show StableHlo.after hostOps1 (W2 m ρ c) (Proc.devRef .tc main_v52) = _
      after_results_simp
      rw [k2_main_arg18 m ρ c]
      all_goals rfl
    exact funext fun j => (congrFun e _).trans (shapeCast_a_1a_apply _ _ 0 j)
set_option maxHeartbeats 8000000 in
/-- After call 3 its result array holds `h3`. -/
theorem kh3 : (W6 m ρ c (Proc.devRef .tc main_v86) : FVec Ideal S100000x128 .f32) = h3 m c := by
  refine (W6_arr m ρ c 10).trans ?_
  refine (Region2.final (V5 m ρ) c).trans ?_
  unfold Region2.G h3
  refine layer_congr ?_ ?_ ?_ ?_ ?_ ?_ ?_ ?_ ?_ ?_
  · show StableHlo.after hostOps2 (W4 m ρ c) (Proc.devRef .tc main_v53) = _
    after_results_simp
    exact kh2 m ρ c
  · show StableHlo.after hostOps2 (W4 m ρ c) (Proc.devRef .tc main_v79) = _
    after_results_simp
    rw [kh2 m ρ c, k4_main_v1 m ρ c, k4_main_v3 m ρ c]
    all_goals rfl
  · show StableHlo.after hostOps2 (W4 m ρ c) (Proc.devRef .tc main_v55) = _
    after_results_simp
    rw [k4_main_arg11 m ρ c]
    all_goals rfl
  · have e : (V5 m ρ c main_v80 : S1x128.Idx → EReal) = shapeCast S1x128 (row1 (m ((c.tc : Thread nD τ).loc main_arg12) : FVec Ideal S4x128 .f32)) shapeCasts_S128_S1x128 := by
      show StableHlo.after hostOps2 (W4 m ρ c) (Proc.devRef .tc main_v80) = _
      after_results_simp
      rw [k4_main_arg12 m ρ c]
      all_goals rfl
    exact funext fun j => (congrFun e _).trans (shapeCast_a_1a_apply _ _ 0 j)
  · have e : (V5 m ρ c main_v81 : S1x128.Idx → EReal) = shapeCast S1x128 (row1 (m ((c.tc : Thread nD τ).loc main_arg13) : FVec Ideal S4x128 .f32)) shapeCasts_S128_S1x128 := by
      show StableHlo.after hostOps2 (W4 m ρ c) (Proc.devRef .tc main_v81) = _
      after_results_simp
      rw [k4_main_arg13 m ρ c]
      all_goals rfl
    exact funext fun j => (congrFun e _).trans (shapeCast_a_1a_apply _ _ 0 j)
  · have e : (V5 m ρ c main_v82 : S1x128.Idx → EReal) = shapeCast S1x128 (row1 (m ((c.tc : Thread nD τ).loc main_arg14) : FVec Ideal S4x128 .f32)) shapeCasts_S128_S1x128 := by
      show StableHlo.after hostOps2 (W4 m ρ c) (Proc.devRef .tc main_v82) = _
      after_results_simp
      rw [k4_main_arg14 m ρ c]
      all_goals rfl
    exact funext fun j => (congrFun e _).trans (shapeCast_a_1a_apply _ _ 0 j)
  · have e : (V5 m ρ c main_v83 : S1x128.Idx → EReal) = shapeCast S1x128 (row1 (m ((c.tc : Thread nD τ).loc main_arg15) : FVec Ideal S4x128 .f32)) shapeCasts_S128_S1x128 := by
      show StableHlo.after hostOps2 (W4 m ρ c) (Proc.devRef .tc main_v83) = _
      after_results_simp
      rw [k4_main_arg15 m ρ c]
      all_goals rfl
    exact funext fun j => (congrFun e _).trans (shapeCast_a_1a_apply _ _ 0 j)
  · have e : (V5 m ρ c main_v84 : S1x128.Idx → EReal) = shapeCast S1x128 (row1 (m ((c.tc : Thread nD τ).loc main_arg16) : FVec Ideal S4x128 .f32)) shapeCasts_S128_S1x128 := by
      show StableHlo.after hostOps2 (W4 m ρ c) (Proc.devRef .tc main_v84) = _
      after_results_simp
      rw [k4_main_arg16 m ρ c]
      all_goals rfl
    exact funext fun j => (congrFun e _).trans (shapeCast_a_1a_apply _ _ 0 j)
  · show StableHlo.after hostOps2 (W4 m ρ c) (Proc.devRef .tc main_v67) = _
    after_results_simp
    rw [k4_main_arg17 m ρ c]
    all_goals rfl
  · have e : (V5 m ρ c main_v85 : S1x128.Idx → EReal) = shapeCast S1x128 (row1 (m ((c.tc : Thread nD τ).loc main_arg18) : FVec Ideal S4x128 .f32)) shapeCasts_S128_S1x128 := by
      show StableHlo.after hostOps2 (W4 m ρ c) (Proc.devRef .tc main_v85) = _
      after_results_simp
      rw [k4_main_arg18 m ρ c]
      all_goals rfl
    exact funext fun j => (congrFun e _).trans (shapeCast_a_1a_apply _ _ 0 j)
set_option maxHeartbeats 8000000 in
/-- After call 4 its result array holds `h4`. -/
theorem kh4 : (W8 m ρ c (Proc.devRef .tc main_v119) : FVec Ideal S100000x128 .f32) = h4 m c := by
  refine (W8_arr m ρ c 10).trans ?_
  refine (Region3.final (V7 m ρ) c).trans ?_
  unfold Region3.G h4
  refine layer_congr ?_ ?_ ?_ ?_ ?_ ?_ ?_ ?_ ?_ ?_
  · show StableHlo.after hostOps3 (W6 m ρ c) (Proc.devRef .tc main_v86) = _
    after_results_simp
    exact kh3 m ρ c
  · show StableHlo.after hostOps3 (W6 m ρ c) (Proc.devRef .tc main_v112) = _
    after_results_simp
    rw [kh3 m ρ c, k6_main_v1 m ρ c, k6_main_v3 m ρ c]
    all_goals rfl
  · show StableHlo.after hostOps3 (W6 m ρ c) (Proc.devRef .tc main_v88) = _
    after_results_simp
    rw [k6_main_arg11 m ρ c]
    all_goals rfl
  · have e : (V7 m ρ c main_v113 : S1x128.Idx → EReal) = shapeCast S1x128 (row2 (m ((c.tc : Thread nD τ).loc main_arg12) : FVec Ideal S4x128 .f32)) shapeCasts_S128_S1x128 := by
      show StableHlo.after hostOps3 (W6 m ρ c) (Proc.devRef .tc main_v113) = _
      after_results_simp
      rw [k6_main_arg12 m ρ c]
      all_goals rfl
    exact funext fun j => (congrFun e _).trans (shapeCast_a_1a_apply _ _ 0 j)
  · have e : (V7 m ρ c main_v114 : S1x128.Idx → EReal) = shapeCast S1x128 (row2 (m ((c.tc : Thread nD τ).loc main_arg13) : FVec Ideal S4x128 .f32)) shapeCasts_S128_S1x128 := by
      show StableHlo.after hostOps3 (W6 m ρ c) (Proc.devRef .tc main_v114) = _
      after_results_simp
      rw [k6_main_arg13 m ρ c]
      all_goals rfl
    exact funext fun j => (congrFun e _).trans (shapeCast_a_1a_apply _ _ 0 j)
  · have e : (V7 m ρ c main_v115 : S1x128.Idx → EReal) = shapeCast S1x128 (row2 (m ((c.tc : Thread nD τ).loc main_arg14) : FVec Ideal S4x128 .f32)) shapeCasts_S128_S1x128 := by
      show StableHlo.after hostOps3 (W6 m ρ c) (Proc.devRef .tc main_v115) = _
      after_results_simp
      rw [k6_main_arg14 m ρ c]
      all_goals rfl
    exact funext fun j => (congrFun e _).trans (shapeCast_a_1a_apply _ _ 0 j)
  · have e : (V7 m ρ c main_v116 : S1x128.Idx → EReal) = shapeCast S1x128 (row2 (m ((c.tc : Thread nD τ).loc main_arg15) : FVec Ideal S4x128 .f32)) shapeCasts_S128_S1x128 := by
      show StableHlo.after hostOps3 (W6 m ρ c) (Proc.devRef .tc main_v116) = _
      after_results_simp
      rw [k6_main_arg15 m ρ c]
      all_goals rfl
    exact funext fun j => (congrFun e _).trans (shapeCast_a_1a_apply _ _ 0 j)
  · have e : (V7 m ρ c main_v117 : S1x128.Idx → EReal) = shapeCast S1x128 (row2 (m ((c.tc : Thread nD τ).loc main_arg16) : FVec Ideal S4x128 .f32)) shapeCasts_S128_S1x128 := by
      show StableHlo.after hostOps3 (W6 m ρ c) (Proc.devRef .tc main_v117) = _
      after_results_simp
      rw [k6_main_arg16 m ρ c]
      all_goals rfl
    exact funext fun j => (congrFun e _).trans (shapeCast_a_1a_apply _ _ 0 j)
  · show StableHlo.after hostOps3 (W6 m ρ c) (Proc.devRef .tc main_v100) = _
    after_results_simp
    rw [k6_main_arg17 m ρ c]
    all_goals rfl
  · have e : (V7 m ρ c main_v118 : S1x128.Idx → EReal) = shapeCast S1x128 (row2 (m ((c.tc : Thread nD τ).loc main_arg18) : FVec Ideal S4x128 .f32)) shapeCasts_S128_S1x128 := by
      show StableHlo.after hostOps3 (W6 m ρ c) (Proc.devRef .tc main_v118) = _
      after_results_simp
      rw [k6_main_arg18 m ρ c]
      all_goals rfl
    exact funext fun j => (congrFun e _).trans (shapeCast_a_1a_apply _ _ 0 j)
set_option maxHeartbeats 8000000 in
/-- After call 5 its result array holds `h5`. -/
theorem kh5 : (W10 m ρ c (Proc.devRef .tc main_v152) : FVec Ideal S100000x128 .f32) = h5 m c := by
  refine (W10_arr m ρ c 10).trans ?_
  refine (Region4.final (V9 m ρ) c).trans ?_
  unfold Region4.G h5
  refine layer_congr ?_ ?_ ?_ ?_ ?_ ?_ ?_ ?_ ?_ ?_
  · show StableHlo.after hostOps4 (W8 m ρ c) (Proc.devRef .tc main_v119) = _
    after_results_simp
    exact kh4 m ρ c
  · show StableHlo.after hostOps4 (W8 m ρ c) (Proc.devRef .tc main_v145) = _
    after_results_simp
    rw [kh4 m ρ c, k8_main_v1 m ρ c, k8_main_v3 m ρ c]
    all_goals rfl
  · show StableHlo.after hostOps4 (W8 m ρ c) (Proc.devRef .tc main_v121) = _
    after_results_simp
    rw [k8_main_arg11 m ρ c]
    all_goals rfl
  · have e : (V9 m ρ c main_v146 : S1x128.Idx → EReal) = shapeCast S1x128 (row3 (m ((c.tc : Thread nD τ).loc main_arg12) : FVec Ideal S4x128 .f32)) shapeCasts_S128_S1x128 := by
      show StableHlo.after hostOps4 (W8 m ρ c) (Proc.devRef .tc main_v146) = _
      after_results_simp
      rw [k8_main_arg12 m ρ c]
      all_goals rfl
    exact funext fun j => (congrFun e _).trans (shapeCast_a_1a_apply _ _ 0 j)
  · have e : (V9 m ρ c main_v147 : S1x128.Idx → EReal) = shapeCast S1x128 (row3 (m ((c.tc : Thread nD τ).loc main_arg13) : FVec Ideal S4x128 .f32)) shapeCasts_S128_S1x128 := by
      show StableHlo.after hostOps4 (W8 m ρ c) (Proc.devRef .tc main_v147) = _
      after_results_simp
      rw [k8_main_arg13 m ρ c]
      all_goals rfl
    exact funext fun j => (congrFun e _).trans (shapeCast_a_1a_apply _ _ 0 j)
  · have e : (V9 m ρ c main_v148 : S1x128.Idx → EReal) = shapeCast S1x128 (row3 (m ((c.tc : Thread nD τ).loc main_arg14) : FVec Ideal S4x128 .f32)) shapeCasts_S128_S1x128 := by
      show StableHlo.after hostOps4 (W8 m ρ c) (Proc.devRef .tc main_v148) = _
      after_results_simp
      rw [k8_main_arg14 m ρ c]
      all_goals rfl
    exact funext fun j => (congrFun e _).trans (shapeCast_a_1a_apply _ _ 0 j)
  · have e : (V9 m ρ c main_v149 : S1x128.Idx → EReal) = shapeCast S1x128 (row3 (m ((c.tc : Thread nD τ).loc main_arg15) : FVec Ideal S4x128 .f32)) shapeCasts_S128_S1x128 := by
      show StableHlo.after hostOps4 (W8 m ρ c) (Proc.devRef .tc main_v149) = _
      after_results_simp
      rw [k8_main_arg15 m ρ c]
      all_goals rfl
    exact funext fun j => (congrFun e _).trans (shapeCast_a_1a_apply _ _ 0 j)
  · have e : (V9 m ρ c main_v150 : S1x128.Idx → EReal) = shapeCast S1x128 (row3 (m ((c.tc : Thread nD τ).loc main_arg16) : FVec Ideal S4x128 .f32)) shapeCasts_S128_S1x128 := by
      show StableHlo.after hostOps4 (W8 m ρ c) (Proc.devRef .tc main_v150) = _
      after_results_simp
      rw [k8_main_arg16 m ρ c]
      all_goals rfl
    exact funext fun j => (congrFun e _).trans (shapeCast_a_1a_apply _ _ 0 j)
  · show StableHlo.after hostOps4 (W8 m ρ c) (Proc.devRef .tc main_v133) = _
    after_results_simp
    rw [k8_main_arg17 m ρ c]
    all_goals rfl
  · have e : (V9 m ρ c main_v151 : S1x128.Idx → EReal) = shapeCast S1x128 (row3 (m ((c.tc : Thread nD τ).loc main_arg18) : FVec Ideal S4x128 .f32)) shapeCasts_S128_S1x128 := by
      show StableHlo.after hostOps4 (W8 m ρ c) (Proc.devRef .tc main_v151) = _
      after_results_simp
      rw [k8_main_arg18 m ρ c]
      all_goals rfl
    exact funext fun j => (congrFun e _).trans (shapeCast_a_1a_apply _ _ 0 j)
set_option maxHeartbeats 8000000 in
/-- At the return the result buffer holds the read-out of `h5`. -/
theorem k_out : (W11 m ρ c (Proc.devRef .tc main_v160) : FVec Ideal S1000 .f32) = out m c := by
  show StableHlo.after hostOps5 (W10 m ρ c) (Proc.devRef .tc main_v160) = _
  after_results_simp
  rw [kh5 m ρ c, k10_main_arg2 m ρ c, k10_main_arg19 m ρ c, k10_main_arg20 m ρ c]
  all_goals rfl

end Cert.KernelIdeal.KValue

end
-- ==== Proof.RefRun.lean ====
/-
  The reference program's run, in six stretches.

  The reference is a straight line of host operations. Its operations are listed here in program order, cut after
  each layer's clamped output, so that the buffer contents at each cut are one valuation folded from the previous
  one (`StableHlo.after`). Every weakly fair execution of the program terminates with every buffer at the last
  valuation's contents; in particular the result buffer and, since no operation writes them, the arguments.
-/
import proofs.«130913_j56831007261128_1_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The edge endpoints, then layer 1: neighbour sums of the node features and the layer's operations, up to its clamped output. -/
abbrev opsL0 : List (HloOp τ sig (Elt F)) :=
  ( unary main_arg1 main_v0 ((extractStridedSlice S1x600000 ![0, 0] · slices_S2x600000_S1x600000_0_0) : (⟨S2x600000, .i32⟩ : BufTy).Contents (Elt F) → (⟨S1x600000, .i32⟩ : BufTy).Contents (Elt F))
  :: reshape main_v0 main_v1 rfl shapeCasts_S1x600000_S600000
  :: unary main_arg1 main_v2 ((extractStridedSlice S1x600000 ![1, 0] · slices_S2x600000_S1x600000_1_0) : (⟨S2x600000, .i32⟩ : BufTy).Contents (Elt F) → (⟨S1x600000, .i32⟩ : BufTy).Contents (Elt F))
  :: reshape main_v2 main_v3 rfl shapeCasts_S1x600000_S600000
  :: nullary main_c (constantI S_ 32 0#32)
  :: unary main_c main_v4 (broadcastInDim S600000 ![] bcast_S_S600000 : (⟨S_, .i32⟩ : BufTy).Contents (Elt F) → (⟨S600000, .i32⟩ : BufTy).Contents (Elt F))
  :: binary main_v1 main_v4 main_v5 (cmpi .slt : (⟨S600000, .i32⟩ : BufTy).Contents (Elt F) → (⟨S600000, .i32⟩ : BufTy).Contents (Elt F) → (⟨S600000, .i1⟩ : BufTy).Contents (Elt F))
  :: nullary main_c_0 (constantI S_ 32 100000#32)
  :: unary main_c_0 main_v6 (broadcastInDim S600000 ![] bcast_S_S600000 : (⟨S_, .i32⟩ : BufTy).Contents (Elt F) → (⟨S600000, .i32⟩ : BufTy).Contents (Elt F))
  :: binary main_v1 main_v6 main_v7 (addi : (⟨S600000, .i32⟩ : BufTy).Contents (Elt F) → (⟨S600000, .i32⟩ : BufTy).Contents (Elt F) → (⟨S600000, .i32⟩ : BufTy).Contents (Elt F))
  :: ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: unary main_v8 main_v9 (broadcastInDim S600000x1 ![0] bcast_S600000_S600000x1_0 : (⟨S600000, .i32⟩ : BufTy).Contents (Elt F) → (⟨S600000x1, .i32⟩ : BufTy).Contents (Elt F))
  :: binary main_arg0 main_v9 main_v10 ((fun x i => Host.gather gather_S100000x3_S600000x1_S600000x3_1_0_n_n_0_1_13 x i) : (⟨S100000x3, .f32⟩ : BufTy).Contents (Elt F) → (⟨S600000x1, .i32⟩ : BufTy).Contents (Elt F) → (⟨S600000x3, .f32⟩ : BufTy).Contents (Elt F))
  :: nullary main_cst (constant S_ .f32 0x00000000#32)
  :: unary main_cst main_v11 (broadcastInDim S100000x3 ![] bcast_S_S100000x3 : (⟨S_, .f32⟩ : BufTy).Contents (Elt F) → (⟨S100000x3, .f32⟩ : BufTy).Contents (Elt F))
  :: unary main_v3 main_v12 (broadcastInDim S600000x1 ![0] bcast_S600000_S600000x1_0 : (⟨S600000, .i32⟩ : BufTy).Contents (Elt F) → (⟨S600000x1, .i32⟩ : BufTy).Contents (Elt F))
  :: ternary main_v11 main_v12 main_v10 main_v13 ((fun x i u => Host.scatterAdd scatter_S100000x3_S600000x1_S600000x3_1_0_0_1 x i u) : (⟨S100000x3, .f32⟩ : BufTy).Contents (Elt F) → (⟨S600000x1, .i32⟩ : BufTy).Contents (Elt F) → (⟨S600000x3, .f32⟩ : BufTy).Contents (Elt F) → (⟨S100000x3, .f32⟩ : BufTy).Contents (Elt F))
  :: binary main_arg0 main_v13 main_v14 (addf : (⟨S100000x3, .f32⟩ : BufTy).Contents (Elt F) → (⟨S100000x3, .f32⟩ : BufTy).Contents (Elt F) → (⟨S100000x3, .f32⟩ : BufTy).Contents (Elt F))
  :: binary main_v14 main_arg3 main_v15 ((fun l r => Host.dotGeneral dot_S100000x3_S3x128_S100000x128_1_0_0_1_n_n none l r) : (⟨S100000x3, .f32⟩ : BufTy).Contents (Elt F) → (⟨S3x128, .f32⟩ : BufTy).Contents (Elt F) → (⟨S100000x128, .f32⟩ : BufTy).Contents (Elt F))
  :: unary main_arg4 main_v16 (broadcastInDim S1x128 ![1] bcast_S128_S1x128_1 : (⟨S128, .f32⟩ : BufTy).Contents (Elt F) → (⟨S1x128, .f32⟩ : BufTy).Contents (Elt F))
  :: unary main_v16 main_v17 (broadcastInDim S100000x128 ![0, 1] bcast_S1x128_S100000x128_0_1 : (⟨S1x128, .f32⟩ : BufTy).Contents (Elt F) → (⟨S100000x128, .f32⟩ : BufTy).Contents (Elt F))
  :: binary main_v15 main_v17 main_v18 (addf : (⟨S100000x128, .f32⟩ : BufTy).Contents (Elt F) → (⟨S100000x128, .f32⟩ : BufTy).Contents (Elt F) → (⟨S100000x128, .f32⟩ : BufTy).Contents (Elt F))
  :: unary main_arg7 main_v19 (broadcastInDim S1x128 ![1] bcast_S128_S1x128_1 : (⟨S128, .f32⟩ : BufTy).Contents (Elt F) → (⟨S1x128, .f32⟩ : BufTy).Contents (Elt F))
  :: unary main_v19 main_v20 (broadcastInDim S100000x128 ![0, 1] bcast_S1x128_S100000x128_0_1 : (⟨S1x128, .f32⟩ : BufTy).Contents (Elt F) → (⟨S100000x128, .f32⟩ : BufTy).Contents (Elt F))
  :: binary main_v18 main_v20 main_v21 (subf : (⟨S100000x128, .f32⟩ : BufTy).Contents (Elt F) → (⟨S100000x128, .f32⟩ : BufTy).Contents (Elt F) → (⟨S100000x128, .f32⟩ : BufTy).Contents (Elt F))
  :: unary main_arg5 main_v22 (broadcastInDim S1x128 ![1] bcast_S128_S1x128_1 : (⟨S128, .f32⟩ : BufTy).Contents (Elt F) → (⟨S1x128, .f32⟩ : BufTy).Contents (Elt F))
  :: unary main_v22 main_v23 (broadcastInDim S100000x128 ![0, 1] bcast_S1x128_S100000x128_0_1 : (⟨S1x128, .f32⟩ : BufTy).Contents (Elt F) → (⟨S100000x128, .f32⟩ : BufTy).Contents (Elt F))
  :: binary main_v23 main_v21 main_v24 (mulf : (⟨S100000x128, .f32⟩ : BufTy).Contents (Elt F) → (⟨S100000x128, .f32⟩ : BufTy).Contents (Elt F) → (⟨S100000x128, .f32⟩ : BufTy).Contents (Elt F))
  :: nullary main_cst_1 (constant S_ .f32 0x3727C5AC#32)
  :: unary main_cst_1 main_v25 (broadcastInDim S128 ![] bcast_S_S128 : (⟨S_, .f32⟩ : BufTy).Contents (Elt F) → (⟨S128, .f32⟩ : BufTy).Contents (Elt F))
  :: binary main_arg8 main_v25 main_v26 (addf : (⟨S128, .f32⟩ : BufTy).Contents (Elt F) → (⟨S128, .f32⟩ : BufTy).Contents (Elt F) → (⟨S128, .f32⟩ : BufTy).Contents (Elt F))
  :: unary main_v26 main_v27 (Host.rsqrt : (⟨S128, .f32⟩ : BufTy).Contents (Elt F) → (⟨S128, .f32⟩ : BufTy).Contents (Elt F))
  :: unary main_v27 main_v28 (broadcastInDim S1x128 ![1] bcast_S128_S1x128_1 : (⟨S128, .f32⟩ : BufTy).Contents (Elt F) → (⟨S1x128, .f32⟩ : BufTy).Contents (Elt F))
  :: unary main_v28 main_v29 (broadcastInDim S100000x128 ![0, 1] bcast_S1x128_S100000x128_0_1 : (⟨S1x128, .f32⟩ : BufTy).Contents (Elt F) → (⟨S100000x128, .f32⟩ : BufTy).Contents (Elt F))
  :: binary main_v24 main_v29 main_v30 (mulf : (⟨S100000x128, .f32⟩ : BufTy).Contents (Elt F) → (⟨S100000x128, .f32⟩ : BufTy).Contents (Elt F) → (⟨S100000x128, .f32⟩ : BufTy).Contents (Elt F))
  :: unary main_arg6 main_v31 (broadcastInDim S1x128 ![1] bcast_S128_S1x128_1 : (⟨S128, .f32⟩ : BufTy).Contents (Elt F) → (⟨S1x128, .f32⟩ : BufTy).Contents (Elt F))
  :: unary main_v31 main_v32 (broadcastInDim S100000x128 ![0, 1] bcast_S1x128_S100000x128_0_1 : (⟨S1x128, .f32⟩ : BufTy).Contents (Elt F) → (⟨S100000x128, .f32⟩ : BufTy).Contents (Elt F))
  :: binary main_v30 main_v32 main_v33 (addf : (⟨S100000x128, .f32⟩ : BufTy).Contents (Elt F) → (⟨S100000x128, .f32⟩ : BufTy).Contents (Elt F) → (⟨S100000x128, .f32⟩ : BufTy).Contents (Elt F))
  :: TRef.nullary (TRef.of (T := ⟨S_, .f32⟩) main_call0_cst) (constant S_ .f32 0x00000000#32)
  :: TRef.unary (TRef.of (T := ⟨S_, .f32⟩) main_call0_cst) (TRef.of (T := ⟨S100000x128, .f32⟩) main_call0_v0) (broadcastInDim S100000x128 ![] bcast_S_S100000x128)
  :: TRef.binary (TRef.of (T := ⟨S100000x128, .f32⟩) main_v33) (TRef.of (T := ⟨S100000x128, .f32⟩) main_call0_v0) (TRef.of (T := ⟨S100000x128, .f32⟩) main_v34) maximumf
  :: binary main_v34 main_arg9 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: unary main_arg10 main_v36 (broadcastInDim S1x128 ![1] bcast_S128_S1x128_1 : (⟨S128, .f32⟩ : BufTy).Contents (Elt F) → (⟨S1x128, .f32⟩ : BufTy).Contents (Elt F))
  :: unary main_v36 main_v37 (broadcastInDim S100000x128 ![0, 1] bcast_S1x128_S100000x128_0_1 : (⟨S1x128, .f32⟩ : BufTy).Contents (Elt F) → (⟨S100000x128, .f32⟩ : BufTy).Contents (Elt F))
  :: binary main_v35 main_v37 main_v38 (addf : (⟨S100000x128, .f32⟩ : BufTy).Contents (Elt F) → (⟨S100000x128, .f32⟩ : BufTy).Contents (Elt F) → (⟨S100000x128, .f32⟩ : BufTy).Contents (Elt F))
  :: TRef.nullary (TRef.of (T := ⟨S_, .f32⟩) main_call1_cst) (constant S_ .f32 0x00000000#32)
  :: TRef.unary (TRef.of (T := ⟨S_, .f32⟩) main_call1_cst) (TRef.of (T := ⟨S100000x128, .f32⟩) main_call1_v0) (broadcastInDim S100000x128 ![] bcast_S_S100000x128)
  :: TRef.binary (TRef.of (T := ⟨S100000x128, .f32⟩) main_v38) (TRef.of (T := ⟨S100000x128, .f32⟩) main_call1_v0) (TRef.of (T := ⟨S100000x128, .f32⟩) main_v39) maximumf
  :: [] )
theorem opsL0_sub : (opsL0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
theorem opsL0_fresh : (opsL0 : List (HloOp τ sig (Elt F))).Forall fun op => op.fresh = ∅ := by
  simp only [List.Forall]; repeat' constructor

/-- Layer 2: the slices of the stacked parameters, the neighbour sums of layer 1's output, the layer's operations. -/
abbrev opsL1 : List (HloOp τ sig (Elt F)) :=
  ( unary main_arg11 main_v40 ((extractStridedSlice S1x128x128 ![0, 0, 0] · slices_S4x128x128_S1x128x128_0_0_0) : (⟨S4x128x128, .f32⟩ : BufTy).Contents (Elt F) → (⟨S1x128x128, .f32⟩ : BufTy).Contents (Elt F))
  :: reshape main_v40 main_v41 rfl shapeCasts_S1x128x128_S128x128
  :: unary main_arg12 main_v42 ((extractStridedSlice S1x128 ![0, 0] · slices_S4x128_S1x128_0_0) : (⟨S4x128, .f32⟩ : BufTy).Contents (Elt F) → (⟨S1x128, .f32⟩ : BufTy).Contents (Elt F))
  :: reshape main_v42 main_v43 rfl shapeCasts_S1x128_S128
  :: unary main_arg13 main_v44 ((extractStridedSlice S1x128 ![0, 0] · slices_S4x128_S1x128_0_0) : (⟨S4x128, .f32⟩ : BufTy).Contents (Elt F) → (⟨S1x128, .f32⟩ : BufTy).Contents (Elt F))
  :: reshape main_v44 main_v45 rfl shapeCasts_S1x128_S128
  :: unary main_arg14 main_v46 ((extractStridedSlice S1x128 ![0, 0] · slices_S4x128_S1x128_0_0) : (⟨S4x128, .f32⟩ : BufTy).Contents (Elt F) → (⟨S1x128, .f32⟩ : BufTy).Contents (Elt F))
  :: reshape main_v46 main_v47 rfl shapeCasts_S1x128_S128
  :: unary main_arg15 main_v48 ((extractStridedSlice S1x128 ![0, 0] · slices_S4x128_S1x128_0_0) : (⟨S4x128, .f32⟩ : BufTy).Contents (Elt F) → (⟨S1x128, .f32⟩ : BufTy).Contents (Elt F))
  :: reshape main_v48 main_v49 rfl shapeCasts_S1x128_S128
  :: unary main_arg16 main_v50 ((extractStridedSlice S1x128 ![0, 0] · slices_S4x128_S1x128_0_0) : (⟨S4x128, .f32⟩ : BufTy).Contents (Elt F) → (⟨S1x128, .f32⟩ : BufTy).Contents (Elt F))
  :: reshape main_v50 main_v51 rfl shapeCasts_S1x128_S128
  :: unary main_arg17 main_v52 ((extractStridedSlice S1x128x128 ![0, 0, 0] · slices_S4x128x128_S1x128x128_0_0_0) : (⟨S4x128x128, .f32⟩ : BufTy).Contents (Elt F) → (⟨S1x128x128, .f32⟩ : BufTy).Contents (Elt F))
  :: reshape main_v52 main_v53 rfl shapeCasts_S1x128x128_S128x128
  :: unary main_arg18 main_v54 ((extractStridedSlice S1x128 ![0, 0] · slices_S4x128_S1x128_0_0) : (⟨S4x128, .f32⟩ : BufTy).Contents (Elt F) → (⟨S1x128, .f32⟩ : BufTy).Contents (Elt F))
  :: reshape main_v54 main_v55 rfl shapeCasts_S1x128_S128
  :: nullary main_c_2 (constantI S_ 32 0#32)
  :: unary main_c_2 main_v56 (broadcastInDim S600000 ![] bcast_S_S600000 : (⟨S_, .i32⟩ : BufTy).Contents (Elt F) → (⟨S600000, .i32⟩ : BufTy).Contents (Elt F))
  :: binary main_v1 main_v56 main_v57 (cmpi .slt : (⟨S600000, .i32⟩ : BufTy).Contents (Elt F) → (⟨S600000, .i32⟩ : BufTy).Contents (Elt F) → (⟨S600000, .i1⟩ : BufTy).Contents (Elt F))
  :: nullary main_c_3 (constantI S_ 32 100000#32)
  :: unary main_c_3 main_v58 (broadcastInDim S600000 ![] bcast_S_S600000 : (⟨S_, .i32⟩ : BufTy).Contents (Elt F) → (⟨S600000, .i32⟩ : BufTy).Contents (Elt F))
  :: binary main_v1 main_v58 main_v59 (addi : (⟨S600000, .i32⟩ : BufTy).Contents (Elt F) → (⟨S600000, .i32⟩ : BufTy).Contents (Elt F) → (⟨S600000, .i32⟩ : BufTy).Contents (Elt F))
  :: ternary main_v57 main_v59 main_v1 main_v60 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: unary main_v60 main_v61 (broadcastInDim S600000x1 ![0] bcast_S600000_S600000x1_0 : (⟨S600000, .i32⟩ : BufTy).Contents (Elt F) → (⟨S600000x1, .i32⟩ : BufTy).Contents (Elt F))
  :: binary main_v39 main_v61 main_v62 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F))
  :: nullary main_cst_4 (constant S_ .f32 0x00000000#32)
  :: unary main_cst_4 main_v63 (broadcastInDim S100000x128 ![] bcast_S_S100000x128 : (⟨S_, .f32⟩ : BufTy).Contents (Elt F) → (⟨S100000x128, .f32⟩ : BufTy).Contents (Elt F))
  :: unary main_v3 main_v64 (broadcastInDim S600000x1 ![0] bcast_S600000_S600000x1_0 : (⟨S600000, .i32⟩ : BufTy).Contents (Elt F) → (⟨S600000x1, .i32⟩ : BufTy).Contents (Elt F))
  :: ternary main_v63 main_v64 main_v62 main_v65 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F))
  :: binary main_v39 main_v65 main_v66 (addf : (⟨S100000x128, .f32⟩ : BufTy).Contents (Elt F) → (⟨S100000x128, .f32⟩ : BufTy).Contents (Elt F) → (⟨S100000x128, .f32⟩ : BufTy).Contents (Elt F))
  :: binary main_v66 main_v41 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: unary main_v43 main_v68 (broadcastInDim S1x128 ![1] bcast_S128_S1x128_1 : (⟨S128, .f32⟩ : BufTy).Contents (Elt F) → (⟨S1x128, .f32⟩ : BufTy).Contents (Elt F))
  :: unary main_v68 main_v69 (broadcastInDim S100000x128 ![0, 1] bcast_S1x128_S100000x128_0_1 : (⟨S1x128, .f32⟩ : BufTy).Contents (Elt F) → (⟨S100000x128, .f32⟩ : BufTy).Contents (Elt F))
  :: binary main_v67 main_v69 main_v70 (addf : (⟨S100000x128, .f32⟩ : BufTy).Contents (Elt F) → (⟨S100000x128, .f32⟩ : BufTy).Contents (Elt F) → (⟨S100000x128, .f32⟩ : BufTy).Contents (Elt F))
  :: unary main_v49 main_v71 (broadcastInDim S1x128 ![1] bcast_S128_S1x128_1 : (⟨S128, .f32⟩ : BufTy).Contents (Elt F) → (⟨S1x128, .f32⟩ : BufTy).Contents (Elt F))
  :: unary main_v71 main_v72 (broadcastInDim S100000x128 ![0, 1] bcast_S1x128_S100000x128_0_1 : (⟨S1x128, .f32⟩ : BufTy).Contents (Elt F) → (⟨S100000x128, .f32⟩ : BufTy).Contents (Elt F))
  :: binary main_v70 main_v72 main_v73 (subf : (⟨S100000x128, .f32⟩ : BufTy).Contents (Elt F) → (⟨S100000x128, .f32⟩ : BufTy).Contents (Elt F) → (⟨S100000x128, .f32⟩ : BufTy).Contents (Elt F))
  :: unary main_v45 main_v74 (broadcastInDim S1x128 ![1] bcast_S128_S1x128_1 : (⟨S128, .f32⟩ : BufTy).Contents (Elt F) → (⟨S1x128, .f32⟩ : BufTy).Contents (Elt F))
  :: unary main_v74 main_v75 (broadcastInDim S100000x128 ![0, 1] bcast_S1x128_S100000x128_0_1 : (⟨S1x128, .f32⟩ : BufTy).Contents (Elt F) → (⟨S100000x128, .f32⟩ : BufTy).Contents (Elt F))
  :: binary main_v75 main_v73 main_v76 (mulf : (⟨S100000x128, .f32⟩ : BufTy).Contents (Elt F) → (⟨S100000x128, .f32⟩ : BufTy).Contents (Elt F) → (⟨S100000x128, .f32⟩ : BufTy).Contents (Elt F))
  :: nullary main_cst_5 (constant S_ .f32 0x3727C5AC#32)
  :: unary main_cst_5 main_v77 (broadcastInDim S128 ![] bcast_S_S128 : (⟨S_, .f32⟩ : BufTy).Contents (Elt F) → (⟨S128, .f32⟩ : BufTy).Contents (Elt F))
  :: binary main_v51 main_v77 main_v78 (addf : (⟨S128, .f32⟩ : BufTy).Contents (Elt F) → (⟨S128, .f32⟩ : BufTy).Contents (Elt F) → (⟨S128, .f32⟩ : BufTy).Contents (Elt F))
  :: unary main_v78 main_v79 (Host.rsqrt : (⟨S128, .f32⟩ : BufTy).Contents (Elt F) → (⟨S128, .f32⟩ : BufTy).Contents (Elt F))
  :: unary main_v79 main_v80 (broadcastInDim S1x128 ![1] bcast_S128_S1x128_1 : (⟨S128, .f32⟩ : BufTy).Contents (Elt F) → (⟨S1x128, .f32⟩ : BufTy).Contents (Elt F))
  :: unary main_v80 main_v81 (broadcastInDim S100000x128 ![0, 1] bcast_S1x128_S100000x128_0_1 : (⟨S1x128, .f32⟩ : BufTy).Contents (Elt F) → (⟨S100000x128, .f32⟩ : BufTy).Contents (Elt F))
  :: binary main_v76 main_v81 main_v82 (mulf : (⟨S100000x128, .f32⟩ : BufTy).Contents (Elt F) → (⟨S100000x128, .f32⟩ : BufTy).Contents (Elt F) → (⟨S100000x128, .f32⟩ : BufTy).Contents (Elt F))
  :: unary main_v47 main_v83 (broadcastInDim S1x128 ![1] bcast_S128_S1x128_1 : (⟨S128, .f32⟩ : BufTy).Contents (Elt F) → (⟨S1x128, .f32⟩ : BufTy).Contents (Elt F))
  :: unary main_v83 main_v84 (broadcastInDim S100000x128 ![0, 1] bcast_S1x128_S100000x128_0_1 : (⟨S1x128, .f32⟩ : BufTy).Contents (Elt F) → (⟨S100000x128, .f32⟩ : BufTy).Contents (Elt F))
  :: binary main_v82 main_v84 main_v85 (addf : (⟨S100000x128, .f32⟩ : BufTy).Contents (Elt F) → (⟨S100000x128, .f32⟩ : BufTy).Contents (Elt F) → (⟨S100000x128, .f32⟩ : BufTy).Contents (Elt F))
  :: TRef.nullary (TRef.of (T := ⟨S_, .f32⟩) main_call2_cst) (constant S_ .f32 0x00000000#32)
  :: TRef.unary (TRef.of (T := ⟨S_, .f32⟩) main_call2_cst) (TRef.of (T := ⟨S100000x128, .f32⟩) main_call2_v0) (broadcastInDim S100000x128 ![] bcast_S_S100000x128)
  :: TRef.binary (TRef.of (T := ⟨S100000x128, .f32⟩) main_v85) (TRef.of (T := ⟨S100000x128, .f32⟩) main_call2_v0) (TRef.of (T := ⟨S100000x128, .f32⟩) main_v86) maximumf
  :: binary main_v86 main_v53 main_v87 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: unary main_v55 main_v88 (broadcastInDim S1x128 ![1] bcast_S128_S1x128_1 : (⟨S128, .f32⟩ : BufTy).Contents (Elt F) → (⟨S1x128, .f32⟩ : BufTy).Contents (Elt F))
  :: unary main_v88 main_v89 (broadcastInDim S100000x128 ![0, 1] bcast_S1x128_S100000x128_0_1 : (⟨S1x128, .f32⟩ : BufTy).Contents (Elt F) → (⟨S100000x128, .f32⟩ : BufTy).Contents (Elt F))
  :: binary main_v87 main_v89 main_v90 (addf : (⟨S100000x128, .f32⟩ : BufTy).Contents (Elt F) → (⟨S100000x128, .f32⟩ : BufTy).Contents (Elt F) → (⟨S100000x128, .f32⟩ : BufTy).Contents (Elt F))
  :: TRef.nullary (TRef.of (T := ⟨S_, .f32⟩) main_call3_cst) (constant S_ .f32 0x00000000#32)
  :: TRef.unary (TRef.of (T := ⟨S_, .f32⟩) main_call3_cst) (TRef.of (T := ⟨S100000x128, .f32⟩) main_call3_v0) (broadcastInDim S100000x128 ![] bcast_S_S100000x128)
  :: TRef.binary (TRef.of (T := ⟨S100000x128, .f32⟩) main_v90) (TRef.of (T := ⟨S100000x128, .f32⟩) main_call3_v0) (TRef.of (T := ⟨S100000x128, .f32⟩) main_v91) maximumf
  :: [] )
theorem opsL1_sub : (opsL1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
theorem opsL1_fresh : (opsL1 : List (HloOp τ sig (Elt F))).Forall fun op => op.fresh = ∅ := by
  simp only [List.Forall]; repeat' constructor

/-- Layer 3, likewise. -/
abbrev opsL2 : List (HloOp τ sig (Elt F)) :=
  ( unary main_arg11 main_v92 ((extractStridedSlice S1x128x128 ![1, 0, 0] · slices_S4x128x128_S1x128x128_1_0_0) : (⟨S4x128x128, .f32⟩ : BufTy).Contents (Elt F) → (⟨S1x128x128, .f32⟩ : BufTy).Contents (Elt F))
  :: reshape main_v92 main_v93 rfl shapeCasts_S1x128x128_S128x128
  :: unary main_arg12 main_v94 ((extractStridedSlice S1x128 ![1, 0] · slices_S4x128_S1x128_1_0) : (⟨S4x128, .f32⟩ : BufTy).Contents (Elt F) → (⟨S1x128, .f32⟩ : BufTy).Contents (Elt F))
  :: reshape main_v94 main_v95 rfl shapeCasts_S1x128_S128
  :: unary main_arg13 main_v96 ((extractStridedSlice S1x128 ![1, 0] · slices_S4x128_S1x128_1_0) : (⟨S4x128, .f32⟩ : BufTy).Contents (Elt F) → (⟨S1x128, .f32⟩ : BufTy).Contents (Elt F))
  :: reshape main_v96 main_v97 rfl shapeCasts_S1x128_S128
  :: unary main_arg14 main_v98 ((extractStridedSlice S1x128 ![1, 0] · slices_S4x128_S1x128_1_0) : (⟨S4x128, .f32⟩ : BufTy).Contents (Elt F) → (⟨S1x128, .f32⟩ : BufTy).Contents (Elt F))
  :: reshape main_v98 main_v99 rfl shapeCasts_S1x128_S128
  :: unary main_arg15 main_v100 ((extractStridedSlice S1x128 ![1, 0] · slices_S4x128_S1x128_1_0) : (⟨S4x128, .f32⟩ : BufTy).Contents (Elt F) → (⟨S1x128, .f32⟩ : BufTy).Contents (Elt F))
  :: reshape main_v100 main_v101 rfl shapeCasts_S1x128_S128
  :: unary main_arg16 main_v102 ((extractStridedSlice S1x128 ![1, 0] · slices_S4x128_S1x128_1_0) : (⟨S4x128, .f32⟩ : BufTy).Contents (Elt F) → (⟨S1x128, .f32⟩ : BufTy).Contents (Elt F))
  :: reshape main_v102 main_v103 rfl shapeCasts_S1x128_S128
  :: unary main_arg17 main_v104 ((extractStridedSlice S1x128x128 ![1, 0, 0] · slices_S4x128x128_S1x128x128_1_0_0) : (⟨S4x128x128, .f32⟩ : BufTy).Contents (Elt F) → (⟨S1x128x128, .f32⟩ : BufTy).Contents (Elt F))
  :: reshape main_v104 main_v105 rfl shapeCasts_S1x128x128_S128x128
  :: unary main_arg18 main_v106 ((extractStridedSlice S1x128 ![1, 0] · slices_S4x128_S1x128_1_0) : (⟨S4x128, .f32⟩ : BufTy).Contents (Elt F) → (⟨S1x128, .f32⟩ : BufTy).Contents (Elt F))
  :: reshape main_v106 main_v107 rfl shapeCasts_S1x128_S128
  :: nullary main_c_6 (constantI S_ 32 0#32)
  :: unary main_c_6 main_v108 (broadcastInDim S600000 ![] bcast_S_S600000 : (⟨S_, .i32⟩ : BufTy).Contents (Elt F) → (⟨S600000, .i32⟩ : BufTy).Contents (Elt F))
  :: binary main_v1 main_v108 main_v109 (cmpi .slt : (⟨S600000, .i32⟩ : BufTy).Contents (Elt F) → (⟨S600000, .i32⟩ : BufTy).Contents (Elt F) → (⟨S600000, .i1⟩ : BufTy).Contents (Elt F))
  :: nullary main_c_7 (constantI S_ 32 100000#32)
  :: unary main_c_7 main_v110 (broadcastInDim S600000 ![] bcast_S_S600000 : (⟨S_, .i32⟩ : BufTy).Contents (Elt F) → (⟨S600000, .i32⟩ : BufTy).Contents (Elt F))
  :: binary main_v1 main_v110 main_v111 (addi : (⟨S600000, .i32⟩ : BufTy).Contents (Elt F) → (⟨S600000, .i32⟩ : BufTy).Contents (Elt F) → (⟨S600000, .i32⟩ : BufTy).Contents (Elt F))
  :: ternary main_v109 main_v111 main_v1 main_v112 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: unary main_v112 main_v113 (broadcastInDim S600000x1 ![0] bcast_S600000_S600000x1_0 : (⟨S600000, .i32⟩ : BufTy).Contents (Elt F) → (⟨S600000x1, .i32⟩ : BufTy).Contents (Elt F))
  :: binary main_v91 main_v113 main_v114 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F))
  :: nullary main_cst_8 (constant S_ .f32 0x00000000#32)
  :: unary main_cst_8 main_v115 (broadcastInDim S100000x128 ![] bcast_S_S100000x128 : (⟨S_, .f32⟩ : BufTy).Contents (Elt F) → (⟨S100000x128, .f32⟩ : BufTy).Contents (Elt F))
  :: unary main_v3 main_v116 (broadcastInDim S600000x1 ![0] bcast_S600000_S600000x1_0 : (⟨S600000, .i32⟩ : BufTy).Contents (Elt F) → (⟨S600000x1, .i32⟩ : BufTy).Contents (Elt F))
  :: ternary main_v115 main_v116 main_v114 main_v117 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F))
  :: binary main_v91 main_v117 main_v118 (addf : (⟨S100000x128, .f32⟩ : BufTy).Contents (Elt F) → (⟨S100000x128, .f32⟩ : BufTy).Contents (Elt F) → (⟨S100000x128, .f32⟩ : BufTy).Contents (Elt F))
  :: binary main_v118 main_v93 main_v119 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: unary main_v95 main_v120 (broadcastInDim S1x128 ![1] bcast_S128_S1x128_1 : (⟨S128, .f32⟩ : BufTy).Contents (Elt F) → (⟨S1x128, .f32⟩ : BufTy).Contents (Elt F))
  :: unary main_v120 main_v121 (broadcastInDim S100000x128 ![0, 1] bcast_S1x128_S100000x128_0_1 : (⟨S1x128, .f32⟩ : BufTy).Contents (Elt F) → (⟨S100000x128, .f32⟩ : BufTy).Contents (Elt F))
  :: binary main_v119 main_v121 main_v122 (addf : (⟨S100000x128, .f32⟩ : BufTy).Contents (Elt F) → (⟨S100000x128, .f32⟩ : BufTy).Contents (Elt F) → (⟨S100000x128, .f32⟩ : BufTy).Contents (Elt F))
  :: unary main_v101 main_v123 (broadcastInDim S1x128 ![1] bcast_S128_S1x128_1 : (⟨S128, .f32⟩ : BufTy).Contents (Elt F) → (⟨S1x128, .f32⟩ : BufTy).Contents (Elt F))
  :: unary main_v123 main_v124 (broadcastInDim S100000x128 ![0, 1] bcast_S1x128_S100000x128_0_1 : (⟨S1x128, .f32⟩ : BufTy).Contents (Elt F) → (⟨S100000x128, .f32⟩ : BufTy).Contents (Elt F))
  :: binary main_v122 main_v124 main_v125 (subf : (⟨S100000x128, .f32⟩ : BufTy).Contents (Elt F) → (⟨S100000x128, .f32⟩ : BufTy).Contents (Elt F) → (⟨S100000x128, .f32⟩ : BufTy).Contents (Elt F))
  :: unary main_v97 main_v126 (broadcastInDim S1x128 ![1] bcast_S128_S1x128_1 : (⟨S128, .f32⟩ : BufTy).Contents (Elt F) → (⟨S1x128, .f32⟩ : BufTy).Contents (Elt F))
  :: unary main_v126 main_v127 (broadcastInDim S100000x128 ![0, 1] bcast_S1x128_S100000x128_0_1 : (⟨S1x128, .f32⟩ : BufTy).Contents (Elt F) → (⟨S100000x128, .f32⟩ : BufTy).Contents (Elt F))
  :: binary main_v127 main_v125 main_v128 (mulf : (⟨S100000x128, .f32⟩ : BufTy).Contents (Elt F) → (⟨S100000x128, .f32⟩ : BufTy).Contents (Elt F) → (⟨S100000x128, .f32⟩ : BufTy).Contents (Elt F))
  :: nullary main_cst_9 (constant S_ .f32 0x3727C5AC#32)
  :: unary main_cst_9 main_v129 (broadcastInDim S128 ![] bcast_S_S128 : (⟨S_, .f32⟩ : BufTy).Contents (Elt F) → (⟨S128, .f32⟩ : BufTy).Contents (Elt F))
  :: binary main_v103 main_v129 main_v130 (addf : (⟨S128, .f32⟩ : BufTy).Contents (Elt F) → (⟨S128, .f32⟩ : BufTy).Contents (Elt F) → (⟨S128, .f32⟩ : BufTy).Contents (Elt F))
  :: unary main_v130 main_v131 (Host.rsqrt : (⟨S128, .f32⟩ : BufTy).Contents (Elt F) → (⟨S128, .f32⟩ : BufTy).Contents (Elt F))
  :: unary main_v131 main_v132 (broadcastInDim S1x128 ![1] bcast_S128_S1x128_1 : (⟨S128, .f32⟩ : BufTy).Contents (Elt F) → (⟨S1x128, .f32⟩ : BufTy).Contents (Elt F))
  :: unary main_v132 main_v133 (broadcastInDim S100000x128 ![0, 1] bcast_S1x128_S100000x128_0_1 : (⟨S1x128, .f32⟩ : BufTy).Contents (Elt F) → (⟨S100000x128, .f32⟩ : BufTy).Contents (Elt F))
  :: binary main_v128 main_v133 main_v134 (mulf : (⟨S100000x128, .f32⟩ : BufTy).Contents (Elt F) → (⟨S100000x128, .f32⟩ : BufTy).Contents (Elt F) → (⟨S100000x128, .f32⟩ : BufTy).Contents (Elt F))
  :: unary main_v99 main_v135 (broadcastInDim S1x128 ![1] bcast_S128_S1x128_1 : (⟨S128, .f32⟩ : BufTy).Contents (Elt F) → (⟨S1x128, .f32⟩ : BufTy).Contents (Elt F))
  :: unary main_v135 main_v136 (broadcastInDim S100000x128 ![0, 1] bcast_S1x128_S100000x128_0_1 : (⟨S1x128, .f32⟩ : BufTy).Contents (Elt F) → (⟨S100000x128, .f32⟩ : BufTy).Contents (Elt F))
  :: binary main_v134 main_v136 main_v137 (addf : (⟨S100000x128, .f32⟩ : BufTy).Contents (Elt F) → (⟨S100000x128, .f32⟩ : BufTy).Contents (Elt F) → (⟨S100000x128, .f32⟩ : BufTy).Contents (Elt F))
  :: TRef.nullary (TRef.of (T := ⟨S_, .f32⟩) main_call4_cst) (constant S_ .f32 0x00000000#32)
  :: TRef.unary (TRef.of (T := ⟨S_, .f32⟩) main_call4_cst) (TRef.of (T := ⟨S100000x128, .f32⟩) main_call4_v0) (broadcastInDim S100000x128 ![] bcast_S_S100000x128)
  :: TRef.binary (TRef.of (T := ⟨S100000x128, .f32⟩) main_v137) (TRef.of (T := ⟨S100000x128, .f32⟩) main_call4_v0) (TRef.of (T := ⟨S100000x128, .f32⟩) main_v138) maximumf
  :: binary main_v138 main_v105 main_v139 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: unary main_v107 main_v140 (broadcastInDim S1x128 ![1] bcast_S128_S1x128_1 : (⟨S128, .f32⟩ : BufTy).Contents (Elt F) → (⟨S1x128, .f32⟩ : BufTy).Contents (Elt F))
  :: unary main_v140 main_v141 (broadcastInDim S100000x128 ![0, 1] bcast_S1x128_S100000x128_0_1 : (⟨S1x128, .f32⟩ : BufTy).Contents (Elt F) → (⟨S100000x128, .f32⟩ : BufTy).Contents (Elt F))
  :: binary main_v139 main_v141 main_v142 (addf : (⟨S100000x128, .f32⟩ : BufTy).Contents (Elt F) → (⟨S100000x128, .f32⟩ : BufTy).Contents (Elt F) → (⟨S100000x128, .f32⟩ : BufTy).Contents (Elt F))
  :: TRef.nullary (TRef.of (T := ⟨S_, .f32⟩) main_call5_cst) (constant S_ .f32 0x00000000#32)
  :: TRef.unary (TRef.of (T := ⟨S_, .f32⟩) main_call5_cst) (TRef.of (T := ⟨S100000x128, .f32⟩) main_call5_v0) (broadcastInDim S100000x128 ![] bcast_S_S100000x128)
  :: TRef.binary (TRef.of (T := ⟨S100000x128, .f32⟩) main_v142) (TRef.of (T := ⟨S100000x128, .f32⟩) main_call5_v0) (TRef.of (T := ⟨S100000x128, .f32⟩) main_v143) maximumf
  :: [] )
theorem opsL2_sub : (opsL2 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
theorem opsL2_fresh : (opsL2 : List (HloOp τ sig (Elt F))).Forall fun op => op.fresh = ∅ := by
  simp only [List.Forall]; repeat' constructor

/-- Layer 4, likewise. -/
abbrev opsL3 : List (HloOp τ sig (Elt F)) :=
  ( unary main_arg11 main_v144 ((extractStridedSlice S1x128x128 ![2, 0, 0] · slices_S4x128x128_S1x128x128_2_0_0) : (⟨S4x128x128, .f32⟩ : BufTy).Contents (Elt F) → (⟨S1x128x128, .f32⟩ : BufTy).Contents (Elt F))
  :: reshape main_v144 main_v145 rfl shapeCasts_S1x128x128_S128x128
  :: unary main_arg12 main_v146 ((extractStridedSlice S1x128 ![2, 0] · slices_S4x128_S1x128_2_0) : (⟨S4x128, .f32⟩ : BufTy).Contents (Elt F) → (⟨S1x128, .f32⟩ : BufTy).Contents (Elt F))
  :: reshape main_v146 main_v147 rfl shapeCasts_S1x128_S128
  :: unary main_arg13 main_v148 ((extractStridedSlice S1x128 ![2, 0] · slices_S4x128_S1x128_2_0) : (⟨S4x128, .f32⟩ : BufTy).Contents (Elt F) → (⟨S1x128, .f32⟩ : BufTy).Contents (Elt F))
  :: reshape main_v148 main_v149 rfl shapeCasts_S1x128_S128
  :: unary main_arg14 main_v150 ((extractStridedSlice S1x128 ![2, 0] · slices_S4x128_S1x128_2_0) : (⟨S4x128, .f32⟩ : BufTy).Contents (Elt F) → (⟨S1x128, .f32⟩ : BufTy).Contents (Elt F))
  :: reshape main_v150 main_v151 rfl shapeCasts_S1x128_S128
  :: unary main_arg15 main_v152 ((extractStridedSlice S1x128 ![2, 0] · slices_S4x128_S1x128_2_0) : (⟨S4x128, .f32⟩ : BufTy).Contents (Elt F) → (⟨S1x128, .f32⟩ : BufTy).Contents (Elt F))
  :: reshape main_v152 main_v153 rfl shapeCasts_S1x128_S128
  :: unary main_arg16 main_v154 ((extractStridedSlice S1x128 ![2, 0] · slices_S4x128_S1x128_2_0) : (⟨S4x128, .f32⟩ : BufTy).Contents (Elt F) → (⟨S1x128, .f32⟩ : BufTy).Contents (Elt F))
  :: reshape main_v154 main_v155 rfl shapeCasts_S1x128_S128
  :: unary main_arg17 main_v156 ((extractStridedSlice S1x128x128 ![2, 0, 0] · slices_S4x128x128_S1x128x128_2_0_0) : (⟨S4x128x128, .f32⟩ : BufTy).Contents (Elt F) → (⟨S1x128x128, .f32⟩ : BufTy).Contents (Elt F))
  :: reshape main_v156 main_v157 rfl shapeCasts_S1x128x128_S128x128
  :: unary main_arg18 main_v158 ((extractStridedSlice S1x128 ![2, 0] · slices_S4x128_S1x128_2_0) : (⟨S4x128, .f32⟩ : BufTy).Contents (Elt F) → (⟨S1x128, .f32⟩ : BufTy).Contents (Elt F))
  :: reshape main_v158 main_v159 rfl shapeCasts_S1x128_S128
  :: nullary main_c_10 (constantI S_ 32 0#32)
  :: unary main_c_10 main_v160 (broadcastInDim S600000 ![] bcast_S_S600000 : (⟨S_, .i32⟩ : BufTy).Contents (Elt F) → (⟨S600000, .i32⟩ : BufTy).Contents (Elt F))
  :: binary main_v1 main_v160 main_v161 (cmpi .slt : (⟨S600000, .i32⟩ : BufTy).Contents (Elt F) → (⟨S600000, .i32⟩ : BufTy).Contents (Elt F) → (⟨S600000, .i1⟩ : BufTy).Contents (Elt F))
  :: nullary main_c_11 (constantI S_ 32 100000#32)
  :: unary main_c_11 main_v162 (broadcastInDim S600000 ![] bcast_S_S600000 : (⟨S_, .i32⟩ : BufTy).Contents (Elt F) → (⟨S600000, .i32⟩ : BufTy).Contents (Elt F))
  :: binary main_v1 main_v162 main_v163 (addi : (⟨S600000, .i32⟩ : BufTy).Contents (Elt F) → (⟨S600000, .i32⟩ : BufTy).Contents (Elt F) → (⟨S600000, .i32⟩ : BufTy).Contents (Elt F))
  :: ternary main_v161 main_v163 main_v1 main_v164 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: unary main_v164 main_v165 (broadcastInDim S600000x1 ![0] bcast_S600000_S600000x1_0 : (⟨S600000, .i32⟩ : BufTy).Contents (Elt F) → (⟨S600000x1, .i32⟩ : BufTy).Contents (Elt F))
  :: binary main_v143 main_v165 main_v166 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F))
  :: nullary main_cst_12 (constant S_ .f32 0x00000000#32)
  :: unary main_cst_12 main_v167 (broadcastInDim S100000x128 ![] bcast_S_S100000x128 : (⟨S_, .f32⟩ : BufTy).Contents (Elt F) → (⟨S100000x128, .f32⟩ : BufTy).Contents (Elt F))
  :: unary main_v3 main_v168 (broadcastInDim S600000x1 ![0] bcast_S600000_S600000x1_0 : (⟨S600000, .i32⟩ : BufTy).Contents (Elt F) → (⟨S600000x1, .i32⟩ : BufTy).Contents (Elt F))
  :: ternary main_v167 main_v168 main_v166 main_v169 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F))
  :: binary main_v143 main_v169 main_v170 (addf : (⟨S100000x128, .f32⟩ : BufTy).Contents (Elt F) → (⟨S100000x128, .f32⟩ : BufTy).Contents (Elt F) → (⟨S100000x128, .f32⟩ : BufTy).Contents (Elt F))
  :: binary main_v170 main_v145 main_v171 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: unary main_v147 main_v172 (broadcastInDim S1x128 ![1] bcast_S128_S1x128_1 : (⟨S128, .f32⟩ : BufTy).Contents (Elt F) → (⟨S1x128, .f32⟩ : BufTy).Contents (Elt F))
  :: unary main_v172 main_v173 (broadcastInDim S100000x128 ![0, 1] bcast_S1x128_S100000x128_0_1 : (⟨S1x128, .f32⟩ : BufTy).Contents (Elt F) → (⟨S100000x128, .f32⟩ : BufTy).Contents (Elt F))
  :: binary main_v171 main_v173 main_v174 (addf : (⟨S100000x128, .f32⟩ : BufTy).Contents (Elt F) → (⟨S100000x128, .f32⟩ : BufTy).Contents (Elt F) → (⟨S100000x128, .f32⟩ : BufTy).Contents (Elt F))
  :: unary main_v153 main_v175 (broadcastInDim S1x128 ![1] bcast_S128_S1x128_1 : (⟨S128, .f32⟩ : BufTy).Contents (Elt F) → (⟨S1x128, .f32⟩ : BufTy).Contents (Elt F))
  :: unary main_v175 main_v176 (broadcastInDim S100000x128 ![0, 1] bcast_S1x128_S100000x128_0_1 : (⟨S1x128, .f32⟩ : BufTy).Contents (Elt F) → (⟨S100000x128, .f32⟩ : BufTy).Contents (Elt F))
  :: binary main_v174 main_v176 main_v177 (subf : (⟨S100000x128, .f32⟩ : BufTy).Contents (Elt F) → (⟨S100000x128, .f32⟩ : BufTy).Contents (Elt F) → (⟨S100000x128, .f32⟩ : BufTy).Contents (Elt F))
  :: unary main_v149 main_v178 (broadcastInDim S1x128 ![1] bcast_S128_S1x128_1 : (⟨S128, .f32⟩ : BufTy).Contents (Elt F) → (⟨S1x128, .f32⟩ : BufTy).Contents (Elt F))
  :: unary main_v178 main_v179 (broadcastInDim S100000x128 ![0, 1] bcast_S1x128_S100000x128_0_1 : (⟨S1x128, .f32⟩ : BufTy).Contents (Elt F) → (⟨S100000x128, .f32⟩ : BufTy).Contents (Elt F))
  :: binary main_v179 main_v177 main_v180 (mulf : (⟨S100000x128, .f32⟩ : BufTy).Contents (Elt F) → (⟨S100000x128, .f32⟩ : BufTy).Contents (Elt F) → (⟨S100000x128, .f32⟩ : BufTy).Contents (Elt F))
  :: nullary main_cst_13 (constant S_ .f32 0x3727C5AC#32)
  :: unary main_cst_13 main_v181 (broadcastInDim S128 ![] bcast_S_S128 : (⟨S_, .f32⟩ : BufTy).Contents (Elt F) → (⟨S128, .f32⟩ : BufTy).Contents (Elt F))
  :: binary main_v155 main_v181 main_v182 (addf : (⟨S128, .f32⟩ : BufTy).Contents (Elt F) → (⟨S128, .f32⟩ : BufTy).Contents (Elt F) → (⟨S128, .f32⟩ : BufTy).Contents (Elt F))
  :: unary main_v182 main_v183 (Host.rsqrt : (⟨S128, .f32⟩ : BufTy).Contents (Elt F) → (⟨S128, .f32⟩ : BufTy).Contents (Elt F))
  :: unary main_v183 main_v184 (broadcastInDim S1x128 ![1] bcast_S128_S1x128_1 : (⟨S128, .f32⟩ : BufTy).Contents (Elt F) → (⟨S1x128, .f32⟩ : BufTy).Contents (Elt F))
  :: unary main_v184 main_v185 (broadcastInDim S100000x128 ![0, 1] bcast_S1x128_S100000x128_0_1 : (⟨S1x128, .f32⟩ : BufTy).Contents (Elt F) → (⟨S100000x128, .f32⟩ : BufTy).Contents (Elt F))
  :: binary main_v180 main_v185 main_v186 (mulf : (⟨S100000x128, .f32⟩ : BufTy).Contents (Elt F) → (⟨S100000x128, .f32⟩ : BufTy).Contents (Elt F) → (⟨S100000x128, .f32⟩ : BufTy).Contents (Elt F))
  :: unary main_v151 main_v187 (broadcastInDim S1x128 ![1] bcast_S128_S1x128_1 : (⟨S128, .f32⟩ : BufTy).Contents (Elt F) → (⟨S1x128, .f32⟩ : BufTy).Contents (Elt F))
  :: unary main_v187 main_v188 (broadcastInDim S100000x128 ![0, 1] bcast_S1x128_S100000x128_0_1 : (⟨S1x128, .f32⟩ : BufTy).Contents (Elt F) → (⟨S100000x128, .f32⟩ : BufTy).Contents (Elt F))
  :: binary main_v186 main_v188 main_v189 (addf : (⟨S100000x128, .f32⟩ : BufTy).Contents (Elt F) → (⟨S100000x128, .f32⟩ : BufTy).Contents (Elt F) → (⟨S100000x128, .f32⟩ : BufTy).Contents (Elt F))
  :: TRef.nullary (TRef.of (T := ⟨S_, .f32⟩) main_call6_cst) (constant S_ .f32 0x00000000#32)
  :: TRef.unary (TRef.of (T := ⟨S_, .f32⟩) main_call6_cst) (TRef.of (T := ⟨S100000x128, .f32⟩) main_call6_v0) (broadcastInDim S100000x128 ![] bcast_S_S100000x128)
  :: TRef.binary (TRef.of (T := ⟨S100000x128, .f32⟩) main_v189) (TRef.of (T := ⟨S100000x128, .f32⟩) main_call6_v0) (TRef.of (T := ⟨S100000x128, .f32⟩) main_v190) maximumf
  :: binary main_v190 main_v157 main_v191 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: unary main_v159 main_v192 (broadcastInDim S1x128 ![1] bcast_S128_S1x128_1 : (⟨S128, .f32⟩ : BufTy).Contents (Elt F) → (⟨S1x128, .f32⟩ : BufTy).Contents (Elt F))
  :: unary main_v192 main_v193 (broadcastInDim S100000x128 ![0, 1] bcast_S1x128_S100000x128_0_1 : (⟨S1x128, .f32⟩ : BufTy).Contents (Elt F) → (⟨S100000x128, .f32⟩ : BufTy).Contents (Elt F))
  :: binary main_v191 main_v193 main_v194 (addf : (⟨S100000x128, .f32⟩ : BufTy).Contents (Elt F) → (⟨S100000x128, .f32⟩ : BufTy).Contents (Elt F) → (⟨S100000x128, .f32⟩ : BufTy).Contents (Elt F))
  :: TRef.nullary (TRef.of (T := ⟨S_, .f32⟩) main_call7_cst) (constant S_ .f32 0x00000000#32)
  :: TRef.unary (TRef.of (T := ⟨S_, .f32⟩) main_call7_cst) (TRef.of (T := ⟨S100000x128, .f32⟩) main_call7_v0) (broadcastInDim S100000x128 ![] bcast_S_S100000x128)
  :: TRef.binary (TRef.of (T := ⟨S100000x128, .f32⟩) main_v194) (TRef.of (T := ⟨S100000x128, .f32⟩) main_call7_v0) (TRef.of (T := ⟨S100000x128, .f32⟩) main_v195) maximumf
  :: [] )
theorem opsL3_sub : (opsL3 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
theorem opsL3_fresh : (opsL3 : List (HloOp τ sig (Elt F))).Forall fun op => op.fresh = ∅ := by
  simp only [List.Forall]; repeat' constructor

/-- Layer 5, likewise. -/
abbrev opsL4 : List (HloOp τ sig (Elt F)) :=
  ( unary main_arg11 main_v196 ((extractStridedSlice S1x128x128 ![3, 0, 0] · slices_S4x128x128_S1x128x128_3_0_0) : (⟨S4x128x128, .f32⟩ : BufTy).Contents (Elt F) → (⟨S1x128x128, .f32⟩ : BufTy).Contents (Elt F))
  :: reshape main_v196 main_v197 rfl shapeCasts_S1x128x128_S128x128
  :: unary main_arg12 main_v198 ((extractStridedSlice S1x128 ![3, 0] · slices_S4x128_S1x128_3_0) : (⟨S4x128, .f32⟩ : BufTy).Contents (Elt F) → (⟨S1x128, .f32⟩ : BufTy).Contents (Elt F))
  :: reshape main_v198 main_v199 rfl shapeCasts_S1x128_S128
  :: unary main_arg13 main_v200 ((extractStridedSlice S1x128 ![3, 0] · slices_S4x128_S1x128_3_0) : (⟨S4x128, .f32⟩ : BufTy).Contents (Elt F) → (⟨S1x128, .f32⟩ : BufTy).Contents (Elt F))
  :: reshape main_v200 main_v201 rfl shapeCasts_S1x128_S128
  :: unary main_arg14 main_v202 ((extractStridedSlice S1x128 ![3, 0] · slices_S4x128_S1x128_3_0) : (⟨S4x128, .f32⟩ : BufTy).Contents (Elt F) → (⟨S1x128, .f32⟩ : BufTy).Contents (Elt F))
  :: reshape main_v202 main_v203 rfl shapeCasts_S1x128_S128
  :: unary main_arg15 main_v204 ((extractStridedSlice S1x128 ![3, 0] · slices_S4x128_S1x128_3_0) : (⟨S4x128, .f32⟩ : BufTy).Contents (Elt F) → (⟨S1x128, .f32⟩ : BufTy).Contents (Elt F))
  :: reshape main_v204 main_v205 rfl shapeCasts_S1x128_S128
  :: unary main_arg16 main_v206 ((extractStridedSlice S1x128 ![3, 0] · slices_S4x128_S1x128_3_0) : (⟨S4x128, .f32⟩ : BufTy).Contents (Elt F) → (⟨S1x128, .f32⟩ : BufTy).Contents (Elt F))
  :: reshape main_v206 main_v207 rfl shapeCasts_S1x128_S128
  :: unary main_arg17 main_v208 ((extractStridedSlice S1x128x128 ![3, 0, 0] · slices_S4x128x128_S1x128x128_3_0_0) : (⟨S4x128x128, .f32⟩ : BufTy).Contents (Elt F) → (⟨S1x128x128, .f32⟩ : BufTy).Contents (Elt F))
  :: reshape main_v208 main_v209 rfl shapeCasts_S1x128x128_S128x128
  :: unary main_arg18 main_v210 ((extractStridedSlice S1x128 ![3, 0] · slices_S4x128_S1x128_3_0) : (⟨S4x128, .f32⟩ : BufTy).Contents (Elt F) → (⟨S1x128, .f32⟩ : BufTy).Contents (Elt F))
  :: reshape main_v210 main_v211 rfl shapeCasts_S1x128_S128
  :: nullary main_c_14 (constantI S_ 32 0#32)
  :: unary main_c_14 main_v212 (broadcastInDim S600000 ![] bcast_S_S600000 : (⟨S_, .i32⟩ : BufTy).Contents (Elt F) → (⟨S600000, .i32⟩ : BufTy).Contents (Elt F))
  :: binary main_v1 main_v212 main_v213 (cmpi .slt : (⟨S600000, .i32⟩ : BufTy).Contents (Elt F) → (⟨S600000, .i32⟩ : BufTy).Contents (Elt F) → (⟨S600000, .i1⟩ : BufTy).Contents (Elt F))
  :: nullary main_c_15 (constantI S_ 32 100000#32)
  :: unary main_c_15 main_v214 (broadcastInDim S600000 ![] bcast_S_S600000 : (⟨S_, .i32⟩ : BufTy).Contents (Elt F) → (⟨S600000, .i32⟩ : BufTy).Contents (Elt F))
  :: binary main_v1 main_v214 main_v215 (addi : (⟨S600000, .i32⟩ : BufTy).Contents (Elt F) → (⟨S600000, .i32⟩ : BufTy).Contents (Elt F) → (⟨S600000, .i32⟩ : BufTy).Contents (Elt F))
  :: ternary main_v213 main_v215 main_v1 main_v216 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))
  :: unary main_v216 main_v217 (broadcastInDim S600000x1 ![0] bcast_S600000_S600000x1_0 : (⟨S600000, .i32⟩ : BufTy).Contents (Elt F) → (⟨S600000x1, .i32⟩ : BufTy).Contents (Elt F))
  :: binary main_v195 main_v217 main_v218 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F))
  :: nullary main_cst_16 (constant S_ .f32 0x00000000#32)
  :: unary main_cst_16 main_v219 (broadcastInDim S100000x128 ![] bcast_S_S100000x128 : (⟨S_, .f32⟩ : BufTy).Contents (Elt F) → (⟨S100000x128, .f32⟩ : BufTy).Contents (Elt F))
  :: unary main_v3 main_v220 (broadcastInDim S600000x1 ![0] bcast_S600000_S600000x1_0 : (⟨S600000, .i32⟩ : BufTy).Contents (Elt F) → (⟨S600000x1, .i32⟩ : BufTy).Contents (Elt F))
  :: ternary main_v219 main_v220 main_v218 main_v221 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F))
  :: binary main_v195 main_v221 main_v222 (addf : (⟨S100000x128, .f32⟩ : BufTy).Contents (Elt F) → (⟨S100000x128, .f32⟩ : BufTy).Contents (Elt F) → (⟨S100000x128, .f32⟩ : BufTy).Contents (Elt F))
  :: binary main_v222 main_v197 main_v223 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: unary main_v199 main_v224 (broadcastInDim S1x128 ![1] bcast_S128_S1x128_1 : (⟨S128, .f32⟩ : BufTy).Contents (Elt F) → (⟨S1x128, .f32⟩ : BufTy).Contents (Elt F))
  :: unary main_v224 main_v225 (broadcastInDim S100000x128 ![0, 1] bcast_S1x128_S100000x128_0_1 : (⟨S1x128, .f32⟩ : BufTy).Contents (Elt F) → (⟨S100000x128, .f32⟩ : BufTy).Contents (Elt F))
  :: binary main_v223 main_v225 main_v226 (addf : (⟨S100000x128, .f32⟩ : BufTy).Contents (Elt F) → (⟨S100000x128, .f32⟩ : BufTy).Contents (Elt F) → (⟨S100000x128, .f32⟩ : BufTy).Contents (Elt F))
  :: unary main_v205 main_v227 (broadcastInDim S1x128 ![1] bcast_S128_S1x128_1 : (⟨S128, .f32⟩ : BufTy).Contents (Elt F) → (⟨S1x128, .f32⟩ : BufTy).Contents (Elt F))
  :: unary main_v227 main_v228 (broadcastInDim S100000x128 ![0, 1] bcast_S1x128_S100000x128_0_1 : (⟨S1x128, .f32⟩ : BufTy).Contents (Elt F) → (⟨S100000x128, .f32⟩ : BufTy).Contents (Elt F))
  :: binary main_v226 main_v228 main_v229 (subf : (⟨S100000x128, .f32⟩ : BufTy).Contents (Elt F) → (⟨S100000x128, .f32⟩ : BufTy).Contents (Elt F) → (⟨S100000x128, .f32⟩ : BufTy).Contents (Elt F))
  :: unary main_v201 main_v230 (broadcastInDim S1x128 ![1] bcast_S128_S1x128_1 : (⟨S128, .f32⟩ : BufTy).Contents (Elt F) → (⟨S1x128, .f32⟩ : BufTy).Contents (Elt F))
  :: unary main_v230 main_v231 (broadcastInDim S100000x128 ![0, 1] bcast_S1x128_S100000x128_0_1 : (⟨S1x128, .f32⟩ : BufTy).Contents (Elt F) → (⟨S100000x128, .f32⟩ : BufTy).Contents (Elt F))
  :: binary main_v231 main_v229 main_v232 (mulf : (⟨S100000x128, .f32⟩ : BufTy).Contents (Elt F) → (⟨S100000x128, .f32⟩ : BufTy).Contents (Elt F) → (⟨S100000x128, .f32⟩ : BufTy).Contents (Elt F))
  :: nullary main_cst_17 (constant S_ .f32 0x3727C5AC#32)
  :: unary main_cst_17 main_v233 (broadcastInDim S128 ![] bcast_S_S128 : (⟨S_, .f32⟩ : BufTy).Contents (Elt F) → (⟨S128, .f32⟩ : BufTy).Contents (Elt F))
  :: binary main_v207 main_v233 main_v234 (addf : (⟨S128, .f32⟩ : BufTy).Contents (Elt F) → (⟨S128, .f32⟩ : BufTy).Contents (Elt F) → (⟨S128, .f32⟩ : BufTy).Contents (Elt F))
  :: unary main_v234 main_v235 (Host.rsqrt : (⟨S128, .f32⟩ : BufTy).Contents (Elt F) → (⟨S128, .f32⟩ : BufTy).Contents (Elt F))
  :: unary main_v235 main_v236 (broadcastInDim S1x128 ![1] bcast_S128_S1x128_1 : (⟨S128, .f32⟩ : BufTy).Contents (Elt F) → (⟨S1x128, .f32⟩ : BufTy).Contents (Elt F))
  :: unary main_v236 main_v237 (broadcastInDim S100000x128 ![0, 1] bcast_S1x128_S100000x128_0_1 : (⟨S1x128, .f32⟩ : BufTy).Contents (Elt F) → (⟨S100000x128, .f32⟩ : BufTy).Contents (Elt F))
  :: binary main_v232 main_v237 main_v238 (mulf : (⟨S100000x128, .f32⟩ : BufTy).Contents (Elt F) → (⟨S100000x128, .f32⟩ : BufTy).Contents (Elt F) → (⟨S100000x128, .f32⟩ : BufTy).Contents (Elt F))
  :: unary main_v203 main_v239 (broadcastInDim S1x128 ![1] bcast_S128_S1x128_1 : (⟨S128, .f32⟩ : BufTy).Contents (Elt F) → (⟨S1x128, .f32⟩ : BufTy).Contents (Elt F))
  :: unary main_v239 main_v240 (broadcastInDim S100000x128 ![0, 1] bcast_S1x128_S100000x128_0_1 : (⟨S1x128, .f32⟩ : BufTy).Contents (Elt F) → (⟨S100000x128, .f32⟩ : BufTy).Contents (Elt F))
  :: binary main_v238 main_v240 main_v241 (addf : (⟨S100000x128, .f32⟩ : BufTy).Contents (Elt F) → (⟨S100000x128, .f32⟩ : BufTy).Contents (Elt F) → (⟨S100000x128, .f32⟩ : BufTy).Contents (Elt F))
  :: TRef.nullary (TRef.of (T := ⟨S_, .f32⟩) main_call8_cst) (constant S_ .f32 0x00000000#32)
  :: TRef.unary (TRef.of (T := ⟨S_, .f32⟩) main_call8_cst) (TRef.of (T := ⟨S100000x128, .f32⟩) main_call8_v0) (broadcastInDim S100000x128 ![] bcast_S_S100000x128)
  :: TRef.binary (TRef.of (T := ⟨S100000x128, .f32⟩) main_v241) (TRef.of (T := ⟨S100000x128, .f32⟩) main_call8_v0) (TRef.of (T := ⟨S100000x128, .f32⟩) main_v242) maximumf
  :: binary main_v242 main_v209 main_v243 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: unary main_v211 main_v244 (broadcastInDim S1x128 ![1] bcast_S128_S1x128_1 : (⟨S128, .f32⟩ : BufTy).Contents (Elt F) → (⟨S1x128, .f32⟩ : BufTy).Contents (Elt F))
  :: unary main_v244 main_v245 (broadcastInDim S100000x128 ![0, 1] bcast_S1x128_S100000x128_0_1 : (⟨S1x128, .f32⟩ : BufTy).Contents (Elt F) → (⟨S100000x128, .f32⟩ : BufTy).Contents (Elt F))
  :: binary main_v243 main_v245 main_v246 (addf : (⟨S100000x128, .f32⟩ : BufTy).Contents (Elt F) → (⟨S100000x128, .f32⟩ : BufTy).Contents (Elt F) → (⟨S100000x128, .f32⟩ : BufTy).Contents (Elt F))
  :: TRef.nullary (TRef.of (T := ⟨S_, .f32⟩) main_call9_cst) (constant S_ .f32 0x00000000#32)
  :: TRef.unary (TRef.of (T := ⟨S_, .f32⟩) main_call9_cst) (TRef.of (T := ⟨S100000x128, .f32⟩) main_call9_v0) (broadcastInDim S100000x128 ![] bcast_S_S100000x128)
  :: TRef.binary (TRef.of (T := ⟨S100000x128, .f32⟩) main_v246) (TRef.of (T := ⟨S100000x128, .f32⟩) main_call9_v0) (TRef.of (T := ⟨S100000x128, .f32⟩) main_v247) maximumf
  :: [] )
theorem opsL4_sub : (opsL4 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
theorem opsL4_fresh : (opsL4 : List (HloOp τ sig (Elt F))).Forall fun op => op.fresh = ∅ := by
  simp only [List.Forall]; repeat' constructor

/-- The tail: the per-graph sums of layer 5's output, the product with the read-out column, the bias, the final reshape. -/
abbrev opsT : List (HloOp τ sig (Elt F)) :=
  ( nullary main_cst_18 (constant S_ .f32 0x00000000#32)
  :: unary main_cst_18 main_v248 (broadcastInDim S1000x128 ![] bcast_S_S1000x128 : (⟨S_, .f32⟩ : BufTy).Contents (Elt F) → (⟨S1000x128, .f32⟩ : BufTy).Contents (Elt F))
  :: unary main_arg2 main_v249 (broadcastInDim S100000x1 ![0] bcast_S100000_S100000x1_0 : (⟨S100000, .i32⟩ : BufTy).Contents (Elt F) → (⟨S100000x1, .i32⟩ : BufTy).Contents (Elt F))
  :: ternary main_v248 main_v249 main_v247 main_v250 ((fun x i u => Host.scatterAdd scatter_S1000x128_S100000x1_S100000x128_1_0_0_1 x i u) : (⟨S1000x128, .f32⟩ : BufTy).Contents (Elt F) → (⟨S100000x1, .i32⟩ : BufTy).Contents (Elt F) → (⟨S100000x128, .f32⟩ : BufTy).Contents (Elt F) → (⟨S1000x128, .f32⟩ : BufTy).Contents (Elt F))
  :: binary main_v250 main_arg19 main_v251 ((fun l r => Host.dotGeneral dot_S1000x128_S128x1_S1000x1_1_0_0_1_n_n none l r) : (⟨S1000x128, .f32⟩ : BufTy).Contents (Elt F) → (⟨S128x1, .f32⟩ : BufTy).Contents (Elt F) → (⟨S1000x1, .f32⟩ : BufTy).Contents (Elt F))
  :: unary main_arg20 main_v252 (broadcastInDim S1x1 ![1] bcast_S1_S1x1_1 : (⟨S1, .f32⟩ : BufTy).Contents (Elt F) → (⟨S1x1, .f32⟩ : BufTy).Contents (Elt F))
  :: unary main_v252 main_v253 (broadcastInDim S1000x1 ![0, 1] bcast_S1x1_S1000x1_0_1 : (⟨S1x1, .f32⟩ : BufTy).Contents (Elt F) → (⟨S1000x1, .f32⟩ : BufTy).Contents (Elt F))
  :: binary main_v251 main_v253 main_v254 (addf : (⟨S1000x1, .f32⟩ : BufTy).Contents (Elt F) → (⟨S1000x1, .f32⟩ : BufTy).Contents (Elt F) → (⟨S1000x1, .f32⟩ : BufTy).Contents (Elt F))
  :: reshape main_v254 main_v255 rfl shapeCasts_S1000x1_S1000
  :: [] )
theorem opsT_sub : (opsT : List (HloOp τ sig (Elt F))).Forall fun op => op.bufs ⊆ tcRefs τ sig :=
  ⟨nullary_bufs_sub .., unary_bufs_sub .., unary_bufs_sub .., ternary_bufs_sub .., binary_bufs_sub .., unary_bufs_sub .., unary_bufs_sub .., binary_bufs_sub .., reshape_bufs_sub ..⟩
theorem opsT_fresh : (opsT : List (HloOp τ sig (Elt F))).Forall fun op => op.fresh = ∅ := by
  simp only [List.Forall]; repeat' constructor

/-- The whole program: the six stretches in order. -/
abbrev ops : List (HloOp τ sig (Elt F)) := opsL0 ++ opsL1 ++ opsL2 ++ opsL3 ++ opsL4 ++ opsT

set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem forall_append {α : Type} (p : α → Prop) (a b : List α) (ha : a.Forall p) (hb : b.Forall p) : (a ++ b).Forall p :=
  List.forall_iff_forall_mem.mpr fun x hx => (List.mem_append.mp hx).elim
    (List.forall_iff_forall_mem.mp ha x) (List.forall_iff_forall_mem.mp hb x)

theorem ops_sub : (ops : List (HloOp τ sig (Elt F))).Forall fun op => op.bufs ⊆ tcRefs τ sig :=
  forall_append _ _ _ (forall_append _ _ _ (forall_append _ _ _ (forall_append _ _ _ (forall_append _ _ _
    opsL0_sub opsL1_sub) opsL2_sub) opsL3_sub) opsL4_sub) opsT_sub

theorem ops_fresh : ∀ op ∈ (ops : List (HloOp τ sig (Elt F))), op.fresh = ∅ :=
  List.forall_iff_forall_mem.mp
    (forall_append _ _ _ (forall_append _ _ _ (forall_append _ _ _ (forall_append _ _ _ (forall_append _ _ _
      opsL0_fresh opsL1_fresh) opsL2_fresh) opsL3_fresh) opsL4_fresh) opsT_fresh)

/-- Folding two stretches in a row is folding their concatenation. -/
theorem after_append {Val : EltTy → Type} (a b : List (HloOp τ sig Val)) (V : Valuation τ sig Val) :
    after (a ++ b) V = after b (after a V) := by
  induction a generalizing V with
  | nil => rfl
  | cons op a ih => exact ih _

variable (m : (ℓ : Loc nD τ sig) → Buf (Elt F) ℓ) (d : Dev nD)

/-- The buffer contents at the cuts: at launch, after layer 1, …, after layer 5, at the return. Plain definitions,
    so that reading one stretch stops at the previous cut's contents. -/
abbrev R0 : Valuation τ sig (Elt F) := launchContents m d
def R1 : Valuation τ sig (Elt F) := after opsL0 (R0 m d)
def R2 : Valuation τ sig (Elt F) := after opsL1 (R1 m d)
def R3 : Valuation τ sig (Elt F) := after opsL2 (R2 m d)
def R4 : Valuation τ sig (Elt F) := after opsL3 (R3 m d)
def R5 : Valuation τ sig (Elt F) := after opsL4 (R4 m d)
def R6 : Valuation τ sig (Elt F) := after opsT (R5 m d)

/-- Every weakly fair execution terminates, nothing faulting, with every buffer at the last cut's contents. -/
theorem run (ρ : Dev nD → PrngReg) :
    θ_run defs (onTc (τ := τ) (main (F := F))) ⟨m, fun _ => 0, ρ⟩ fun r =>
      ∀ (d : Dev nD) (b : Ref sig .tc), r.2.mem ((d.tc : Thread nD τ).loc b) = R6 m d (Proc.devRef .tc b) :=
  (θ_run defs _ _).mono (fun r h d b => (h d b).trans (by
      simp only [after_append]; rfl))
    (run_seq scopedRefs_eq scopedSems_eq defs main (fun _ => ops) main_eq (fun _ => ops_sub) m ρ (fun _ => ops_fresh))

end Cert.ReferenceIdeal.RefRun

end
-- ==== Proof.LibHostDotIdx.lean ====
/-
  A host product of two matrices at exact arithmetic, read at an entry: the sum over the contracted axis of the
  products of the left factor's row entries with the right factor's column entries. Stated for any contraction
  record between two-axis shapes whose operand indices are "row of the result, contracted position" and
  "contracted position, column of the result" — the same reading the TensorCore product has, so that the two
  meet in one sum.
-/
import Idealize.ShloMosaic.Lib.ValueIdx
import Idealize.ShloMosaic.PureOps.Ideal.Laws

noncomputable section

namespace LibHostDotIdx

open Idealize.ShloMosaic Idealize.ShloMosaic.ValueIdx

/-- The host's `dot_general` of an M×K by a K×N matrix, at entry `j`: Σ_k l[j₀,k] · r[k,j₁]. -/
theorem hostDot2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) D prec l r j
      = ∑ k : Fin K, l (ix2 (n0 := M) (n1 := K) (j 0) k) * r (ix2 (n0 := K) (n1 := N) k (j 1)) := by
  simp only [Host.dotGeneral]
  rw [Ideal.dotGeneral_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibHostDotIdx

end
-- ==== Proof.RefLayers.lean ====
/-
  One layer of the reference on whole arrays, read as `GinLayer.layer` of its input arrays.

  The reference computes a layer on whole arrays: it adds the node features to the neighbour sums, multiplies by the
  first weight matrix, adds the bias spread over all nodes, subtracts the spread running mean, multiplies by the
  spread scale and by the spread inverse square root of the offset variance, adds the spread shift, clamps at zero,
  multiplies by the second weight matrix, adds the second bias and clamps again. Entry (r, q) of the result is
  `GinLayer.unit` of row r: a matrix product at an entry is the sum over the contracted axis, and a per-unit vector
  spread over the nodes reads, at (r, j), its entry j.
-/
import proofs.«130913_j56831007261128_1_alg».proof.Proof.Gen.ReferenceIdeal
import proofs.«130913_j56831007261128_1_alg».proof.Proof.LibHostDotIdx
import proofs.«130913_j56831007261128_1_alg».proof.Proof.LayerSpec
import Idealize.ShloMosaic.Lib.Pipeline.Value

set_option maxRecDepth 16384

noncomputable section

namespace Cert.ReferenceIdeal.RefValue

open Cert.ReferenceIdeal Cert.ReferenceIdeal.Gen Idealize.ShloMosaic Idealize.ShloMosaic.ValueIdx
open Idealize.ShloMosaic.Pipeline

/-! ## The two contraction records -/

theorem h3_l0 (j : S100000x128.Idx) (k : dot_S100000x3_S3x128_S100000x128_1_0_0_1_n_n.contr.Idx) : (dot_S100000x3_S3x128_S100000x128_1_0_0_1_n_n.lhsIdx j k 0).val = (j 0).val := by
  unfold DotDims.lhsIdx
  rw [dif_neg (show ¬(0 : Fin S100000x3.rank) ∈ dot_S100000x3_S3x128_S100000x128_1_0_0_1_n_n.lhsBatch by decide), dif_pos (show (0 : Fin S100000x3.rank) ∈ dot_S100000x3_S3x128_S100000x128_1_0_0_1_n_n.lhsNonContracting by decide)]
  rfl
theorem h3_l1 (j : S100000x128.Idx) (k : dot_S100000x3_S3x128_S100000x128_1_0_0_1_n_n.contr.Idx) : (dot_S100000x3_S3x128_S100000x128_1_0_0_1_n_n.lhsIdx j k 1).val = (k ⟨0, by decide⟩).val :=
  dot_S100000x3_S3x128_S100000x128_1_0_0_1_n_n.lhsIdx_val_of_single rfl j k
theorem h3_r0 (j : S100000x128.Idx) (k : dot_S100000x3_S3x128_S100000x128_1_0_0_1_n_n.contr.Idx) : (dot_S100000x3_S3x128_S100000x128_1_0_0_1_n_n.rhsIdx j k 0).val = (k ⟨0, by decide⟩).val :=
  dot_S100000x3_S3x128_S100000x128_1_0_0_1_n_n.rhsIdx_val_of_single rfl j k
theorem h3_r1 (j : S100000x128.Idx) (k : dot_S100000x3_S3x128_S100000x128_1_0_0_1_n_n.contr.Idx) : (dot_S100000x3_S3x128_S100000x128_1_0_0_1_n_n.rhsIdx j k 1).val = (j 1).val := by
  unfold DotDims.rhsIdx
  rw [dif_neg (show ¬(1 : Fin S3x128.rank) ∈ dot_S100000x3_S3x128_S100000x128_1_0_0_1_n_n.rhsBatch by decide), dif_pos (show (1 : Fin S3x128.rank) ∈ dot_S100000x3_S3x128_S100000x128_1_0_0_1_n_n.rhsNonContracting by decide)]
  rfl

theorem h128_l0 (j : S100000x128.Idx) (k : dot_S100000x128_S128x128_S100000x128_1_0_0_1_n_n.contr.Idx) : (dot_S100000x128_S128x128_S100000x128_1_0_0_1_n_n.lhsIdx j k 0).val = (j 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem h128_l1 (j : S100000x128.Idx) (k : dot_S100000x128_S128x128_S100000x128_1_0_0_1_n_n.contr.Idx) : (dot_S100000x128_S128x128_S100000x128_1_0_0_1_n_n.lhsIdx j k 1).val = (k ⟨0, by decide⟩).val :=
  dot_S100000x128_S128x128_S100000x128_1_0_0_1_n_n.lhsIdx_val_of_single rfl j k
theorem h128_r0 (j : S100000x128.Idx) (k : dot_S100000x128_S128x128_S100000x128_1_0_0_1_n_n.contr.Idx) : (dot_S100000x128_S128x128_S100000x128_1_0_0_1_n_n.rhsIdx j k 0).val = (k ⟨0, by decide⟩).val :=
  dot_S100000x128_S128x128_S100000x128_1_0_0_1_n_n.rhsIdx_val_of_single rfl j k
theorem h128_r1 (j : S100000x128.Idx) (k : dot_S100000x128_S128x128_S100000x128_1_0_0_1_n_n.contr.Idx) : (dot_S100000x128_S128x128_S100000x128_1_0_0_1_n_n.rhsIdx j k 1).val = (j 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-! ## Spreading a per-unit vector over the nodes; the clamp's floor; the variance offset -/

/-- A vector of 128 per-unit numbers as a 100000×128 array, every row the vector. -/
abbrev spread (x : FVec Ideal S128 .f32) : FVec Ideal S100000x128 .f32 :=
  broadcastInDim S100000x128 ![0, 1] bcast_S1x128_S100000x128_0_1 (broadcastInDim S1x128 ![1] bcast_S128_S1x128_1 x)

theorem spread_apply (x : FVec Ideal S128 .f32) (r : Fin 100000) (j : Fin 128) : spread x (ix2 r j) = x (ix1 j) := by
  refine (broadcastInDim_apply _ bcast_S1x128_S100000x128_0_1 _ (ix2 r j) (ix2 (0 : Fin 1) j) (fun a => ?_)).trans ?_
  · match a with
    | ⟨0, _⟩ => show (0 : Nat) = if (1 : Nat) = 1 then 0 else r.val; rw [if_pos rfl]
    | ⟨1, _⟩ => show j.val = if (128 : Nat) = 1 then 0 else j.val; rw [if_neg (by decide)]
  · exact broadcastInDim_apply _ bcast_S128_S1x128_1 x (ix2 (0 : Fin 1) j) (ix1 j) (fun a => match a with
      | ⟨0, _⟩ => by show j.val = if (128 : Nat) = 1 then 0 else j.val; rw [if_neg (by decide)])

/-- The array of zeros the clamp compares with. -/
abbrev zeros : FVec Ideal S100000x128 .f32 :=
  broadcastInDim S100000x128 ![] bcast_S_S100000x128 (constant (F := Ideal) S_ .f32 0x00000000#32)

theorem zeros_apply (i : S100000x128.Idx) : zeros i = GinLayer.floor0 :=
  (broadcastInDim_apply _ bcast_S_S100000x128 _ i ix0 (fun a => a.elim0)).trans rfl

/-- The offset variance's inverse square root, per unit. -/
theorem invstd_apply (v : FVec Ideal S128 .f32) (j : Fin 128) :
    Host.rsqrt (addf v (broadcastInDim S128 ![] bcast_S_S128 (constant (F := Ideal) S_ .f32 0x3727C5AC#32))) (ix1 j)
      = Ideal.rsqrt (v (ix1 j) + GinLayer.varEps) :=
  congrArg Ideal.rsqrt (congrArg₂ (· + ·) rfl
    ((broadcastInDim_apply _ bcast_S_S128 _ (ix1 j) ix0 (fun a => a.elim0)).trans rfl))

/-! ## One layer on whole arrays -/

/-- The reference's operations of one layer, for D input features per node. -/
def refLayer {D : ℕ} (dotD : DotDims ⟨2, ![100000, D]⟩ ⟨2, ![D, 128]⟩ S100000x128)
    (H A : FVec Ideal ⟨2, ![100000, D]⟩ .f32) (W1 : FVec Ideal ⟨2, ![D, 128]⟩ .f32) (b1 g be mu v : FVec Ideal S128 .f32)
    (W2 : FVec Ideal S128x128 .f32) (b2 : FVec Ideal S128 .f32) : FVec Ideal S100000x128 .f32 :=
  maximumf (addf (Host.dotGeneral dot_S100000x128_S128x128_S100000x128_1_0_0_1_n_n none
      (maximumf (addf (mulf (mulf (spread g) (subf (addf (Host.dotGeneral dotD none (addf H A) W1) (spread b1)) (spread mu)))
          (spread (Host.rsqrt (addf v (broadcastInDim S128 ![] bcast_S_S128 (constant (F := Ideal) S_ .f32 0x3727C5AC#32))))))
        (spread be)) zeros) W2) (spread b2)) zeros

/-- Entry by entry it is the layer of `LayerSpec`. -/
theorem refLayer_eq {D : ℕ} (dotD : DotDims ⟨2, ![100000, D]⟩ ⟨2, ![D, 128]⟩ S100000x128)
    (hr : dotD.contr.rank = 1) (hs : dotD.contr.size ⟨0, by omega⟩ = D)
    (hl0 : ∀ j k, (dotD.lhsIdx j k 0).val = (j 0).val) (hl1 : ∀ j k, (dotD.lhsIdx j k 1).val = (k ⟨0, by omega⟩).val)
    (hr0 : ∀ j k, (dotD.rhsIdx j k 0).val = (k ⟨0, by omega⟩).val) (hr1 : ∀ j k, (dotD.rhsIdx j k 1).val = (j 1).val)
    (H A : FVec Ideal ⟨2, ![100000, D]⟩ .f32) (W1 : FVec Ideal ⟨2, ![D, 128]⟩ .f32) (b1 g be mu v : FVec Ideal S128 .f32)
    (W2 : FVec Ideal S128x128 .f32) (b2 : FVec Ideal S128 .f32) :
    refLayer dotD H A W1 b1 g be mu v W2 b2
      = GinLayer.layer H A W1 (fun j => b1 (ix1 j)) (fun j => g (ix1 j)) (fun j => be (ix1 j)) (fun j => mu (ix1 j))
          (fun j => v (ix1 j)) W2 (fun j => b2 (ix1 j)) := by
  funext i
  obtain ⟨r, q, rfl⟩ : ∃ (r : Fin 100000) (q : Fin 128), i = ix2 r q := ⟨i 0, i 1, eq_ix2 i⟩
  unfold refLayer GinLayer.layer GinLayer.unit
  dsimp only
  refine congrArg₂ max ?_ (zeros_apply _)
  refine congrArg₂ (· + ·) ?_ (spread_apply b2 r q)
  refine (LibHostDotIdx.hostDot2_apply dot_S100000x128_S128x128_S100000x128_1_0_0_1_n_n rfl rfl h128_l0 h128_l1 h128_r0 h128_r1 none _ _ (ix2 r q)).trans ?_
  refine Finset.sum_congr rfl fun j _ => ?_
  refine congrArg₂ (· * ·) ?_ rfl
  unfold GinLayer.hidden
  refine congrArg₂ max ?_ (zeros_apply _)
  refine congrArg₂ (· + ·) ?_ (spread_apply be r j)
  refine congrArg₂ (· * ·) ?_ ((spread_apply _ r j).trans (invstd_apply v j))
  refine congrArg₂ (· * ·) (spread_apply g r j) ?_
  refine congrArg₂ (· - ·) ?_ (spread_apply mu r j)
  refine congrArg₂ (· + ·) ?_ (spread_apply b1 r j)
  exact (LibHostDotIdx.hostDot2_apply dotD hr hs hl0 hl1 hr0 hr1 none _ _ (ix2 r j)).trans rfl

end Cert.ReferenceIdeal.RefValue

end
-- ==== Proof.RefTerms.lean ====
/-
  The host-side pieces of the network as named functions of arrays: the two rows of the edge list, the neighbour
  sums (a gather of the source rows followed by a scatter-add at the target rows), the slices of the stacked layer
  parameters, and the read-out. Both programs compute these by the same host operations; naming them lets the
  layer-by-layer comparison treat them as opaque functions.
-/
import proofs.«130913_j56831007261128_1_alg».proof.Proof.Gen.ReferenceIdeal
import Idealize.ShloMosaic.PureOps.Ideal

noncomputable section

namespace Cert.ReferenceIdeal.Terms

open Cert.ReferenceIdeal Cert.ReferenceIdeal.Gen Idealize.ShloMosaic

/-- The edge list's first row: each edge's source node. -/
def srcOf (e : IVec S2x600000 32) : IVec S600000 32 :=
  shapeCast _ (extractStridedSlice S1x600000 ![0, 0] e slices_S2x600000_S1x600000_0_0) shapeCasts_S1x600000_S600000
/-- The edge list's second row: each edge's target node. -/
def dstOf (e : IVec S2x600000 32) : IVec S600000 32 :=
  shapeCast _ (extractStridedSlice S1x600000 ![1, 0] e slices_S2x600000_S1x600000_1_0) shapeCasts_S1x600000_S600000
/-- A source index below zero counts from the end of the node axis. -/
def wrapIdx (s : IVec S600000 32) : IVec S600000 32 :=
  select (cmpi .slt s (broadcastInDim S600000 ![] bcast_S_S600000 (constantI S_ 32 0#32)))
    (addi s (broadcastInDim S600000 ![] bcast_S_S600000 (constantI S_ 32 100000#32))) s
/-- Neighbour sums of 3-feature nodes: row `dst e` collects row `src e` of `h` over the edges `e`. -/
def agg3 (h : FVec Ideal S100000x3 .f32) (src dst : IVec S600000 32) : FVec Ideal S100000x3 .f32 :=
  Host.scatterAdd scatter_S100000x3_S600000x1_S600000x3_1_0_0_1
    (broadcastInDim S100000x3 ![] bcast_S_S100000x3 (constant (F := Ideal) S_ .f32 0x00000000#32))
    (broadcastInDim S600000x1 ![0] bcast_S600000_S600000x1_0 dst)
    (Host.gather gather_S100000x3_S600000x1_S600000x3_1_0_n_n_0_1_13 h
      (broadcastInDim S600000x1 ![0] bcast_S600000_S600000x1_0 (wrapIdx src)))
/-- Neighbour sums of 128-feature nodes. -/
def agg128 (h : FVec Ideal S100000x128 .f32) (src dst : IVec S600000 32) : FVec Ideal S100000x128 .f32 :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 dst)
    (Host.gather gather_S100000x128_S600000x1_S600000x128_1_0_n_n_0_1_1128 h
      (broadcastInDim S600000x1 ![0] bcast_S600000_S600000x1_0 (wrapIdx src)))
/-- Matrix 0 of a stack of four 128×128 matrices. -/
def mat0 (x : FVec Ideal S4x128x128 .f32) : FVec Ideal S128x128 .f32 :=
  shapeCast _ (extractStridedSlice S1x128x128 ![0, 0, 0] x slices_S4x128x128_S1x128x128_0_0_0) shapeCasts_S1x128x128_S128x128
/-- Row 0 of a stack of four 128-vectors. -/
def row0 (x : FVec Ideal S4x128 .f32) : FVec Ideal S128 .f32 :=
  shapeCast _ (extractStridedSlice S1x128 ![0, 0] x slices_S4x128_S1x128_0_0) shapeCasts_S1x128_S128
/-- Matrix 1 of a stack of four 128×128 matrices. -/
def mat1 (x : FVec Ideal S4x128x128 .f32) : FVec Ideal S128x128 .f32 :=
  shapeCast _ (extractStridedSlice S1x128x128 ![1, 0, 0] x slices_S4x128x128_S1x128x128_1_0_0) shapeCasts_S1x128x128_S128x128
/-- Row 1 of a stack of four 128-vectors. -/
def row1 (x : FVec Ideal S4x128 .f32) : FVec Ideal S128 .f32 :=
  shapeCast _ (extractStridedSlice S1x128 ![1, 0] x slices_S4x128_S1x128_1_0) shapeCasts_S1x128_S128
/-- Matrix 2 of a stack of four 128×128 matrices. -/
def mat2 (x : FVec Ideal S4x128x128 .f32) : FVec Ideal S128x128 .f32 :=
  shapeCast _ (extractStridedSlice S1x128x128 ![2, 0, 0] x slices_S4x128x128_S1x128x128_2_0_0) shapeCasts_S1x128x128_S128x128
/-- Row 2 of a stack of four 128-vectors. -/
def row2 (x : FVec Ideal S4x128 .f32) : FVec Ideal S128 .f32 :=
  shapeCast _ (extractStridedSlice S1x128 ![2, 0] x slices_S4x128_S1x128_2_0) shapeCasts_S1x128_S128
/-- Matrix 3 of a stack of four 128×128 matrices. -/
def mat3 (x : FVec Ideal S4x128x128 .f32) : FVec Ideal S128x128 .f32 :=
  shapeCast _ (extractStridedSlice S1x128x128 ![3, 0, 0] x slices_S4x128x128_S1x128x128_3_0_0) shapeCasts_S1x128x128_S128x128
/-- Row 3 of a stack of four 128-vectors. -/
def row3 (x : FVec Ideal S4x128 .f32) : FVec Ideal S128 .f32 :=
  shapeCast _ (extractStridedSlice S1x128 ![3, 0] x slices_S4x128_S1x128_3_0) shapeCasts_S1x128_S128
/-- The read-out: per-graph sums of the node rows (row `b n` collects node `n`), times the read-out column, plus
    the bias, as a vector over the graphs. -/
def readout (h : FVec Ideal S100000x128 .f32) (b : IVec S100000 32) (w : FVec Ideal S128x1 .f32) (bc : FVec Ideal S1 .f32) :
    FVec Ideal S1000 .f32 :=
  shapeCast _ (addf (Host.dotGeneral dot_S1000x128_S128x1_S1000x1_1_0_0_1_n_n none
      (Host.scatterAdd scatter_S1000x128_S100000x1_S100000x128_1_0_0_1
        (broadcastInDim S1000x128 ![] bcast_S_S1000x128 (constant (F := Ideal) S_ .f32 0x00000000#32))
        (broadcastInDim S100000x1 ![0] bcast_S100000_S100000x1_0 b) h) w)
    (broadcastInDim S1000x1 ![0, 1] bcast_S1x1_S1000x1_0_1 (broadcastInDim S1x1 ![1] bcast_S1_S1x1_1 bc))) shapeCasts_S1000x1_S1000

end Cert.ReferenceIdeal.Terms

end
-- ==== Proof.RefKeep.lean ====
/-
  The network as a function of the reference's launch arrays, and what no stretch of the reference's run overwrites:
  the edge endpoints, computed once at the start, and the argument arrays. Each stretch's written buffers are listed
  once; a buffer outside the list keeps its contents across the stretch.
-/
import proofs.«130913_j56831007261128_1_alg».proof.Proof.RefRun
import proofs.«130913_j56831007261128_1_alg».proof.Proof.RefLayers
import proofs.«130913_j56831007261128_1_alg».proof.Proof.RefTerms

set_option maxRecDepth 16384

noncomputable section

namespace Cert.ReferenceIdeal.RefValue

open Cert.ReferenceIdeal Cert.ReferenceIdeal.Gen Cert.ReferenceIdeal.RefRun Cert.ReferenceIdeal.Terms
open Idealize.ShloMosaic Idealize.ShloMosaic.TcCoe Idealize.ShloMosaic.ValueIdx Idealize.ShloMosaic.StableHlo Idealize.SL.Sem

variable (m : (ℓ : Loc nD τ sig) → Buf (Elt Ideal) ℓ) (d : Dev nD)

/-! ## The network, as a function of the launch arrays -/

/-- Layer 1's output: the layer of the node features and their neighbour sums. -/
def h1 : S100000x128.Idx → EReal :=
  GinLayer.layer (m ((d.tc : Thread nD τ).loc main_arg0) : FVec Ideal S100000x3 .f32) (agg3 (m ((d.tc : Thread nD τ).loc main_arg0) : FVec Ideal S100000x3 .f32) (srcOf (m ((d.tc : Thread nD τ).loc main_arg1) : IVec S2x600000 32)) (dstOf (m ((d.tc : Thread nD τ).loc main_arg1) : IVec S2x600000 32))) (m ((d.tc : Thread nD τ).loc main_arg3) : FVec Ideal S3x128 .f32)
    (fun j => (m ((d.tc : Thread nD τ).loc main_arg4) : FVec Ideal S128 .f32) (ix1 j)) (fun j => (m ((d.tc : Thread nD τ).loc main_arg5) : FVec Ideal S128 .f32) (ix1 j)) (fun j => (m ((d.tc : Thread nD τ).loc main_arg6) : FVec Ideal S128 .f32) (ix1 j)) (fun j => (m ((d.tc : Thread nD τ).loc main_arg7) : FVec Ideal S128 .f32) (ix1 j)) (fun j => (m ((d.tc : Thread nD τ).loc main_arg8) : FVec Ideal S128 .f32) (ix1 j)) (m ((d.tc : Thread nD τ).loc main_arg9) : FVec Ideal S128x128 .f32) (fun j => (m ((d.tc : Thread nD τ).loc main_arg10) : FVec Ideal S128 .f32) (ix1 j))
/-- Layer 2's output: the layer of layer 1's output and its neighbour sums, with parameter set 0 of the stacks. -/
def h2 : S100000x128.Idx → EReal :=
  GinLayer.layer (h1 m d) (agg128 (h1 m d) (srcOf (m ((d.tc : Thread nD τ).loc main_arg1) : IVec S2x600000 32)) (dstOf (m ((d.tc : Thread nD τ).loc main_arg1) : IVec S2x600000 32))) (mat0 (m ((d.tc : Thread nD τ).loc main_arg11) : FVec Ideal S4x128x128 .f32))
    (fun j => row0 (m ((d.tc : Thread nD τ).loc main_arg12) : FVec Ideal S4x128 .f32) (ix1 j)) (fun j => row0 (m ((d.tc : Thread nD τ).loc main_arg13) : FVec Ideal S4x128 .f32) (ix1 j)) (fun j => row0 (m ((d.tc : Thread nD τ).loc main_arg14) : FVec Ideal S4x128 .f32) (ix1 j))
    (fun j => row0 (m ((d.tc : Thread nD τ).loc main_arg15) : FVec Ideal S4x128 .f32) (ix1 j)) (fun j => row0 (m ((d.tc : Thread nD τ).loc main_arg16) : FVec Ideal S4x128 .f32) (ix1 j)) (mat0 (m ((d.tc : Thread nD τ).loc main_arg17) : FVec Ideal S4x128x128 .f32)) (fun j => row0 (m ((d.tc : Thread nD τ).loc main_arg18) : FVec Ideal S4x128 .f32) (ix1 j))
/-- Layer 3's output: the layer of layer 2's output and its neighbour sums, with parameter set 1 of the stacks. -/
def h3 : S100000x128.Idx → EReal :=
  GinLayer.layer (h2 m d) (agg128 (h2 m d) (srcOf (m ((d.tc : Thread nD τ).loc main_arg1) : IVec S2x600000 32)) (dstOf (m ((d.tc : Thread nD τ).loc main_arg1) : IVec S2x600000 32))) (mat1 (m ((d.tc : Thread nD τ).loc main_arg11) : FVec Ideal S4x128x128 .f32))
    (fun j => row1 (m ((d.tc : Thread nD τ).loc main_arg12) : FVec Ideal S4x128 .f32) (ix1 j)) (fun j => row1 (m ((d.tc : Thread nD τ).loc main_arg13) : FVec Ideal S4x128 .f32) (ix1 j)) (fun j => row1 (m ((d.tc : Thread nD τ).loc main_arg14) : FVec Ideal S4x128 .f32) (ix1 j))
    (fun j => row1 (m ((d.tc : Thread nD τ).loc main_arg15) : FVec Ideal S4x128 .f32) (ix1 j)) (fun j => row1 (m ((d.tc : Thread nD τ).loc main_arg16) : FVec Ideal S4x128 .f32) (ix1 j)) (mat1 (m ((d.tc : Thread nD τ).loc main_arg17) : FVec Ideal S4x128x128 .f32)) (fun j => row1 (m ((d.tc : Thread nD τ).loc main_arg18) : FVec Ideal S4x128 .f32) (ix1 j))
/-- Layer 4's output: the layer of layer 3's output and its neighbour sums, with parameter set 2 of the stacks. -/
def h4 : S100000x128.Idx → EReal :=
  GinLayer.layer (h3 m d) (agg128 (h3 m d) (srcOf (m ((d.tc : Thread nD τ).loc main_arg1) : IVec S2x600000 32)) (dstOf (m ((d.tc : Thread nD τ).loc main_arg1) : IVec S2x600000 32))) (mat2 (m ((d.tc : Thread nD τ).loc main_arg11) : FVec Ideal S4x128x128 .f32))
    (fun j => row2 (m ((d.tc : Thread nD τ).loc main_arg12) : FVec Ideal S4x128 .f32) (ix1 j)) (fun j => row2 (m ((d.tc : Thread nD τ).loc main_arg13) : FVec Ideal S4x128 .f32) (ix1 j)) (fun j => row2 (m ((d.tc : Thread nD τ).loc main_arg14) : FVec Ideal S4x128 .f32) (ix1 j))
    (fun j => row2 (m ((d.tc : Thread nD τ).loc main_arg15) : FVec Ideal S4x128 .f32) (ix1 j)) (fun j => row2 (m ((d.tc : Thread nD τ).loc main_arg16) : FVec Ideal S4x128 .f32) (ix1 j)) (mat2 (m ((d.tc : Thread nD τ).loc main_arg17) : FVec Ideal S4x128x128 .f32)) (fun j => row2 (m ((d.tc : Thread nD τ).loc main_arg18) : FVec Ideal S4x128 .f32) (ix1 j))
/-- Layer 5's output: the layer of layer 4's output and its neighbour sums, with parameter set 3 of the stacks. -/
def h5 : S100000x128.Idx → EReal :=
  GinLayer.layer (h4 m d) (agg128 (h4 m d) (srcOf (m ((d.tc : Thread nD τ).loc main_arg1) : IVec S2x600000 32)) (dstOf (m ((d.tc : Thread nD τ).loc main_arg1) : IVec S2x600000 32))) (mat3 (m ((d.tc : Thread nD τ).loc main_arg11) : FVec Ideal S4x128x128 .f32))
    (fun j => row3 (m ((d.tc : Thread nD τ).loc main_arg12) : FVec Ideal S4x128 .f32) (ix1 j)) (fun j => row3 (m ((d.tc : Thread nD τ).loc main_arg13) : FVec Ideal S4x128 .f32) (ix1 j)) (fun j => row3 (m ((d.tc : Thread nD τ).loc main_arg14) : FVec Ideal S4x128 .f32) (ix1 j))
    (fun j => row3 (m ((d.tc : Thread nD τ).loc main_arg15) : FVec Ideal S4x128 .f32) (ix1 j)) (fun j => row3 (m ((d.tc : Thread nD τ).loc main_arg16) : FVec Ideal S4x128 .f32) (ix1 j)) (mat3 (m ((d.tc : Thread nD τ).loc main_arg17) : FVec Ideal S4x128x128 .f32)) (fun j => row3 (m ((d.tc : Thread nD τ).loc main_arg18) : FVec Ideal S4x128 .f32) (ix1 j))
/-- The program's result: the read-out of layer 5's output. -/
def out : FVec Ideal S1000 .f32 := readout (h5 m d) (m ((d.tc : Thread nD τ).loc main_arg2) : IVec S100000 32) (m ((d.tc : Thread nD τ).loc main_arg19) : FVec Ideal S128x1 .f32) (m ((d.tc : Thread nD τ).loc main_arg20) : FVec Ideal S1 .f32)

/-! ## What each stretch writes -/

/-- The buffers stretch 0's operations write. -/
abbrev opsL0_W : List (Ref sig .tc) := [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_v23, main_v24, main_cst_1, main_v25, main_v26, main_v27, main_v28, main_v29, main_v30, main_v31, main_v32, main_v33, main_call0_cst, main_call0_v0, main_v34, main_v35, main_v36, main_v37, main_v38, main_call1_cst, main_call1_v0, main_v39]
set_option maxHeartbeats 4000000 in
theorem opsL0_writes : (opsL0 : List (HloOp τ sig (Elt Ideal))).Forall fun op => op.writes ⊆ (opsL0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 0 does not write keeps its contents across it. -/
theorem keep0 (r : Ref sig .tc) (h : r ∉ opsL0_W) : R1 m d (Proc.devRef .tc r) = R0 m d (Proc.devRef .tc r) :=
  StableHlo.after_of_writes_sub opsL0 _ opsL0_writes h
/-- The buffers stretch 1's operations write. -/
abbrev opsL1_W : List (Ref sig .tc) := [main_v40, main_v41, main_v42, main_v43, main_v44, main_v45, main_v46, main_v47, main_v48, main_v49, main_v50, main_v51, main_v52, main_v53, main_v54, main_v55, main_c_2, main_v56, main_v57, main_c_3, main_v58, main_v59, main_v60, main_v61, main_v62, main_cst_4, main_v63, main_v64, main_v65, main_v66, main_v67, main_v68, main_v69, main_v70, main_v71, main_v72, main_v73, main_v74, main_v75, main_v76, main_cst_5, main_v77, main_v78, main_v79, main_v80, main_v81, main_v82, main_v83, main_v84, main_v85, main_call2_cst, main_call2_v0, main_v86, main_v87, main_v88, main_v89, main_v90, main_call3_cst, main_call3_v0, main_v91]
set_option maxHeartbeats 4000000 in
theorem opsL1_writes : (opsL1 : List (HloOp τ sig (Elt Ideal))).Forall fun op => op.writes ⊆ (opsL1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 1 does not write keeps its contents across it. -/
theorem keep1 (r : Ref sig .tc) (h : r ∉ opsL1_W) : R2 m d (Proc.devRef .tc r) = R1 m d (Proc.devRef .tc r) :=
  StableHlo.after_of_writes_sub opsL1 _ opsL1_writes h
/-- The buffers stretch 2's operations write. -/
abbrev opsL2_W : List (Ref sig .tc) := [main_v92, main_v93, main_v94, main_v95, main_v96, main_v97, main_v98, main_v99, main_v100, main_v101, main_v102, main_v103, main_v104, main_v105, main_v106, main_v107, main_c_6, main_v108, main_v109, main_c_7, main_v110, main_v111, main_v112, main_v113, main_v114, main_cst_8, main_v115, main_v116, main_v117, main_v118, main_v119, main_v120, main_v121, main_v122, main_v123, main_v124, main_v125, main_v126, main_v127, main_v128, main_cst_9, main_v129, main_v130, main_v131, main_v132, main_v133, main_v134, main_v135, main_v136, main_v137, main_call4_cst, main_call4_v0, main_v138, main_v139, main_v140, main_v141, main_v142, main_call5_cst, main_call5_v0, main_v143]
set_option maxHeartbeats 4000000 in
theorem opsL2_writes : (opsL2 : List (HloOp τ sig (Elt Ideal))).Forall fun op => op.writes ⊆ (opsL2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 2 does not write keeps its contents across it. -/
theorem keep2 (r : Ref sig .tc) (h : r ∉ opsL2_W) : R3 m d (Proc.devRef .tc r) = R2 m d (Proc.devRef .tc r) :=
  StableHlo.after_of_writes_sub opsL2 _ opsL2_writes h
/-- The buffers stretch 3's operations write. -/
abbrev opsL3_W : List (Ref sig .tc) := [main_v144, main_v145, main_v146, main_v147, main_v148, main_v149, main_v150, main_v151, main_v152, main_v153, main_v154, main_v155, main_v156, main_v157, main_v158, main_v159, main_c_10, main_v160, main_v161, main_c_11, main_v162, main_v163, main_v164, main_v165, main_v166, main_cst_12, main_v167, main_v168, main_v169, main_v170, main_v171, main_v172, main_v173, main_v174, main_v175, main_v176, main_v177, main_v178, main_v179, main_v180, main_cst_13, main_v181, main_v182, main_v183, main_v184, main_v185, main_v186, main_v187, main_v188, main_v189, main_call6_cst, main_call6_v0, main_v190, main_v191, main_v192, main_v193, main_v194, main_call7_cst, main_call7_v0, main_v195]
set_option maxHeartbeats 4000000 in
theorem opsL3_writes : (opsL3 : List (HloOp τ sig (Elt Ideal))).Forall fun op => op.writes ⊆ (opsL3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 3 does not write keeps its contents across it. -/
theorem keep3 (r : Ref sig .tc) (h : r ∉ opsL3_W) : R4 m d (Proc.devRef .tc r) = R3 m d (Proc.devRef .tc r) :=
  StableHlo.after_of_writes_sub opsL3 _ opsL3_writes h
/-- The buffers stretch 4's operations write. -/
abbrev opsL4_W : List (Ref sig .tc) := [main_v196, main_v197, main_v198, main_v199, main_v200, main_v201, main_v202, main_v203, main_v204, main_v205, main_v206, main_v207, main_v208, main_v209, main_v210, main_v211, main_c_14, main_v212, main_v213, main_c_15, main_v214, main_v215, main_v216, main_v217, main_v218, main_cst_16, main_v219, main_v220, main_v221, main_v222, main_v223, main_v224, main_v225, main_v226, main_v227, main_v228, main_v229, main_v230, main_v231, main_v232, main_cst_17, main_v233, main_v234, main_v235, main_v236, main_v237, main_v238, main_v239, main_v240, main_v241, main_call8_cst, main_call8_v0, main_v242, main_v243, main_v244, main_v245, main_v246, main_call9_cst, main_call9_v0, main_v247]
set_option maxHeartbeats 4000000 in
theorem opsL4_writes : (opsL4 : List (HloOp τ sig (Elt Ideal))).Forall fun op => op.writes ⊆ (opsL4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 4 does not write keeps its contents across it. -/
theorem keep4 (r : Ref sig .tc) (h : r ∉ opsL4_W) : R5 m d (Proc.devRef .tc r) = R4 m d (Proc.devRef .tc r) :=
  StableHlo.after_of_writes_sub opsL4 _ opsL4_writes h
/-- The buffers stretch 5's operations write. -/
abbrev opsT_W : List (Ref sig .tc) := [main_cst_18, main_v248, main_v249, main_v250, main_v251, main_v252, main_v253, main_v254, main_v255]
set_option maxHeartbeats 4000000 in
theorem opsT_writes : (opsT : List (HloOp τ sig (Elt Ideal))).Forall fun op => op.writes ⊆ (opsT_W.map (Proc.devRef (τ := τ) .tc)).toFinset := by
  simp only [List.Forall]
  refine ⟨?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer stretch 5 does not write keeps its contents across it. -/
theorem keep5 (r : Ref sig .tc) (h : r ∉ opsT_W) : R6 m d (Proc.devRef .tc r) = R5 m d (Proc.devRef .tc r) :=
  StableHlo.after_of_writes_sub opsT _ opsT_writes h

/-! ## What is never overwritten -/

theorem r1_main_v1 : (R1 m d (Proc.devRef .tc main_v1) : IVec S600000 32) = srcOf (m ((d.tc : Thread nD τ).loc main_arg1) : IVec S2x600000 32) := by
  show after opsL0 (R0 m d) (Proc.devRef .tc main_v1) = _
  after_results
  all_goals rfl
theorem r2_main_v1 : (R2 m d (Proc.devRef .tc main_v1) : IVec S600000 32) = srcOf (m ((d.tc : Thread nD τ).loc main_arg1) : IVec S2x600000 32) := (keep1 m d main_v1 (by decide)).trans (r1_main_v1 m d)
theorem r3_main_v1 : (R3 m d (Proc.devRef .tc main_v1) : IVec S600000 32) = srcOf (m ((d.tc : Thread nD τ).loc main_arg1) : IVec S2x600000 32) := (keep2 m d main_v1 (by decide)).trans (r2_main_v1 m d)
theorem r4_main_v1 : (R4 m d (Proc.devRef .tc main_v1) : IVec S600000 32) = srcOf (m ((d.tc : Thread nD τ).loc main_arg1) : IVec S2x600000 32) := (keep3 m d main_v1 (by decide)).trans (r3_main_v1 m d)
theorem r5_main_v1 : (R5 m d (Proc.devRef .tc main_v1) : IVec S600000 32) = srcOf (m ((d.tc : Thread nD τ).loc main_arg1) : IVec S2x600000 32) := (keep4 m d main_v1 (by decide)).trans (r4_main_v1 m d)
theorem r1_main_v3 : (R1 m d (Proc.devRef .tc main_v3) : IVec S600000 32) = dstOf (m ((d.tc : Thread nD τ).loc main_arg1) : IVec S2x600000 32) := by
  show after opsL0 (R0 m d) (Proc.devRef .tc main_v3) = _
  after_results
  all_goals rfl
theorem r2_main_v3 : (R2 m d (Proc.devRef .tc main_v3) : IVec S600000 32) = dstOf (m ((d.tc : Thread nD τ).loc main_arg1) : IVec S2x600000 32) := (keep1 m d main_v3 (by decide)).trans (r1_main_v3 m d)
theorem r3_main_v3 : (R3 m d (Proc.devRef .tc main_v3) : IVec S600000 32) = dstOf (m ((d.tc : Thread nD τ).loc main_arg1) : IVec S2x600000 32) := (keep2 m d main_v3 (by decide)).trans (r2_main_v3 m d)
theorem r4_main_v3 : (R4 m d (Proc.devRef .tc main_v3) : IVec S600000 32) = dstOf (m ((d.tc : Thread nD τ).loc main_arg1) : IVec S2x600000 32) := (keep3 m d main_v3 (by decide)).trans (r3_main_v3 m d)
theorem r5_main_v3 : (R5 m d (Proc.devRef .tc main_v3) : IVec S600000 32) = dstOf (m ((d.tc : Thread nD τ).loc main_arg1) : IVec S2x600000 32) := (keep4 m d main_v3 (by decide)).trans (r4_main_v3 m d)
theorem r1_main_arg2 : (R1 m d (Proc.devRef .tc main_arg2) : IVec S100000 32) = (m ((d.tc : Thread nD τ).loc main_arg2) : IVec S100000 32) := keep0 m d main_arg2 (by decide)
theorem r2_main_arg2 : (R2 m d (Proc.devRef .tc main_arg2) : IVec S100000 32) = (m ((d.tc : Thread nD τ).loc main_arg2) : IVec S100000 32) := (keep1 m d main_arg2 (by decide)).trans (r1_main_arg2 m d)
theorem r3_main_arg2 : (R3 m d (Proc.devRef .tc main_arg2) : IVec S100000 32) = (m ((d.tc : Thread nD τ).loc main_arg2) : IVec S100000 32) := (keep2 m d main_arg2 (by decide)).trans (r2_main_arg2 m d)
theorem r4_main_arg2 : (R4 m d (Proc.devRef .tc main_arg2) : IVec S100000 32) = (m ((d.tc : Thread nD τ).loc main_arg2) : IVec S100000 32) := (keep3 m d main_arg2 (by decide)).trans (r3_main_arg2 m d)
theorem r5_main_arg2 : (R5 m d (Proc.devRef .tc main_arg2) : IVec S100000 32) = (m ((d.tc : Thread nD τ).loc main_arg2) : IVec S100000 32) := (keep4 m d main_arg2 (by decide)).trans (r4_main_arg2 m d)
theorem r1_main_arg11 : (R1 m d (Proc.devRef .tc main_arg11) : FVec Ideal S4x128x128 .f32) = (m ((d.tc : Thread nD τ).loc main_arg11) : FVec Ideal S4x128x128 .f32) := keep0 m d main_arg11 (by decide)
theorem r2_main_arg11 : (R2 m d (Proc.devRef .tc main_arg11) : FVec Ideal S4x128x128 .f32) = (m ((d.tc : Thread nD τ).loc main_arg11) : FVec Ideal S4x128x128 .f32) := (keep1 m d main_arg11 (by decide)).trans (r1_main_arg11 m d)
theorem r3_main_arg11 : (R3 m d (Proc.devRef .tc main_arg11) : FVec Ideal S4x128x128 .f32) = (m ((d.tc : Thread nD τ).loc main_arg11) : FVec Ideal S4x128x128 .f32) := (keep2 m d main_arg11 (by decide)).trans (r2_main_arg11 m d)
theorem r4_main_arg11 : (R4 m d (Proc.devRef .tc main_arg11) : FVec Ideal S4x128x128 .f32) = (m ((d.tc : Thread nD τ).loc main_arg11) : FVec Ideal S4x128x128 .f32) := (keep3 m d main_arg11 (by decide)).trans (r3_main_arg11 m d)
theorem r5_main_arg11 : (R5 m d (Proc.devRef .tc main_arg11) : FVec Ideal S4x128x128 .f32) = (m ((d.tc : Thread nD τ).loc main_arg11) : FVec Ideal S4x128x128 .f32) := (keep4 m d main_arg11 (by decide)).trans (r4_main_arg11 m d)
theorem r1_main_arg12 : (R1 m d (Proc.devRef .tc main_arg12) : FVec Ideal S4x128 .f32) = (m ((d.tc : Thread nD τ).loc main_arg12) : FVec Ideal S4x128 .f32) := keep0 m d main_arg12 (by decide)
theorem r2_main_arg12 : (R2 m d (Proc.devRef .tc main_arg12) : FVec Ideal S4x128 .f32) = (m ((d.tc : Thread nD τ).loc main_arg12) : FVec Ideal S4x128 .f32) := (keep1 m d main_arg12 (by decide)).trans (r1_main_arg12 m d)
theorem r3_main_arg12 : (R3 m d (Proc.devRef .tc main_arg12) : FVec Ideal S4x128 .f32) = (m ((d.tc : Thread nD τ).loc main_arg12) : FVec Ideal S4x128 .f32) := (keep2 m d main_arg12 (by decide)).trans (r2_main_arg12 m d)
theorem r4_main_arg12 : (R4 m d (Proc.devRef .tc main_arg12) : FVec Ideal S4x128 .f32) = (m ((d.tc : Thread nD τ).loc main_arg12) : FVec Ideal S4x128 .f32) := (keep3 m d main_arg12 (by decide)).trans (r3_main_arg12 m d)
theorem r5_main_arg12 : (R5 m d (Proc.devRef .tc main_arg12) : FVec Ideal S4x128 .f32) = (m ((d.tc : Thread nD τ).loc main_arg12) : FVec Ideal S4x128 .f32) := (keep4 m d main_arg12 (by decide)).trans (r4_main_arg12 m d)
theorem r1_main_arg13 : (R1 m d (Proc.devRef .tc main_arg13) : FVec Ideal S4x128 .f32) = (m ((d.tc : Thread nD τ).loc main_arg13) : FVec Ideal S4x128 .f32) := keep0 m d main_arg13 (by decide)
theorem r2_main_arg13 : (R2 m d (Proc.devRef .tc main_arg13) : FVec Ideal S4x128 .f32) = (m ((d.tc : Thread nD τ).loc main_arg13) : FVec Ideal S4x128 .f32) := (keep1 m d main_arg13 (by decide)).trans (r1_main_arg13 m d)
theorem r3_main_arg13 : (R3 m d (Proc.devRef .tc main_arg13) : FVec Ideal S4x128 .f32) = (m ((d.tc : Thread nD τ).loc main_arg13) : FVec Ideal S4x128 .f32) := (keep2 m d main_arg13 (by decide)).trans (r2_main_arg13 m d)
theorem r4_main_arg13 : (R4 m d (Proc.devRef .tc main_arg13) : FVec Ideal S4x128 .f32) = (m ((d.tc : Thread nD τ).loc main_arg13) : FVec Ideal S4x128 .f32) := (keep3 m d main_arg13 (by decide)).trans (r3_main_arg13 m d)
theorem r5_main_arg13 : (R5 m d (Proc.devRef .tc main_arg13) : FVec Ideal S4x128 .f32) = (m ((d.tc : Thread nD τ).loc main_arg13) : FVec Ideal S4x128 .f32) := (keep4 m d main_arg13 (by decide)).trans (r4_main_arg13 m d)
theorem r1_main_arg14 : (R1 m d (Proc.devRef .tc main_arg14) : FVec Ideal S4x128 .f32) = (m ((d.tc : Thread nD τ).loc main_arg14) : FVec Ideal S4x128 .f32) := keep0 m d main_arg14 (by decide)
theorem r2_main_arg14 : (R2 m d (Proc.devRef .tc main_arg14) : FVec Ideal S4x128 .f32) = (m ((d.tc : Thread nD τ).loc main_arg14) : FVec Ideal S4x128 .f32) := (keep1 m d main_arg14 (by decide)).trans (r1_main_arg14 m d)
theorem r3_main_arg14 : (R3 m d (Proc.devRef .tc main_arg14) : FVec Ideal S4x128 .f32) = (m ((d.tc : Thread nD τ).loc main_arg14) : FVec Ideal S4x128 .f32) := (keep2 m d main_arg14 (by decide)).trans (r2_main_arg14 m d)
theorem r4_main_arg14 : (R4 m d (Proc.devRef .tc main_arg14) : FVec Ideal S4x128 .f32) = (m ((d.tc : Thread nD τ).loc main_arg14) : FVec Ideal S4x128 .f32) := (keep3 m d main_arg14 (by decide)).trans (r3_main_arg14 m d)
theorem r5_main_arg14 : (R5 m d (Proc.devRef .tc main_arg14) : FVec Ideal S4x128 .f32) = (m ((d.tc : Thread nD τ).loc main_arg14) : FVec Ideal S4x128 .f32) := (keep4 m d main_arg14 (by decide)).trans (r4_main_arg14 m d)
theorem r1_main_arg15 : (R1 m d (Proc.devRef .tc main_arg15) : FVec Ideal S4x128 .f32) = (m ((d.tc : Thread nD τ).loc main_arg15) : FVec Ideal S4x128 .f32) := keep0 m d main_arg15 (by decide)
theorem r2_main_arg15 : (R2 m d (Proc.devRef .tc main_arg15) : FVec Ideal S4x128 .f32) = (m ((d.tc : Thread nD τ).loc main_arg15) : FVec Ideal S4x128 .f32) := (keep1 m d main_arg15 (by decide)).trans (r1_main_arg15 m d)
theorem r3_main_arg15 : (R3 m d (Proc.devRef .tc main_arg15) : FVec Ideal S4x128 .f32) = (m ((d.tc : Thread nD τ).loc main_arg15) : FVec Ideal S4x128 .f32) := (keep2 m d main_arg15 (by decide)).trans (r2_main_arg15 m d)
theorem r4_main_arg15 : (R4 m d (Proc.devRef .tc main_arg15) : FVec Ideal S4x128 .f32) = (m ((d.tc : Thread nD τ).loc main_arg15) : FVec Ideal S4x128 .f32) := (keep3 m d main_arg15 (by decide)).trans (r3_main_arg15 m d)
theorem r5_main_arg15 : (R5 m d (Proc.devRef .tc main_arg15) : FVec Ideal S4x128 .f32) = (m ((d.tc : Thread nD τ).loc main_arg15) : FVec Ideal S4x128 .f32) := (keep4 m d main_arg15 (by decide)).trans (r4_main_arg15 m d)
theorem r1_main_arg16 : (R1 m d (Proc.devRef .tc main_arg16) : FVec Ideal S4x128 .f32) = (m ((d.tc : Thread nD τ).loc main_arg16) : FVec Ideal S4x128 .f32) := keep0 m d main_arg16 (by decide)
theorem r2_main_arg16 : (R2 m d (Proc.devRef .tc main_arg16) : FVec Ideal S4x128 .f32) = (m ((d.tc : Thread nD τ).loc main_arg16) : FVec Ideal S4x128 .f32) := (keep1 m d main_arg16 (by decide)).trans (r1_main_arg16 m d)
theorem r3_main_arg16 : (R3 m d (Proc.devRef .tc main_arg16) : FVec Ideal S4x128 .f32) = (m ((d.tc : Thread nD τ).loc main_arg16) : FVec Ideal S4x128 .f32) := (keep2 m d main_arg16 (by decide)).trans (r2_main_arg16 m d)
theorem r4_main_arg16 : (R4 m d (Proc.devRef .tc main_arg16) : FVec Ideal S4x128 .f32) = (m ((d.tc : Thread nD τ).loc main_arg16) : FVec Ideal S4x128 .f32) := (keep3 m d main_arg16 (by decide)).trans (r3_main_arg16 m d)
theorem r5_main_arg16 : (R5 m d (Proc.devRef .tc main_arg16) : FVec Ideal S4x128 .f32) = (m ((d.tc : Thread nD τ).loc main_arg16) : FVec Ideal S4x128 .f32) := (keep4 m d main_arg16 (by decide)).trans (r4_main_arg16 m d)
theorem r1_main_arg17 : (R1 m d (Proc.devRef .tc main_arg17) : FVec Ideal S4x128x128 .f32) = (m ((d.tc : Thread nD τ).loc main_arg17) : FVec Ideal S4x128x128 .f32) := keep0 m d main_arg17 (by decide)
theorem r2_main_arg17 : (R2 m d (Proc.devRef .tc main_arg17) : FVec Ideal S4x128x128 .f32) = (m ((d.tc : Thread nD τ).loc main_arg17) : FVec Ideal S4x128x128 .f32) := (keep1 m d main_arg17 (by decide)).trans (r1_main_arg17 m d)
theorem r3_main_arg17 : (R3 m d (Proc.devRef .tc main_arg17) : FVec Ideal S4x128x128 .f32) = (m ((d.tc : Thread nD τ).loc main_arg17) : FVec Ideal S4x128x128 .f32) := (keep2 m d main_arg17 (by decide)).trans (r2_main_arg17 m d)
theorem r4_main_arg17 : (R4 m d (Proc.devRef .tc main_arg17) : FVec Ideal S4x128x128 .f32) = (m ((d.tc : Thread nD τ).loc main_arg17) : FVec Ideal S4x128x128 .f32) := (keep3 m d main_arg17 (by decide)).trans (r3_main_arg17 m d)
theorem r5_main_arg17 : (R5 m d (Proc.devRef .tc main_arg17) : FVec Ideal S4x128x128 .f32) = (m ((d.tc : Thread nD τ).loc main_arg17) : FVec Ideal S4x128x128 .f32) := (keep4 m d main_arg17 (by decide)).trans (r4_main_arg17 m d)
theorem r1_main_arg18 : (R1 m d (Proc.devRef .tc main_arg18) : FVec Ideal S4x128 .f32) = (m ((d.tc : Thread nD τ).loc main_arg18) : FVec Ideal S4x128 .f32) := keep0 m d main_arg18 (by decide)
theorem r2_main_arg18 : (R2 m d (Proc.devRef .tc main_arg18) : FVec Ideal S4x128 .f32) = (m ((d.tc : Thread nD τ).loc main_arg18) : FVec Ideal S4x128 .f32) := (keep1 m d main_arg18 (by decide)).trans (r1_main_arg18 m d)
theorem r3_main_arg18 : (R3 m d (Proc.devRef .tc main_arg18) : FVec Ideal S4x128 .f32) = (m ((d.tc : Thread nD τ).loc main_arg18) : FVec Ideal S4x128 .f32) := (keep2 m d main_arg18 (by decide)).trans (r2_main_arg18 m d)
theorem r4_main_arg18 : (R4 m d (Proc.devRef .tc main_arg18) : FVec Ideal S4x128 .f32) = (m ((d.tc : Thread nD τ).loc main_arg18) : FVec Ideal S4x128 .f32) := (keep3 m d main_arg18 (by decide)).trans (r3_main_arg18 m d)
theorem r5_main_arg18 : (R5 m d (Proc.devRef .tc main_arg18) : FVec Ideal S4x128 .f32) = (m ((d.tc : Thread nD τ).loc main_arg18) : FVec Ideal S4x128 .f32) := (keep4 m d main_arg18 (by decide)).trans (r4_main_arg18 m d)
theorem r1_main_arg19 : (R1 m d (Proc.devRef .tc main_arg19) : FVec Ideal S128x1 .f32) = (m ((d.tc : Thread nD τ).loc main_arg19) : FVec Ideal S128x1 .f32) := keep0 m d main_arg19 (by decide)
theorem r2_main_arg19 : (R2 m d (Proc.devRef .tc main_arg19) : FVec Ideal S128x1 .f32) = (m ((d.tc : Thread nD τ).loc main_arg19) : FVec Ideal S128x1 .f32) := (keep1 m d main_arg19 (by decide)).trans (r1_main_arg19 m d)
theorem r3_main_arg19 : (R3 m d (Proc.devRef .tc main_arg19) : FVec Ideal S128x1 .f32) = (m ((d.tc : Thread nD τ).loc main_arg19) : FVec Ideal S128x1 .f32) := (keep2 m d main_arg19 (by decide)).trans (r2_main_arg19 m d)
theorem r4_main_arg19 : (R4 m d (Proc.devRef .tc main_arg19) : FVec Ideal S128x1 .f32) = (m ((d.tc : Thread nD τ).loc main_arg19) : FVec Ideal S128x1 .f32) := (keep3 m d main_arg19 (by decide)).trans (r3_main_arg19 m d)
theorem r5_main_arg19 : (R5 m d (Proc.devRef .tc main_arg19) : FVec Ideal S128x1 .f32) = (m ((d.tc : Thread nD τ).loc main_arg19) : FVec Ideal S128x1 .f32) := (keep4 m d main_arg19 (by decide)).trans (r4_main_arg19 m d)
theorem r1_main_arg20 : (R1 m d (Proc.devRef .tc main_arg20) : FVec Ideal S1 .f32) = (m ((d.tc : Thread nD τ).loc main_arg20) : FVec Ideal S1 .f32) := keep0 m d main_arg20 (by decide)
theorem r2_main_arg20 : (R2 m d (Proc.devRef .tc main_arg20) : FVec Ideal S1 .f32) = (m ((d.tc : Thread nD τ).loc main_arg20) : FVec Ideal S1 .f32) := (keep1 m d main_arg20 (by decide)).trans (r1_main_arg20 m d)
theorem r3_main_arg20 : (R3 m d (Proc.devRef .tc main_arg20) : FVec Ideal S1 .f32) = (m ((d.tc : Thread nD τ).loc main_arg20) : FVec Ideal S1 .f32) := (keep2 m d main_arg20 (by decide)).trans (r2_main_arg20 m d)
theorem r4_main_arg20 : (R4 m d (Proc.devRef .tc main_arg20) : FVec Ideal S1 .f32) = (m ((d.tc : Thread nD τ).loc main_arg20) : FVec Ideal S1 .f32) := (keep3 m d main_arg20 (by decide)).trans (r3_main_arg20 m d)
theorem r5_main_arg20 : (R5 m d (Proc.devRef .tc main_arg20) : FVec Ideal S1 .f32) = (m ((d.tc : Thread nD τ).loc main_arg20) : FVec Ideal S1 .f32) := (keep4 m d main_arg20 (by decide)).trans (r4_main_arg20 m d)

/-- No operation writes an argument: at the return each holds its launch contents. -/
theorem r6_main_arg0 : R6 m d (Proc.devRef .tc main_arg0) = m ((d.tc : Thread nD τ).loc main_arg0) :=
  (keep5 m d main_arg0 (by decide)).trans ((keep4 m d main_arg0 (by decide)).trans ((keep3 m d main_arg0 (by decide)).trans
    ((keep2 m d main_arg0 (by decide)).trans ((keep1 m d main_arg0 (by decide)).trans (keep0 m d main_arg0 (by decide))))))
theorem r6_main_arg1 : R6 m d (Proc.devRef .tc main_arg1) = m ((d.tc : Thread nD τ).loc main_arg1) :=
  (keep5 m d main_arg1 (by decide)).trans ((keep4 m d main_arg1 (by decide)).trans ((keep3 m d main_arg1 (by decide)).trans
    ((keep2 m d main_arg1 (by decide)).trans ((keep1 m d main_arg1 (by decide)).trans (keep0 m d main_arg1 (by decide))))))
theorem r6_main_arg2 : R6 m d (Proc.devRef .tc main_arg2) = m ((d.tc : Thread nD τ).loc main_arg2) :=
  (keep5 m d main_arg2 (by decide)).trans ((keep4 m d main_arg2 (by decide)).trans ((keep3 m d main_arg2 (by decide)).trans
    ((keep2 m d main_arg2 (by decide)).trans ((keep1 m d main_arg2 (by decide)).trans (keep0 m d main_arg2 (by decide))))))
theorem r6_main_arg3 : R6 m d (Proc.devRef .tc main_arg3) = m ((d.tc : Thread nD τ).loc main_arg3) :=
  (keep5 m d main_arg3 (by decide)).trans ((keep4 m d main_arg3 (by decide)).trans ((keep3 m d main_arg3 (by decide)).trans
    ((keep2 m d main_arg3 (by decide)).trans ((keep1 m d main_arg3 (by decide)).trans (keep0 m d main_arg3 (by decide))))))
theorem r6_main_arg4 : R6 m d (Proc.devRef .tc main_arg4) = m ((d.tc : Thread nD τ).loc main_arg4) :=
  (keep5 m d main_arg4 (by decide)).trans ((keep4 m d main_arg4 (by decide)).trans ((keep3 m d main_arg4 (by decide)).trans
    ((keep2 m d main_arg4 (by decide)).trans ((keep1 m d main_arg4 (by decide)).trans (keep0 m d main_arg4 (by decide))))))
theorem r6_main_arg5 : R6 m d (Proc.devRef .tc main_arg5) = m ((d.tc : Thread nD τ).loc main_arg5) :=
  (keep5 m d main_arg5 (by decide)).trans ((keep4 m d main_arg5 (by decide)).trans ((keep3 m d main_arg5 (by decide)).trans
    ((keep2 m d main_arg5 (by decide)).trans ((keep1 m d main_arg5 (by decide)).trans (keep0 m d main_arg5 (by decide))))))
theorem r6_main_arg6 : R6 m d (Proc.devRef .tc main_arg6) = m ((d.tc : Thread nD τ).loc main_arg6) :=
  (keep5 m d main_arg6 (by decide)).trans ((keep4 m d main_arg6 (by decide)).trans ((keep3 m d main_arg6 (by decide)).trans
    ((keep2 m d main_arg6 (by decide)).trans ((keep1 m d main_arg6 (by decide)).trans (keep0 m d main_arg6 (by decide))))))
theorem r6_main_arg7 : R6 m d (Proc.devRef .tc main_arg7) = m ((d.tc : Thread nD τ).loc main_arg7) :=
  (keep5 m d main_arg7 (by decide)).trans ((keep4 m d main_arg7 (by decide)).trans ((keep3 m d main_arg7 (by decide)).trans
    ((keep2 m d main_arg7 (by decide)).trans ((keep1 m d main_arg7 (by decide)).trans (keep0 m d main_arg7 (by decide))))))
theorem r6_main_arg8 : R6 m d (Proc.devRef .tc main_arg8) = m ((d.tc : Thread nD τ).loc main_arg8) :=
  (keep5 m d main_arg8 (by decide)).trans ((keep4 m d main_arg8 (by decide)).trans ((keep3 m d main_arg8 (by decide)).trans
    ((keep2 m d main_arg8 (by decide)).trans ((keep1 m d main_arg8 (by decide)).trans (keep0 m d main_arg8 (by decide))))))
theorem r6_main_arg9 : R6 m d (Proc.devRef .tc main_arg9) = m ((d.tc : Thread nD τ).loc main_arg9) :=
  (keep5 m d main_arg9 (by decide)).trans ((keep4 m d main_arg9 (by decide)).trans ((keep3 m d main_arg9 (by decide)).trans
    ((keep2 m d main_arg9 (by decide)).trans ((keep1 m d main_arg9 (by decide)).trans (keep0 m d main_arg9 (by decide))))))
theorem r6_main_arg10 : R6 m d (Proc.devRef .tc main_arg10) = m ((d.tc : Thread nD τ).loc main_arg10) :=
  (keep5 m d main_arg10 (by decide)).trans ((keep4 m d main_arg10 (by decide)).trans ((keep3 m d main_arg10 (by decide)).trans
    ((keep2 m d main_arg10 (by decide)).trans ((keep1 m d main_arg10 (by decide)).trans (keep0 m d main_arg10 (by decide))))))
theorem r6_main_arg11 : R6 m d (Proc.devRef .tc main_arg11) = m ((d.tc : Thread nD τ).loc main_arg11) :=
  (keep5 m d main_arg11 (by decide)).trans ((keep4 m d main_arg11 (by decide)).trans ((keep3 m d main_arg11 (by decide)).trans
    ((keep2 m d main_arg11 (by decide)).trans ((keep1 m d main_arg11 (by decide)).trans (keep0 m d main_arg11 (by decide))))))
theorem r6_main_arg12 : R6 m d (Proc.devRef .tc main_arg12) = m ((d.tc : Thread nD τ).loc main_arg12) :=
  (keep5 m d main_arg12 (by decide)).trans ((keep4 m d main_arg12 (by decide)).trans ((keep3 m d main_arg12 (by decide)).trans
    ((keep2 m d main_arg12 (by decide)).trans ((keep1 m d main_arg12 (by decide)).trans (keep0 m d main_arg12 (by decide))))))
theorem r6_main_arg13 : R6 m d (Proc.devRef .tc main_arg13) = m ((d.tc : Thread nD τ).loc main_arg13) :=
  (keep5 m d main_arg13 (by decide)).trans ((keep4 m d main_arg13 (by decide)).trans ((keep3 m d main_arg13 (by decide)).trans
    ((keep2 m d main_arg13 (by decide)).trans ((keep1 m d main_arg13 (by decide)).trans (keep0 m d main_arg13 (by decide))))))
theorem r6_main_arg14 : R6 m d (Proc.devRef .tc main_arg14) = m ((d.tc : Thread nD τ).loc main_arg14) :=
  (keep5 m d main_arg14 (by decide)).trans ((keep4 m d main_arg14 (by decide)).trans ((keep3 m d main_arg14 (by decide)).trans
    ((keep2 m d main_arg14 (by decide)).trans ((keep1 m d main_arg14 (by decide)).trans (keep0 m d main_arg14 (by decide))))))
theorem r6_main_arg15 : R6 m d (Proc.devRef .tc main_arg15) = m ((d.tc : Thread nD τ).loc main_arg15) :=
  (keep5 m d main_arg15 (by decide)).trans ((keep4 m d main_arg15 (by decide)).trans ((keep3 m d main_arg15 (by decide)).trans
    ((keep2 m d main_arg15 (by decide)).trans ((keep1 m d main_arg15 (by decide)).trans (keep0 m d main_arg15 (by decide))))))
theorem r6_main_arg16 : R6 m d (Proc.devRef .tc main_arg16) = m ((d.tc : Thread nD τ).loc main_arg16) :=
  (keep5 m d main_arg16 (by decide)).trans ((keep4 m d main_arg16 (by decide)).trans ((keep3 m d main_arg16 (by decide)).trans
    ((keep2 m d main_arg16 (by decide)).trans ((keep1 m d main_arg16 (by decide)).trans (keep0 m d main_arg16 (by decide))))))
theorem r6_main_arg17 : R6 m d (Proc.devRef .tc main_arg17) = m ((d.tc : Thread nD τ).loc main_arg17) :=
  (keep5 m d main_arg17 (by decide)).trans ((keep4 m d main_arg17 (by decide)).trans ((keep3 m d main_arg17 (by decide)).trans
    ((keep2 m d main_arg17 (by decide)).trans ((keep1 m d main_arg17 (by decide)).trans (keep0 m d main_arg17 (by decide))))))
theorem r6_main_arg18 : R6 m d (Proc.devRef .tc main_arg18) = m ((d.tc : Thread nD τ).loc main_arg18) :=
  (keep5 m d main_arg18 (by decide)).trans ((keep4 m d main_arg18 (by decide)).trans ((keep3 m d main_arg18 (by decide)).trans
    ((keep2 m d main_arg18 (by decide)).trans ((keep1 m d main_arg18 (by decide)).trans (keep0 m d main_arg18 (by decide))))))
theorem r6_main_arg19 : R6 m d (Proc.devRef .tc main_arg19) = m ((d.tc : Thread nD τ).loc main_arg19) :=
  (keep5 m d main_arg19 (by decide)).trans ((keep4 m d main_arg19 (by decide)).trans ((keep3 m d main_arg19 (by decide)).trans
    ((keep2 m d main_arg19 (by decide)).trans ((keep1 m d main_arg19 (by decide)).trans (keep0 m d main_arg19 (by decide))))))
theorem r6_main_arg20 : R6 m d (Proc.devRef .tc main_arg20) = m ((d.tc : Thread nD τ).loc main_arg20) :=
  (keep5 m d main_arg20 (by decide)).trans ((keep4 m d main_arg20 (by decide)).trans ((keep3 m d main_arg20 (by decide)).trans
    ((keep2 m d main_arg20 (by decide)).trans ((keep1 m d main_arg20 (by decide)).trans (keep0 m d main_arg20 (by decide))))))

end Cert.ReferenceIdeal.RefValue

end
-- ==== Proof.RefStages.lean ====
/-
  The reference's result as the network of `LayerSpec` layers.

  Cut by cut through the reference's run: the edge endpoints and the stacked parameters are never overwritten, so at
  every cut they hold their functions of the launch arrays; each layer's output buffer holds the layer of the
  previous layer's output and its neighbour sums; the result buffer holds the read-out of the last layer's output.
-/
import proofs.«130913_j56831007261128_1_alg».proof.Proof.RefKeep
import proofs.«130913_j56831007261128_1_alg».proof.Proof.RefLayers

set_option maxRecDepth 16384

noncomputable section

namespace Cert.ReferenceIdeal.RefValue

open Cert.ReferenceIdeal Cert.ReferenceIdeal.Gen Cert.ReferenceIdeal.RefRun Cert.ReferenceIdeal.Terms
open Idealize.ShloMosaic Idealize.ShloMosaic.TcCoe Idealize.ShloMosaic.ValueIdx Idealize.ShloMosaic.StableHlo Idealize.SL.Sem

variable (m : (ℓ : Loc nD τ sig) → Buf (Elt Ideal) ℓ) (d : Dev nD)

/-! ## The layers' output buffers -/

set_option maxHeartbeats 8000000 in
/-- After the first stretch the layer-1 output buffer holds `h1`. -/
theorem r1_out : (R1 m d (Proc.devRef .tc main_v39) : FVec Ideal S100000x128 .f32) = h1 m d :=
  (show R1 m d (Proc.devRef .tc main_v39) = refLayer dot_S100000x3_S3x128_S100000x128_1_0_0_1_n_n (m ((d.tc : Thread nD τ).loc main_arg0) : FVec Ideal S100000x3 .f32)
      (agg3 (m ((d.tc : Thread nD τ).loc main_arg0) : FVec Ideal S100000x3 .f32) (srcOf (m ((d.tc : Thread nD τ).loc main_arg1) : IVec S2x600000 32)) (dstOf (m ((d.tc : Thread nD τ).loc main_arg1) : IVec S2x600000 32))) (m ((d.tc : Thread nD τ).loc main_arg3) : FVec Ideal S3x128 .f32) (m ((d.tc : Thread nD τ).loc main_arg4) : FVec Ideal S128 .f32) (m ((d.tc : Thread nD τ).loc main_arg5) : FVec Ideal S128 .f32) (m ((d.tc : Thread nD τ).loc main_arg6) : FVec Ideal S128 .f32) (m ((d.tc : Thread nD τ).loc main_arg7) : FVec Ideal S128 .f32) (m ((d.tc : Thread nD τ).loc main_arg8) : FVec Ideal S128 .f32) (m ((d.tc : Thread nD τ).loc main_arg9) : FVec Ideal S128x128 .f32) (m ((d.tc : Thread nD τ).loc main_arg10) : FVec Ideal S128 .f32) from by
    show after opsL0 (R0 m d) (Proc.devRef .tc main_v39) = _
    after_results_simp
    all_goals rfl).trans
    (refLayer_eq _ rfl rfl h3_l0 h3_l1 h3_r0 h3_r1 _ _ _ _ _ _ _ _ _ _)
set_option maxHeartbeats 8000000 in
/-- One stretch on: the layer-2 output buffer in terms of the contents at the previous cut. -/
theorem r2_step : (R2 m d (Proc.devRef .tc main_v91) : FVec Ideal S100000x128 .f32)
    = GinLayer.layer (R1 m d (Proc.devRef .tc main_v39) : FVec Ideal S100000x128 .f32) (agg128 (R1 m d (Proc.devRef .tc main_v39) : FVec Ideal S100000x128 .f32) (R1 m d (Proc.devRef .tc main_v1) : IVec S600000 32) (R1 m d (Proc.devRef .tc main_v3) : IVec S600000 32))
        (mat0 (R1 m d (Proc.devRef .tc main_arg11) : FVec Ideal S4x128x128 .f32)) (fun j => row0 (R1 m d (Proc.devRef .tc main_arg12) : FVec Ideal S4x128 .f32) (ix1 j)) (fun j => row0 (R1 m d (Proc.devRef .tc main_arg13) : FVec Ideal S4x128 .f32) (ix1 j)) (fun j => row0 (R1 m d (Proc.devRef .tc main_arg14) : FVec Ideal S4x128 .f32) (ix1 j))
        (fun j => row0 (R1 m d (Proc.devRef .tc main_arg15) : FVec Ideal S4x128 .f32) (ix1 j)) (fun j => row0 (R1 m d (Proc.devRef .tc main_arg16) : FVec Ideal S4x128 .f32) (ix1 j)) (mat0 (R1 m d (Proc.devRef .tc main_arg17) : FVec Ideal S4x128x128 .f32)) (fun j => row0 (R1 m d (Proc.devRef .tc main_arg18) : FVec Ideal S4x128 .f32) (ix1 j)) :=
  (show R2 m d (Proc.devRef .tc main_v91) = refLayer dot_S100000x128_S128x128_S100000x128_1_0_0_1_n_n (R1 m d (Proc.devRef .tc main_v39) : FVec Ideal S100000x128 .f32)
      (agg128 (R1 m d (Proc.devRef .tc main_v39) : FVec Ideal S100000x128 .f32) (R1 m d (Proc.devRef .tc main_v1) : IVec S600000 32) (R1 m d (Proc.devRef .tc main_v3) : IVec S600000 32))
      (mat0 (R1 m d (Proc.devRef .tc main_arg11) : FVec Ideal S4x128x128 .f32)) (row0 (R1 m d (Proc.devRef .tc main_arg12) : FVec Ideal S4x128 .f32)) (row0 (R1 m d (Proc.devRef .tc main_arg13) : FVec Ideal S4x128 .f32)) (row0 (R1 m d (Proc.devRef .tc main_arg14) : FVec Ideal S4x128 .f32)) (row0 (R1 m d (Proc.devRef .tc main_arg15) : FVec Ideal S4x128 .f32)) (row0 (R1 m d (Proc.devRef .tc main_arg16) : FVec Ideal S4x128 .f32))
      (mat0 (R1 m d (Proc.devRef .tc main_arg17) : FVec Ideal S4x128x128 .f32)) (row0 (R1 m d (Proc.devRef .tc main_arg18) : FVec Ideal S4x128 .f32)) from by
    show after opsL1 (R1 m d) (Proc.devRef .tc main_v91) = _
    after_results_simp
    all_goals rfl).trans
    (refLayer_eq _ rfl rfl h128_l0 h128_l1 h128_r0 h128_r1 _ _ _ _ _ _ _ _ _ _)
set_option maxHeartbeats 8000000 in
/-- The layer-2 output buffer holds `h2`. -/
theorem r2_out : (R2 m d (Proc.devRef .tc main_v91) : FVec Ideal S100000x128 .f32) = h2 m d := by
  rw [r2_step, r1_out, r1_main_v1, r1_main_v3, r1_main_arg11, r1_main_arg12, r1_main_arg13, r1_main_arg14,
    r1_main_arg15, r1_main_arg16, r1_main_arg17, r1_main_arg18]
  rfl
set_option maxHeartbeats 8000000 in
/-- One stretch on: the layer-3 output buffer in terms of the contents at the previous cut. -/
theorem r3_step : (R3 m d (Proc.devRef .tc main_v143) : FVec Ideal S100000x128 .f32)
    = GinLayer.layer (R2 m d (Proc.devRef .tc main_v91) : FVec Ideal S100000x128 .f32) (agg128 (R2 m d (Proc.devRef .tc main_v91) : FVec Ideal S100000x128 .f32) (R2 m d (Proc.devRef .tc main_v1) : IVec S600000 32) (R2 m d (Proc.devRef .tc main_v3) : IVec S600000 32))
        (mat1 (R2 m d (Proc.devRef .tc main_arg11) : FVec Ideal S4x128x128 .f32)) (fun j => row1 (R2 m d (Proc.devRef .tc main_arg12) : FVec Ideal S4x128 .f32) (ix1 j)) (fun j => row1 (R2 m d (Proc.devRef .tc main_arg13) : FVec Ideal S4x128 .f32) (ix1 j)) (fun j => row1 (R2 m d (Proc.devRef .tc main_arg14) : FVec Ideal S4x128 .f32) (ix1 j))
        (fun j => row1 (R2 m d (Proc.devRef .tc main_arg15) : FVec Ideal S4x128 .f32) (ix1 j)) (fun j => row1 (R2 m d (Proc.devRef .tc main_arg16) : FVec Ideal S4x128 .f32) (ix1 j)) (mat1 (R2 m d (Proc.devRef .tc main_arg17) : FVec Ideal S4x128x128 .f32)) (fun j => row1 (R2 m d (Proc.devRef .tc main_arg18) : FVec Ideal S4x128 .f32) (ix1 j)) :=
  (show R3 m d (Proc.devRef .tc main_v143) = refLayer dot_S100000x128_S128x128_S100000x128_1_0_0_1_n_n (R2 m d (Proc.devRef .tc main_v91) : FVec Ideal S100000x128 .f32)
      (agg128 (R2 m d (Proc.devRef .tc main_v91) : FVec Ideal S100000x128 .f32) (R2 m d (Proc.devRef .tc main_v1) : IVec S600000 32) (R2 m d (Proc.devRef .tc main_v3) : IVec S600000 32))
      (mat1 (R2 m d (Proc.devRef .tc main_arg11) : FVec Ideal S4x128x128 .f32)) (row1 (R2 m d (Proc.devRef .tc main_arg12) : FVec Ideal S4x128 .f32)) (row1 (R2 m d (Proc.devRef .tc main_arg13) : FVec Ideal S4x128 .f32)) (row1 (R2 m d (Proc.devRef .tc main_arg14) : FVec Ideal S4x128 .f32)) (row1 (R2 m d (Proc.devRef .tc main_arg15) : FVec Ideal S4x128 .f32)) (row1 (R2 m d (Proc.devRef .tc main_arg16) : FVec Ideal S4x128 .f32))
      (mat1 (R2 m d (Proc.devRef .tc main_arg17) : FVec Ideal S4x128x128 .f32)) (row1 (R2 m d (Proc.devRef .tc main_arg18) : FVec Ideal S4x128 .f32)) from by
    show after opsL2 (R2 m d) (Proc.devRef .tc main_v143) = _
    after_results_simp
    all_goals rfl).trans
    (refLayer_eq _ rfl rfl h128_l0 h128_l1 h128_r0 h128_r1 _ _ _ _ _ _ _ _ _ _)
set_option maxHeartbeats 8000000 in
/-- The layer-3 output buffer holds `h3`. -/
theorem r3_out : (R3 m d (Proc.devRef .tc main_v143) : FVec Ideal S100000x128 .f32) = h3 m d := by
  rw [r3_step, r2_out, r2_main_v1, r2_main_v3, r2_main_arg11, r2_main_arg12, r2_main_arg13, r2_main_arg14,
    r2_main_arg15, r2_main_arg16, r2_main_arg17, r2_main_arg18]
  rfl
set_option maxHeartbeats 8000000 in
/-- One stretch on: the layer-4 output buffer in terms of the contents at the previous cut. -/
theorem r4_step : (R4 m d (Proc.devRef .tc main_v195) : FVec Ideal S100000x128 .f32)
    = GinLayer.layer (R3 m d (Proc.devRef .tc main_v143) : FVec Ideal S100000x128 .f32) (agg128 (R3 m d (Proc.devRef .tc main_v143) : FVec Ideal S100000x128 .f32) (R3 m d (Proc.devRef .tc main_v1) : IVec S600000 32) (R3 m d (Proc.devRef .tc main_v3) : IVec S600000 32))
        (mat2 (R3 m d (Proc.devRef .tc main_arg11) : FVec Ideal S4x128x128 .f32)) (fun j => row2 (R3 m d (Proc.devRef .tc main_arg12) : FVec Ideal S4x128 .f32) (ix1 j)) (fun j => row2 (R3 m d (Proc.devRef .tc main_arg13) : FVec Ideal S4x128 .f32) (ix1 j)) (fun j => row2 (R3 m d (Proc.devRef .tc main_arg14) : FVec Ideal S4x128 .f32) (ix1 j))
        (fun j => row2 (R3 m d (Proc.devRef .tc main_arg15) : FVec Ideal S4x128 .f32) (ix1 j)) (fun j => row2 (R3 m d (Proc.devRef .tc main_arg16) : FVec Ideal S4x128 .f32) (ix1 j)) (mat2 (R3 m d (Proc.devRef .tc main_arg17) : FVec Ideal S4x128x128 .f32)) (fun j => row2 (R3 m d (Proc.devRef .tc main_arg18) : FVec Ideal S4x128 .f32) (ix1 j)) :=
  (show R4 m d (Proc.devRef .tc main_v195) = refLayer dot_S100000x128_S128x128_S100000x128_1_0_0_1_n_n (R3 m d (Proc.devRef .tc main_v143) : FVec Ideal S100000x128 .f32)
      (agg128 (R3 m d (Proc.devRef .tc main_v143) : FVec Ideal S100000x128 .f32) (R3 m d (Proc.devRef .tc main_v1) : IVec S600000 32) (R3 m d (Proc.devRef .tc main_v3) : IVec S600000 32))
      (mat2 (R3 m d (Proc.devRef .tc main_arg11) : FVec Ideal S4x128x128 .f32)) (row2 (R3 m d (Proc.devRef .tc main_arg12) : FVec Ideal S4x128 .f32)) (row2 (R3 m d (Proc.devRef .tc main_arg13) : FVec Ideal S4x128 .f32)) (row2 (R3 m d (Proc.devRef .tc main_arg14) : FVec Ideal S4x128 .f32)) (row2 (R3 m d (Proc.devRef .tc main_arg15) : FVec Ideal S4x128 .f32)) (row2 (R3 m d (Proc.devRef .tc main_arg16) : FVec Ideal S4x128 .f32))
      (mat2 (R3 m d (Proc.devRef .tc main_arg17) : FVec Ideal S4x128x128 .f32)) (row2 (R3 m d (Proc.devRef .tc main_arg18) : FVec Ideal S4x128 .f32)) from by
    show after opsL3 (R3 m d) (Proc.devRef .tc main_v195) = _
    after_results_simp
    all_goals rfl).trans
    (refLayer_eq _ rfl rfl h128_l0 h128_l1 h128_r0 h128_r1 _ _ _ _ _ _ _ _ _ _)
set_option maxHeartbeats 8000000 in
/-- The layer-4 output buffer holds `h4`. -/
theorem r4_out : (R4 m d (Proc.devRef .tc main_v195) : FVec Ideal S100000x128 .f32) = h4 m d := by
  rw [r4_step, r3_out, r3_main_v1, r3_main_v3, r3_main_arg11, r3_main_arg12, r3_main_arg13, r3_main_arg14,
    r3_main_arg15, r3_main_arg16, r3_main_arg17, r3_main_arg18]
  rfl
set_option maxHeartbeats 8000000 in
/-- One stretch on: the layer-5 output buffer in terms of the contents at the previous cut. -/
theorem r5_step : (R5 m d (Proc.devRef .tc main_v247) : FVec Ideal S100000x128 .f32)
    = GinLayer.layer (R4 m d (Proc.devRef .tc main_v195) : FVec Ideal S100000x128 .f32) (agg128 (R4 m d (Proc.devRef .tc main_v195) : FVec Ideal S100000x128 .f32) (R4 m d (Proc.devRef .tc main_v1) : IVec S600000 32) (R4 m d (Proc.devRef .tc main_v3) : IVec S600000 32))
        (mat3 (R4 m d (Proc.devRef .tc main_arg11) : FVec Ideal S4x128x128 .f32)) (fun j => row3 (R4 m d (Proc.devRef .tc main_arg12) : FVec Ideal S4x128 .f32) (ix1 j)) (fun j => row3 (R4 m d (Proc.devRef .tc main_arg13) : FVec Ideal S4x128 .f32) (ix1 j)) (fun j => row3 (R4 m d (Proc.devRef .tc main_arg14) : FVec Ideal S4x128 .f32) (ix1 j))
        (fun j => row3 (R4 m d (Proc.devRef .tc main_arg15) : FVec Ideal S4x128 .f32) (ix1 j)) (fun j => row3 (R4 m d (Proc.devRef .tc main_arg16) : FVec Ideal S4x128 .f32) (ix1 j)) (mat3 (R4 m d (Proc.devRef .tc main_arg17) : FVec Ideal S4x128x128 .f32)) (fun j => row3 (R4 m d (Proc.devRef .tc main_arg18) : FVec Ideal S4x128 .f32) (ix1 j)) :=
  (show R5 m d (Proc.devRef .tc main_v247) = refLayer dot_S100000x128_S128x128_S100000x128_1_0_0_1_n_n (R4 m d (Proc.devRef .tc main_v195) : FVec Ideal S100000x128 .f32)
      (agg128 (R4 m d (Proc.devRef .tc main_v195) : FVec Ideal S100000x128 .f32) (R4 m d (Proc.devRef .tc main_v1) : IVec S600000 32) (R4 m d (Proc.devRef .tc main_v3) : IVec S600000 32))
      (mat3 (R4 m d (Proc.devRef .tc main_arg11) : FVec Ideal S4x128x128 .f32)) (row3 (R4 m d (Proc.devRef .tc main_arg12) : FVec Ideal S4x128 .f32)) (row3 (R4 m d (Proc.devRef .tc main_arg13) : FVec Ideal S4x128 .f32)) (row3 (R4 m d (Proc.devRef .tc main_arg14) : FVec Ideal S4x128 .f32)) (row3 (R4 m d (Proc.devRef .tc main_arg15) : FVec Ideal S4x128 .f32)) (row3 (R4 m d (Proc.devRef .tc main_arg16) : FVec Ideal S4x128 .f32))
      (mat3 (R4 m d (Proc.devRef .tc main_arg17) : FVec Ideal S4x128x128 .f32)) (row3 (R4 m d (Proc.devRef .tc main_arg18) : FVec Ideal S4x128 .f32)) from by
    show after opsL4 (R4 m d) (Proc.devRef .tc main_v247) = _
    after_results_simp
    all_goals rfl).trans
    (refLayer_eq _ rfl rfl h128_l0 h128_l1 h128_r0 h128_r1 _ _ _ _ _ _ _ _ _ _)
set_option maxHeartbeats 8000000 in
/-- The layer-5 output buffer holds `h5`. -/
theorem r5_out : (R5 m d (Proc.devRef .tc main_v247) : FVec Ideal S100000x128 .f32) = h5 m d := by
  rw [r5_step, r4_out, r4_main_v1, r4_main_v3, r4_main_arg11, r4_main_arg12, r4_main_arg13, r4_main_arg14,
    r4_main_arg15, r4_main_arg16, r4_main_arg17, r4_main_arg18]
  rfl
set_option maxHeartbeats 8000000 in
/-- At the return the result buffer holds the read-out of `h5`. -/
theorem r6_out : (R6 m d (Proc.devRef .tc main_v255) : FVec Ideal S1000 .f32) = out m d := by
  have e : R6 m d (Proc.devRef .tc main_v255) = readout (R5 m d (Proc.devRef .tc main_v247) : FVec Ideal S100000x128 .f32) (R5 m d (Proc.devRef .tc main_arg2) : IVec S100000 32)
      (R5 m d (Proc.devRef .tc main_arg19) : FVec Ideal S128x1 .f32) (R5 m d (Proc.devRef .tc main_arg20) : FVec Ideal S1 .f32) := by
    show after opsT (R5 m d) (Proc.devRef .tc main_v255) = _
    after_results
    all_goals rfl
  rw [e, r5_out, r5_main_arg2, r5_main_arg19, r5_main_arg20]
  rfl
end Cert.ReferenceIdeal.RefValue

end
-- ==== Proof.Claims.lean ====
/-
  The five claims.

  Both idealized programs compute one function of the argument arrays: five layers, each the `LayerSpec` layer of
  the previous layer's output and its neighbour sums, then the read-out. The kernel computes a layer inside a call,
  block of rows by block of rows, from neighbour sums the host gathered and scattered; the reference computes it on
  the host over whole arrays. The neighbour sums, the parameter slices and the read-out are the same host operations
  in both programs. So from memories that agree on the arguments the two results are equal, entry by entry. No law
  beyond the definitions is used — no distributivity, no cancelling — so finiteness of the inputs is not needed.
-/
import proofs.«130913_j56831007261128_1_alg».proof.Defs
import proofs.«130913_j56831007261128_1_alg».proof.Proof.Gen.Kernel.Frame
import proofs.«130913_j56831007261128_1_alg».proof.Proof.Gen.Pre_finite_inputs
import proofs.«130913_j56831007261128_1_alg».proof.Proof.KernelStages
import proofs.«130913_j56831007261128_1_alg».proof.Proof.RefStages

set_option maxRecDepth 16384

noncomputable section

namespace Cert.Proof.Claims

open Idealize.ShloMosaic Idealize.ShloMosaic.TcCoe Idealize.SL.Sem

/-! ## The two programs' networks are one function of arrays that agree -/

/-- Layer 1's output is one function of the launch arrays in both programs. -/
theorem h1_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (e19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (e20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.KernelIdeal.KValue.h1 m c = Cert.ReferenceIdeal.RefValue.h1 m' c := by
  unfold Cert.KernelIdeal.KValue.h1 Cert.ReferenceIdeal.RefValue.h1
  rw [e0, e1, e3, e4, e5, e6, e7, e8, e9, e10]
  rfl
/-- So is layer 2's. -/
theorem h2_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (e19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (e20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.KernelIdeal.KValue.h2 m c = Cert.ReferenceIdeal.RefValue.h2 m' c := by
  unfold Cert.KernelIdeal.KValue.h2 Cert.ReferenceIdeal.RefValue.h2
  rw [← h1_eq m m' c e0 e1 e2 e3 e4 e5 e6 e7 e8 e9 e10 e11 e12 e13 e14 e15 e16 e17 e18 e19 e20, e1, e11, e12, e13, e14, e15, e16, e17, e18]
  rfl
/-- So is layer 3's. -/
theorem h3_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (e19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (e20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.KernelIdeal.KValue.h3 m c = Cert.ReferenceIdeal.RefValue.h3 m' c := by
  unfold Cert.KernelIdeal.KValue.h3 Cert.ReferenceIdeal.RefValue.h3
  rw [← h2_eq m m' c e0 e1 e2 e3 e4 e5 e6 e7 e8 e9 e10 e11 e12 e13 e14 e15 e16 e17 e18 e19 e20, e1, e11, e12, e13, e14, e15, e16, e17, e18]
  rfl
/-- So is layer 4's. -/
theorem h4_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (e19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (e20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.KernelIdeal.KValue.h4 m c = Cert.ReferenceIdeal.RefValue.h4 m' c := by
  unfold Cert.KernelIdeal.KValue.h4 Cert.ReferenceIdeal.RefValue.h4
  rw [← h3_eq m m' c e0 e1 e2 e3 e4 e5 e6 e7 e8 e9 e10 e11 e12 e13 e14 e15 e16 e17 e18 e19 e20, e1, e11, e12, e13, e14, e15, e16, e17, e18]
  rfl
/-- So is layer 5's. -/
theorem h5_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (e19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (e20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.KernelIdeal.KValue.h5 m c = Cert.ReferenceIdeal.RefValue.h5 m' c := by
  unfold Cert.KernelIdeal.KValue.h5 Cert.ReferenceIdeal.RefValue.h5
  rw [← h4_eq m m' c e0 e1 e2 e3 e4 e5 e6 e7 e8 e9 e10 e11 e12 e13 e14 e15 e16 e17 e18 e19 e20, e1, e11, e12, e13, e14, e15, e16, e17, e18]
  rfl
/-- And so is the result. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (e19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (e20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.KernelIdeal.KValue.out m c = Cert.ReferenceIdeal.RefValue.out m' c := by
  unfold Cert.KernelIdeal.KValue.out Cert.ReferenceIdeal.RefValue.out
  rw [← h5_eq m m' c e0 e1 e2 e3 e4 e5 e6 e7 e8 e9 e10 e11 e12 e13 e14 e15 e16 e17 e18 e19 e20, e2, e19, e20]
  rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference runs and keeps its arguments: its run, read at the argument buffers. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefValue.r6_main_arg0 m c),
      (h c Cert.ReferenceIdeal.main_arg1).trans (Cert.ReferenceIdeal.RefValue.r6_main_arg1 m c),
      (h c Cert.ReferenceIdeal.main_arg2).trans (Cert.ReferenceIdeal.RefValue.r6_main_arg2 m c),
      (h c Cert.ReferenceIdeal.main_arg3).trans (Cert.ReferenceIdeal.RefValue.r6_main_arg3 m c),
      (h c Cert.ReferenceIdeal.main_arg4).trans (Cert.ReferenceIdeal.RefValue.r6_main_arg4 m c),
      (h c Cert.ReferenceIdeal.main_arg5).trans (Cert.ReferenceIdeal.RefValue.r6_main_arg5 m c),
      (h c Cert.ReferenceIdeal.main_arg6).trans (Cert.ReferenceIdeal.RefValue.r6_main_arg6 m c),
      (h c Cert.ReferenceIdeal.main_arg7).trans (Cert.ReferenceIdeal.RefValue.r6_main_arg7 m c),
      (h c Cert.ReferenceIdeal.main_arg8).trans (Cert.ReferenceIdeal.RefValue.r6_main_arg8 m c),
      (h c Cert.ReferenceIdeal.main_arg9).trans (Cert.ReferenceIdeal.RefValue.r6_main_arg9 m c),
      (h c Cert.ReferenceIdeal.main_arg10).trans (Cert.ReferenceIdeal.RefValue.r6_main_arg10 m c),
      (h c Cert.ReferenceIdeal.main_arg11).trans (Cert.ReferenceIdeal.RefValue.r6_main_arg11 m c),
      (h c Cert.ReferenceIdeal.main_arg12).trans (Cert.ReferenceIdeal.RefValue.r6_main_arg12 m c),
      (h c Cert.ReferenceIdeal.main_arg13).trans (Cert.ReferenceIdeal.RefValue.r6_main_arg13 m c),
      (h c Cert.ReferenceIdeal.main_arg14).trans (Cert.ReferenceIdeal.RefValue.r6_main_arg14 m c),
      (h c Cert.ReferenceIdeal.main_arg15).trans (Cert.ReferenceIdeal.RefValue.r6_main_arg15 m c),
      (h c Cert.ReferenceIdeal.main_arg16).trans (Cert.ReferenceIdeal.RefValue.r6_main_arg16 m c),
      (h c Cert.ReferenceIdeal.main_arg17).trans (Cert.ReferenceIdeal.RefValue.r6_main_arg17 m c),
      (h c Cert.ReferenceIdeal.main_arg18).trans (Cert.ReferenceIdeal.RefValue.r6_main_arg18 m c),
      (h c Cert.ReferenceIdeal.main_arg19).trans (Cert.ReferenceIdeal.RefValue.r6_main_arg19 m c),
      (h c Cert.ReferenceIdeal.main_arg20).trans (Cert.ReferenceIdeal.RefValue.r6_main_arg20 m c)⟩)
    (Cert.ReferenceIdeal.RefRun.run (F := Ideal) m ρ)

theorem preserves : Cert.preserves_Kernel_KernelIdeal := trivial

/-- Both runs end with the result buffer at the network's value of the kernel's launch arrays. -/
theorem algebraic : Cert.algebraic_KernelIdeal_ReferenceIdeal := by
  intro m ρ m' ρ' _ hagree
  refine ⟨fun c => Cert.KernelIdeal.KValue.out m c, ?_, ?_⟩
  · exact (θ_run Cert.KernelIdeal.defs _ _).mono
      (fun r h c => ⟨(h c).1.trans (Cert.KernelIdeal.KValue.k_out m ρ c), (h c).2⟩)
      (Cert.KernelIdeal.Gen.run_result m ρ)
  · refine (θ_run Cert.ReferenceIdeal.defs _ _).mono (fun r h c => ?_) (Cert.ReferenceIdeal.RefRun.run (F := Ideal) m' ρ')
    obtain ⟨e0, e1, e2, e3, e4, e5, e6, e7, e8, e9, e10, e11, e12, e13, e14, e15, e16, e17, e18, e19, e20⟩ := hagree c
    exact ⟨((h c Cert.ReferenceIdeal.main_v255).trans (Cert.ReferenceIdeal.RefValue.r6_out m' c)).trans
        (out_eq m m' c e0 e1 e2 e3 e4 e5 e6 e7 e8 e9 e10 e11 e12 e13 e14 e15 e16 e17 e18 e19 e20).symm,
      (h c Cert.ReferenceIdeal.main_arg0).trans (Cert.ReferenceIdeal.RefValue.r6_main_arg0 m' c),
      (h c Cert.ReferenceIdeal.main_arg1).trans (Cert.ReferenceIdeal.RefValue.r6_main_arg1 m' c),
      (h c Cert.ReferenceIdeal.main_arg2).trans (Cert.ReferenceIdeal.RefValue.r6_main_arg2 m' c),
      (h c Cert.ReferenceIdeal.main_arg3).trans (Cert.ReferenceIdeal.RefValue.r6_main_arg3 m' c),
      (h c Cert.ReferenceIdeal.main_arg4).trans (Cert.ReferenceIdeal.RefValue.r6_main_arg4 m' c),
      (h c Cert.ReferenceIdeal.main_arg5).trans (Cert.ReferenceIdeal.RefValue.r6_main_arg5 m' c),
      (h c Cert.ReferenceIdeal.main_arg6).trans (Cert.ReferenceIdeal.RefValue.r6_main_arg6 m' c),
      (h c Cert.ReferenceIdeal.main_arg7).trans (Cert.ReferenceIdeal.RefValue.r6_main_arg7 m' c),
      (h c Cert.ReferenceIdeal.main_arg8).trans (Cert.ReferenceIdeal.RefValue.r6_main_arg8 m' c),
      (h c Cert.ReferenceIdeal.main_arg9).trans (Cert.ReferenceIdeal.RefValue.r6_main_arg9 m' c),
      (h c Cert.ReferenceIdeal.main_arg10).trans (Cert.ReferenceIdeal.RefValue.r6_main_arg10 m' c),
      (h c Cert.ReferenceIdeal.main_arg11).trans (Cert.ReferenceIdeal.RefValue.r6_main_arg11 m' c),
      (h c Cert.ReferenceIdeal.main_arg12).trans (Cert.ReferenceIdeal.RefValue.r6_main_arg12 m' c),
      (h c Cert.ReferenceIdeal.main_arg13).trans (Cert.ReferenceIdeal.RefValue.r6_main_arg13 m' c),
      (h c Cert.ReferenceIdeal.main_arg14).trans (Cert.ReferenceIdeal.RefValue.r6_main_arg14 m' c),
      (h c Cert.ReferenceIdeal.main_arg15).trans (Cert.ReferenceIdeal.RefValue.r6_main_arg15 m' c),
      (h c Cert.ReferenceIdeal.main_arg16).trans (Cert.ReferenceIdeal.RefValue.r6_main_arg16 m' c),
      (h c Cert.ReferenceIdeal.main_arg17).trans (Cert.ReferenceIdeal.RefValue.r6_main_arg17 m' c),
      (h c Cert.ReferenceIdeal.main_arg18).trans (Cert.ReferenceIdeal.RefValue.r6_main_arg18 m' c),
      (h c Cert.ReferenceIdeal.main_arg19).trans (Cert.ReferenceIdeal.RefValue.r6_main_arg19 m' c),
      (h c Cert.ReferenceIdeal.main_arg20).trans (Cert.ReferenceIdeal.RefValue.r6_main_arg20 m' c)⟩

end Cert.Proof.Claims

end
-- ==== Proof.lean ====
/-
  The proof of `Cert.Claim`: the three programs run and keep their arguments, the idealization rewrote nothing,
  and the idealized kernel and the idealized reference end with equal results.

  The kernel is a five-layer graph network: per layer the host gathers each edge's source row and scatter-adds it at
  the edge's target row, and a TensorCore call, tiled over blocks of 5000 nodes, adds the node features to these
  neighbour sums and applies a two-matrix unit with a per-unit normalisation and two clamps at zero; a host read-out
  sums node rows per graph and projects. Proof/LayerSpec.lean states one layer entry by entry; Proof/KernelPay.lean reads
  the call's body at an entry, Proof/Region0–4.lean assemble the 20 row blocks into the whole result array,
  Proof/KernelRun.lean and Proof/KernelStages.lean walk the run's segments; Proof/RefRun.lean, Proof/RefLayers.lean and
  Proof/RefStages.lean do the same for the reference's host program; Proof/Claims.lean joins the two.
-/
import proofs.«130913_j56831007261128_1_alg».proof.Defs
import proofs.«130913_j56831007261128_1_alg».proof.Proof.Gen.Kernel
import proofs.«130913_j56831007261128_1_alg».proof.Proof.Gen.KernelIdeal
import proofs.«130913_j56831007261128_1_alg».proof.Proof.Gen.ReferenceIdeal
import proofs.«130913_j56831007261128_1_alg».proof.Proof.Gen.Pre_finite_inputs
import proofs.«130913_j56831007261128_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
